-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S1023x64 : Shape := ⟨2, ![1023, 64]⟩
abbrev S1023 : Shape := ⟨1, ![1023]⟩
abbrev S1024x16 : Shape := ⟨2, ![1024, 16]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S1023x64 : S_.BroadcastsInDim S1023x64 (![] : Fin 0 → Fin S1023x64.rank)
  reducesTo_S1023x64_S_d0_1 : S1023x64.ReducesTo [0, 1] S_
  bcast_S_S1023 : S_.BroadcastsInDim S1023 (![] : Fin 0 → Fin S1023.rank)
  reducesTo_S1023_S_d0 : S1023.ReducesTo [0] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_v13 : IVec S_ 1) (main_v16 : IVec S1023 1) : IVec S_ 1 :=
  let main_c_5 : IVec S_ 1 := constantI S_ 1 1#1
  let main_v17 : IVec S_ 1 := (fun x v => Host.reduce IntOp.andi x v reducesTo_S1023_S_d0 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  main_v23

def fn {F : FTy → Type} [FloatOps F] (main_arg0 : FVec F S131072x64 .f32) (main_arg1 : FVec F S1023x64 .f32) (main_arg2 : FVec F S1023 .f32) (main_arg3 : FVec F S1023 .f32) (main_arg4 : FVec F S1024x16 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S1023x64 .f32 := Host.absf main_arg1
  let main_cst_0 : FVec F S_ .f32 := constant S_ .f32 0x7F800000#32
  let main_v5 : FVec F S1023x64 .f32 := broadcastInDim S1023x64 ![] bcast_S_S1023x64 main_cst_0
  let main_v6 : IVec S1023x64 1 := cmpf .olt main_v4 main_v5
  let main_c_1 : IVec S_ 1 := constantI S_ 1 1#1
  let main_v7 : IVec S_ 1 := (fun x v => Host.reduce IntOp.andi x v reducesTo_S1023x64_S_d0_1 h_S_) main_v6 main_c_1
  let main_v8 : IVec S_ 1 := andi main_v3 main_v7
  let main_v9 : FVec F S1023 .f32 := Host.absf main_arg2
  let main_cst_2 : FVec F S_ .f32 := constant S_ .f32 0x7F800000#32
  let main_v10 : FVec F S1023 .f32 := broadcastInDim S1023 ![] bcast_S_S1023 main_cst_2
  let main_v11 : IVec S1023 1 := cmpf .olt main_v9 main_v10
  let main_c_3 : IVec S_ 1 := constantI S_ 1 1#1
  let main_v12 : IVec S_ 1 := (fun x v => Host.reduce IntOp.andi x v reducesTo_S1023_S_d0 h_S_) main_v11 main_c_3
  let main_v13 : IVec S_ 1 := andi main_v8 main_v12
  let main_v14 : FVec F S1023 .f32 := Host.absf main_arg3
  let main_cst_4 : FVec F S_ .f32 := constant S_ .f32 0x7F800000#32
  let main_v15 : FVec F S1023 .f32 := broadcastInDim S1023 ![] bcast_S_S1023 main_cst_4
  let main_v16 : IVec S1023 1 := cmpf .olt main_v14 main_v15
  fn_part1 (F := F) main_arg4 main_v13 main_v16
-- ==== Kernel.lean ====
abbrev S131072x64 : Shape := ⟨2, ![131072, 64]⟩
abbrev S1023x64 : Shape := ⟨2, ![1023, 64]⟩
abbrev S1023 : Shape := ⟨1, ![1023]⟩
abbrev S1024x16 : Shape := ⟨2, ![1024, 16]⟩
abbrev S1024 : Shape := ⟨1, ![1024]⟩
abbrev S_ : Shape := ⟨0, ![]⟩
abbrev S1023x1 : Shape := ⟨2, ![1023, 1]⟩
abbrev S1024x1 : Shape := ⟨2, ![1024, 1]⟩
abbrev S64x1023 : Shape := ⟨2, ![64, 1023]⟩
abbrev S1x1023 : Shape := ⟨2, ![1, 1023]⟩
abbrev S131072x16 : Shape := ⟨2, ![131072, 16]⟩
abbrev S1024x64 : Shape := ⟨2, ![1024, 64]⟩
abbrev S1024x1023 : Shape := ⟨2, ![1024, 1023]⟩
abbrev S1024x2 : Shape := ⟨2, ![1024, 2]⟩
abbrev S1024x4 : Shape := ⟨2, ![1024, 4]⟩
abbrev S1024x8 : Shape := ⟨2, ![1024, 8]⟩
abbrev S1024x32 : Shape := ⟨2, ![1024, 32]⟩
abbrev S1024x128 : Shape := ⟨2, ![1024, 128]⟩
abbrev S1024x256 : Shape := ⟨2, ![1024, 256]⟩
abbrev S1024x512 : Shape := ⟨2, ![1024, 512]⟩
abbrev S1024x1024 : Shape := ⟨2, ![1024, 1024]⟩

abbrev nBuf : Space → Nat
  | .hbm => 39
  | .vmem => 8
  | .smem => 0
  | _ => 0

abbrev bufTy : (tb : Table) → Fin (tcTables nBuf tb) → BufTy
  | .hbm, ⟨0, _⟩ => ⟨S131072x64, .f32⟩
  | .hbm, ⟨1, _⟩ => ⟨S1023x64, .f32⟩
  | .hbm, ⟨2, _⟩ => ⟨S1023, .f32⟩
  | .hbm, ⟨3, _⟩ => ⟨S1023, .f32⟩
  | .hbm, ⟨4, _⟩ => ⟨S1024x16, .f32⟩
  | .hbm, ⟨5, _⟩ => ⟨S1023, .i32⟩
  | .hbm, ⟨6, _⟩ => ⟨S1023, .i1⟩
  | .hbm, ⟨7, _⟩ => ⟨S1023, .i1⟩
  | .hbm, ⟨8, _⟩ => ⟨S1023, .i1⟩
  | .hbm, ⟨9, _⟩ => ⟨S1024, .i32⟩
  | .hbm, ⟨10, _⟩ => ⟨S1024, .i1⟩
  | .hbm, ⟨11, _⟩ => ⟨S_, .i32⟩
  | .hbm, ⟨12, _⟩ => ⟨S1023, .i32⟩
  | .hbm, ⟨13, _⟩ => ⟨S1023, .i32⟩
  | .hbm, ⟨14, _⟩ => ⟨S1023, .i32⟩
  | .hbm, ⟨15, _⟩ => ⟨S1023x1, .i32⟩
  | .hbm, ⟨16, _⟩ => ⟨S1023x64, .f32⟩
  | .hbm, ⟨17, _⟩ => ⟨S_, .i32⟩
  | .hbm, ⟨18, _⟩ => ⟨S1023, .i32⟩
  | .hbm, ⟨19, _⟩ => ⟨S1023, .i32⟩
  | .hbm, ⟨20, _⟩ => ⟨S1023, .i32⟩
  | .hbm, ⟨21, _⟩ => ⟨S1023x1, .i32⟩
  | .hbm, ⟨22, _⟩ => ⟨S1023, .f32⟩
  | .hbm, ⟨23, _⟩ => ⟨S_, .i32⟩
  | .hbm, ⟨24, _⟩ => ⟨S1023, .i32⟩
  | .hbm, ⟨25, _⟩ => ⟨S1023, .i32⟩
  | .hbm, ⟨26, _⟩ => ⟨S1023, .i32⟩
  | .hbm, ⟨27, _⟩ => ⟨S1023x1, .i32⟩
  | .hbm, ⟨28, _⟩ => ⟨S1023, .f32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S1024x16, .f32⟩
  | .hbm, ⟨35, _⟩ => ⟨S64x1023, .f32⟩
  | .hbm, ⟨36, _⟩ => ⟨S1x1023, .f32⟩
  | .hbm, ⟨37, _⟩ => ⟨S1x1023, .f32⟩
  | .hbm, ⟨38, _⟩ => ⟨S131072x16, .f32⟩
  | .local _ .vmem, ⟨0, _⟩ => ⟨S1024x64, .f32⟩
  | .local _ .vmem, ⟨1, _⟩ => ⟨S1024x64, .f32⟩
  | .local _ .vmem, ⟨2, _⟩ => ⟨S64x1023, .f32⟩
  | .local _ .vmem, ⟨3, _⟩ => ⟨S1x1023, .f32⟩
  | .local _ .vmem, ⟨4, _⟩ => ⟨S1x1023, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_6 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_7 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_8 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1023 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1023 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1023 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1023 : S_.BroadcastsInDim S1023 (![] : Fin 0 → Fin S1023.rank)
  bcast_S1023_S1023x1_0 : S1023.BroadcastsInDim S1023x1 (![0] : Fin 1 → Fin S1023x1.rank)
  bcast_S_S1024 : S_.BroadcastsInDim S1024 (![] : Fin 0 → Fin S1024.rank)
  bcast_S1024_S1024x1_0 : S1024.BroadcastsInDim S1024x1 (![0] : Fin 1 → Fin S1024x1.rank)
  transposes_S1023x64_S64x1023_1_0 : S1023x64.Transposes [1, 0] S64x1023
  shapeCasts_S1023_S1x1023 : S1023.ShapeCasts S1x1023
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x1023_S64x1023_0_0 : ∀ a, (![0, 0] : Fin 2 → Nat) a + S64x1023.size a ≤ S64x1023.size a
  h_S64x1023 : 0 < S64x1023.numel
  shapeCasts_S64x1023_S64x1023 : S64x1023.ShapeCasts S64x1023
  inb_S1x1023_S1x1023_0_0 : ∀ a, (![0, 0] : Fin 2 → Nat) a + S1x1023.size a ≤ S1x1023.size a
  h_S1x1023 : 0 < S1x1023.numel
  shapeCasts_S1x1023_S1x1023 : S1x1023.ShapeCasts S1x1023
  broadcasts_S1x1023_S1024x1023 : S1x1023.Broadcasts S1024x1023
  slices_S1024x1023_o0_0_S1024x1 : S1024x1023.Slices ![0, 0] S1024x1
  concatenates_S1024x1_S1024x1_S1024x2_d1 : Shape.Concatenates [S1024x1, S1024x1] S1024x2 1
  slices_S1024x1023_o0_1_S1024x2 : S1024x1023.Slices ![0, 1] S1024x2
  concatenates_S1024x2_S1024x2_S1024x4_d1 : Shape.Concatenates [S1024x2, S1024x2] S1024x4 1
  slices_S1024x1023_o0_3_S1024x4 : S1024x1023.Slices ![0, 3] S1024x4
  concatenates_S1024x4_S1024x4_S1024x8_d1 : Shape.Concatenates [S1024x4, S1024x4] S1024x8 1
  slices_S1024x1023_o0_7_S1024x8 : S1024x1023.Slices ![0, 7] S1024x8
  concatenates_S1024x8_S1024x8_S1024x16_d1 : Shape.Concatenates [S1024x8, S1024x8] S1024x16 1
  slices_S1024x1023_o0_15_S1024x16 : S1024x1023.Slices ![0, 15] S1024x16
  concatenates_S1024x16_S1024x16_S1024x32_d1 : Shape.Concatenates [S1024x16, S1024x16] S1024x32 1
  slices_S1024x1023_o0_31_S1024x32 : S1024x1023.Slices ![0, 31] S1024x32
  concatenates_S1024x32_S1024x32_S1024x64_d1 : Shape.Concatenates [S1024x32, S1024x32] S1024x64 1
  slices_S1024x1023_o0_63_S1024x64 : S1024x1023.Slices ![0, 63] S1024x64
  concatenates_S1024x64_S1024x64_S1024x128_d1 : Shape.Concatenates [S1024x64, S1024x64] S1024x128 1
  slices_S1024x1023_o0_127_S1024x128 : S1024x1023.Slices ![0, 127] S1024x128
  concatenates_S1024x128_S1024x128_S1024x256_d1 : Shape.Concatenates [S1024x128, S1024x128] S1024x256 1
  slices_S1024x1023_o0_255_S1024x256 : S1024x1023.Slices ![0, 255] S1024x256
  concatenates_S1024x256_S1024x256_S1024x512_d1 : Shape.Concatenates [S1024x256, S1024x256] S1024x512 1
  slices_S1024x1023_o0_511_S1024x512 : S1024x1023.Slices ![0, 511] S1024x512
  concatenates_S1024x512_S1024x512_S1024x1024_d1 : Shape.Concatenates [S1024x512, S1024x512] S1024x1024 1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  reduces_S1024x16_S1024 : S1024x16.Reduces [1] S1024
  shapeCasts_S1024_S1024x1 : S1024.ShapeCasts S1024x1
  broadcasts_S1024x1_S1024x16 : S1024x1.Broadcasts S1024x16
  gather_S1023x64_S1023x1_S1023x64_1_0_n_n_0_1_164_wf : GatherDims.WF S1023x64 S1023x1 S1023x64 [1] [0] [] [0] [] 1 ![1, 64]
  gather_S1023_S1023x1_S1023_n_0_n_n_0_1_1_wf : GatherDims.WF S1023 S1023x1 S1023 [] [0] [] [0] [] 1 ![1]
  gather_S1024x16_S1024x1_S1024x16_1_0_n_n_0_1_116_wf : GatherDims.WF S1024x16 S1024x1 S1024x16 [1] [0] [] [0] [] 1 ![1, 16]
  dot_S1024x64_S64x1023_S1024x1023_1_0_0_1_n_n_wf : DotDims.WF S1024x64 S64x1023 S1024x1023 [1] [0] [0] [1] [] []
  dot_S1024x1024_S1024x16_S1024x16_1_0_0_1_n_n_wf : DotDims.WF S1024x1024 S1024x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S131072x64.size a
  hwx0_0 : ∀ i : grid0.Coords, EltTy.bits .f32 = 32 ∨ (Rect.block (s := S131072x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1023.size a ≤ S64x1023.size a
  hwx0_1 : ∀ i : grid0.Coords, EltTy.bits .f32 = 32 ∨ (Rect.block (s := S64x1023) S64x1023.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1023.size a ≤ S1x1023.size a
  hwx0_2 : ∀ i : grid0.Coords, EltTy.bits .f32 = 32 ∨ (Rect.block (s := S1x1023) S1x1023.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1023.size a ≤ S1x1023.size a
  hwx0_3 : ∀ i : grid0.Coords, EltTy.bits .f32 = 32 ∨ (Rect.block (s := S1x1023) S1x1023.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S1024x16.size a
  hwx0_4 : ∀ i : grid0.Coords, EltTy.bits .f32 = 32 ∨ (Rect.block (s := S1024x16) S1024x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S131072x16.size a
  hwx0_5 : ∀ i : grid0.Coords, EltTy.bits .f32 = 32 ∨ (Rect.block (s := S131072x16) S1024x16.size (cc0_transform_5 i) (hinb0_5 i)).WholeWords (EltTy.packing .f32)

variable [Facts₀]

def gather_S1023x64_S1023x1_S1023x64_1_0_n_n_0_1_164 : GatherDims S1023x64 S1023x1 S1023x64 where
  offsetDims := [1]
  collapsedSliceDims := [0]
  operandBatchingDims := []
  startIndicesBatchingDims := []
  startIndexMap := [0]
  indexVectorDim := 1
  sliceSizes := ![1, 64]
  wf := gather_S1023x64_S1023x1_S1023x64_1_0_n_n_0_1_164_wf
def gather_S1023_S1023x1_S1023_n_0_n_n_0_1_1 : GatherDims S1023 S1023x1 S1023 where
  offsetDims := []
  collapsedSliceDims := [0]
  operandBatchingDims := []
  startIndicesBatchingDims := []
  startIndexMap := [0]
  indexVectorDim := 1
  sliceSizes := ![1]
  wf := gather_S1023_S1023x1_S1023_n_0_n_n_0_1_1_wf
def gather_S1024x16_S1024x1_S1024x16_1_0_n_n_0_1_116 : GatherDims S1024x16 S1024x1 S1024x16 where
  offsetDims := [1]
  collapsedSliceDims := [0]
  operandBatchingDims := []
  startIndicesBatchingDims := []
  startIndexMap := [0]
  indexVectorDim := 1
  sliceSizes := ![1, 16]
  wf := gather_S1024x16_S1024x1_S1024x16_1_0_n_n_0_1_116_wf
def dot_S1024x64_S64x1023_S1024x1023_1_0_0_1_n_n : DotDims S1024x64 S64x1023 S1024x1023 where
  lhsContracting := [1]
  rhsContracting := [0]
  lhsNonContracting := [0]
  rhsNonContracting := [1]
  lhsBatch := []
  rhsBatch := []
  wf := dot_S1024x64_S64x1023_S1024x1023_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S64x1023.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1023.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x1023.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1024x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1024x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x64 : Shape := ⟨2, ![131072, 64]⟩
abbrev S1023x64 : Shape := ⟨2, ![1023, 64]⟩
abbrev S1023 : Shape := ⟨1, ![1023]⟩
abbrev S1024x16 : Shape := ⟨2, ![1024, 16]⟩
abbrev S64x1023 : Shape := ⟨2, ![64, 1023]⟩
abbrev S131072x1023 : Shape := ⟨2, ![131072, 1023]⟩
abbrev S1x1023 : Shape := ⟨2, ![1, 1023]⟩
abbrev S_ : Shape := ⟨0, ![]⟩
abbrev S131072x1 : Shape := ⟨2, ![131072, 1]⟩
abbrev S131072x1x1 : Shape := ⟨3, ![131072, 1, 1]⟩
abbrev S131072x1x2 : Shape := ⟨3, ![131072, 1, 2]⟩
abbrev S131072x2 : Shape := ⟨2, ![131072, 2]⟩
abbrev S131072x2x1 : Shape := ⟨3, ![131072, 2, 1]⟩
abbrev S131072x2x2 : Shape := ⟨3, ![131072, 2, 2]⟩
abbrev S131072x4 : Shape := ⟨2, ![131072, 4]⟩
abbrev S131072x4x1 : Shape := ⟨3, ![131072, 4, 1]⟩
abbrev S131072x4x2 : Shape := ⟨3, ![131072, 4, 2]⟩
abbrev S131072x8 : Shape := ⟨2, ![131072, 8]⟩
abbrev S131072x8x1 : Shape := ⟨3, ![131072, 8, 1]⟩
abbrev S131072x8x2 : Shape := ⟨3, ![131072, 8, 2]⟩
abbrev S131072x16 : Shape := ⟨2, ![131072, 16]⟩
abbrev S131072x16x1 : Shape := ⟨3, ![131072, 16, 1]⟩
abbrev S131072x16x2 : Shape := ⟨3, ![131072, 16, 2]⟩
abbrev S131072x32 : Shape := ⟨2, ![131072, 32]⟩
abbrev S131072x32x1 : Shape := ⟨3, ![131072, 32, 1]⟩
abbrev S131072x32x2 : Shape := ⟨3, ![131072, 32, 2]⟩
abbrev S131072x64x1 : Shape := ⟨3, ![131072, 64, 1]⟩
abbrev S131072x64x2 : Shape := ⟨3, ![131072, 64, 2]⟩
abbrev S131072x128 : Shape := ⟨2, ![131072, 128]⟩
abbrev S131072x128x1 : Shape := ⟨3, ![131072, 128, 1]⟩
abbrev S131072x128x2 : Shape := ⟨3, ![131072, 128, 2]⟩
abbrev S131072x256 : Shape := ⟨2, ![131072, 256]⟩
abbrev S131072x256x1 : Shape := ⟨3, ![131072, 256, 1]⟩
abbrev S131072x256x2 : Shape := ⟨3, ![131072, 256, 2]⟩
abbrev S131072x512 : Shape := ⟨2, ![131072, 512]⟩
abbrev S131072x512x1 : Shape := ⟨3, ![131072, 512, 1]⟩
abbrev S131072x512x2 : Shape := ⟨3, ![131072, 512, 2]⟩
abbrev S131072x1024 : Shape := ⟨2, ![131072, 1024]⟩
abbrev S1024 : Shape := ⟨1, ![1024]⟩
abbrev S1024x1 : Shape := ⟨2, ![1024, 1]⟩

abbrev nBuf : Space → Nat
  | .hbm => 138
  | .vmem => 0
  | .smem => 0
  | _ => 0

abbrev hbmTy0_0 (i : Nat) : BufTy := match i % 128 with
  | 0 => ⟨S131072x64, .f32⟩
  | 1 => ⟨S1023x64, .f32⟩
  | 2 => ⟨S1023, .f32⟩
  | 3 => ⟨S1023, .f32⟩
  | 4 => ⟨S1024x16, .f32⟩
  | 5 => ⟨S64x1023, .f32⟩
  | 6 => ⟨S131072x1023, .f32⟩
  | 7 => ⟨S1x1023, .f32⟩
  | 8 => ⟨S131072x1023, .f32⟩
  | 9 => ⟨S131072x1023, .f32⟩
  | 10 => ⟨S1x1023, .f32⟩
  | 11 => ⟨S131072x1023, .f32⟩
  | 12 => ⟨S131072x1023, .f32⟩
  | 13 => ⟨S131072x1023, .f32⟩
  | 14 => ⟨S131072x1023, .f32⟩
  | 15 => ⟨S_, .f32⟩
  | 16 => ⟨S131072x1023, .f32⟩
  | 17 => ⟨S131072x1023, .f32⟩
  | 18 => ⟨S_, .f32⟩
  | 19 => ⟨S131072x1023, .f32⟩
  | 20 => ⟨S131072x1023, .f32⟩
  | 21 => ⟨S_, .f32⟩
  | 22 => ⟨S131072x1, .f32⟩
  | 23 => ⟨S131072x1, .f32⟩
  | 24 => ⟨S_, .f32⟩
  | 25 => ⟨S131072x1, .f32⟩
  | 26 => ⟨S131072x1, .f32⟩
  | 27 => ⟨S131072x1, .f32⟩
  | 28 => ⟨S131072x1, .f32⟩
  | 29 => ⟨S131072x1x1, .f32⟩
  | 30 => ⟨S131072x1x1, .f32⟩
  | 31 => ⟨S131072x1x2, .f32⟩
  | 32 => ⟨S131072x2, .f32⟩
  | 33 => ⟨S131072x2, .f32⟩
  | 34 => ⟨S_, .f32⟩
  | 35 => ⟨S131072x2, .f32⟩
  | 36 => ⟨S131072x2, .f32⟩
  | 37 => ⟨S131072x2, .f32⟩
  | 38 => ⟨S131072x2, .f32⟩
  | 39 => ⟨S131072x2x1, .f32⟩
  | 40 => ⟨S131072x2x1, .f32⟩
  | 41 => ⟨S131072x2x2, .f32⟩
  | 42 => ⟨S131072x4, .f32⟩
  | 43 => ⟨S131072x4, .f32⟩
  | 44 => ⟨S_, .f32⟩
  | 45 => ⟨S131072x4, .f32⟩
  | 46 => ⟨S131072x4, .f32⟩
  | 47 => ⟨S131072x4, .f32⟩
  | 48 => ⟨S131072x4, .f32⟩
  | 49 => ⟨S131072x4x1, .f32⟩
  | 50 => ⟨S131072x4x1, .f32⟩
  | 51 => ⟨S131072x4x2, .f32⟩
  | 52 => ⟨S131072x8, .f32⟩
  | 53 => ⟨S131072x8, .f32⟩
  | 54 => ⟨S_, .f32⟩
  | 55 => ⟨S131072x8, .f32⟩
  | 56 => ⟨S131072x8, .f32⟩
  | 57 => ⟨S131072x8, .f32⟩
  | 58 => ⟨S131072x8, .f32⟩
  | 59 => ⟨S131072x8x1, .f32⟩
  | 60 => ⟨S131072x8x1, .f32⟩
  | 61 => ⟨S131072x8x2, .f32⟩
  | 62 => ⟨S131072x16, .f32⟩
  | 63 => ⟨S131072x16, .f32⟩
  | 64 => ⟨S_, .f32⟩
  | 65 => ⟨S131072x16, .f32⟩
  | 66 => ⟨S131072x16, .f32⟩
  | 67 => ⟨S131072x16, .f32⟩
  | 68 => ⟨S131072x16, .f32⟩
  | 69 => ⟨S131072x16x1, .f32⟩
  | 70 => ⟨S131072x16x1, .f32⟩
  | 71 => ⟨S131072x16x2, .f32⟩
  | 72 => ⟨S131072x32, .f32⟩
  | 73 => ⟨S131072x32, .f32⟩
  | 74 => ⟨S_, .f32⟩
  | 75 => ⟨S131072x32, .f32⟩
  | 76 => ⟨S131072x32, .f32⟩
  | 77 => ⟨S131072x32, .f32⟩
  | 78 => ⟨S131072x32, .f32⟩
  | 79 => ⟨S131072x32x1, .f32⟩
  | 80 => ⟨S131072x32x1, .f32⟩
  | 81 => ⟨S131072x32x2, .f32⟩
  | 82 => ⟨S131072x64, .f32⟩
  | 83 => ⟨S131072x64, .f32⟩
  | 84 => ⟨S_, .f32⟩
  | 85 => ⟨S131072x64, .f32⟩
  | 86 => ⟨S131072x64, .f32⟩
  | 87 => ⟨S131072x64, .f32⟩
  | 88 => ⟨S131072x64, .f32⟩
  | 89 => ⟨S131072x64x1, .f32⟩
  | 90 => ⟨S131072x64x1, .f32⟩
  | 91 => ⟨S131072x64x2, .f32⟩
  | 92 => ⟨S131072x128, .f32⟩
  | 93 => ⟨S131072x128, .f32⟩
  | 94 => ⟨S_, .f32⟩
  | 95 => ⟨S131072x128, .f32⟩
  | 96 => ⟨S131072x128, .f32⟩
  | 97 => ⟨S131072x128, .f32⟩
  | 98 => ⟨S131072x128, .f32⟩
  | 99 => ⟨S131072x128x1, .f32⟩
  | 100 => ⟨S131072x128x1, .f32⟩
  | 101 => ⟨S131072x128x2, .f32⟩
  | 102 => ⟨S131072x256, .f32⟩
  | 103 => ⟨S131072x256, .f32⟩
  | 104 => ⟨S_, .f32⟩
  | 105 => ⟨S131072x256, .f32⟩
  | 106 => ⟨S131072x256, .f32⟩
  | 107 => ⟨S131072x256, .f32⟩
  | 108 => ⟨S131072x256, .f32⟩
  | 109 => ⟨S131072x256x1, .f32⟩
  | 110 => ⟨S131072x256x1, .f32⟩
  | 111 => ⟨S131072x256x2, .f32⟩
  | 112 => ⟨S131072x512, .f32⟩
  | 113 => ⟨S131072x512, .f32⟩
  | 114 => ⟨S_, .f32⟩
  | 115 => ⟨S131072x512, .f32⟩
  | 116 => ⟨S131072x512, .f32⟩
  | 117 => ⟨S131072x512, .f32⟩
  | 118 => ⟨S131072x512, .f32⟩
  | 119 => ⟨S131072x512x1, .f32⟩
  | 120 => ⟨S131072x512x1, .f32⟩
  | 121 => ⟨S131072x512x2, .f32⟩
  | 122 => ⟨S131072x1024, .f32⟩
  | 123 => ⟨S_, .f32⟩
  | 124 => ⟨S1024, .f32⟩
  | 125 => ⟨S_, .f32⟩
  | 126 => ⟨S1024, .f32⟩
  | 127 => ⟨S1024, .f32⟩
  | _ => ⟨S131072x64, .f32⟩

abbrev hbmTy0_1 (i : Nat) : BufTy := match i % 128 with
  | 0 => ⟨S1024x1, .f32⟩
  | 1 => ⟨S1024x16, .f32⟩
  | 2 => ⟨S1024x16, .f32⟩
  | 3 => ⟨S1024x16, .f32⟩
  | 4 => ⟨S_, .f32⟩
  | 5 => ⟨S1024, .f32⟩
  | 6 => ⟨S1024x1, .f32⟩
  | 7 => ⟨S1024x16, .f32⟩
  | 8 => ⟨S1024x16, .f32⟩
  | 9 => ⟨S131072x16, .f32⟩
  | _ => ⟨S131072x64, .f32⟩

abbrev hbmTy (i : Nat) : BufTy := match i / 128 with
  | 0 => hbmTy0_0 i
  | 1 => hbmTy0_1 i
  | _ => ⟨S131072x64, .f32⟩

abbrev bufTy : (tb : Table) → Fin (tcTables nBuf tb) → BufTy
  | .hbm, ⟨i, _⟩ => hbmTy i
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_8 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_9 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_10 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_11 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_12 : Ref sig .tc := ⟨.hbm, 123, rfl⟩
abbrev main_v105 : Ref sig .tc := ⟨.hbm, 124, rfl⟩
abbrev main_cst_13 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_14 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩

abbrev nD : Nat := 1
abbrev τ : Topo := Topo.v7x

variable {F : FTy → Type} [FloatOps F]

class Facts₀ : Prop where
  transposes_S1023x64_S64x1023_1_0 : S1023x64.Transposes [1, 0] S64x1023
  bcast_S1023_S1x1023_1 : S1023.BroadcastsInDim S1x1023 (![1] : Fin 1 → Fin S1x1023.rank)
  bcast_S1x1023_S131072x1023_0_1 : S1x1023.BroadcastsInDim S131072x1023 (![0, 1] : Fin 2 → Fin S131072x1023.rank)
  bcast_S_S131072x1023 : S_.BroadcastsInDim S131072x1023 (![] : Fin 0 → Fin S131072x1023.rank)
  bcast_S_S131072x1 : S_.BroadcastsInDim S131072x1 (![] : Fin 0 → Fin S131072x1.rank)
  slices_S131072x1023_S131072x1_0_0 : S131072x1023.Slices ![0, 0] S131072x1
  bcast_S131072x1_S131072x1x1_0_1 : S131072x1.BroadcastsInDim S131072x1x1 (![0, 1] : Fin 2 → Fin S131072x1x1.rank)
  concatenates_S131072x1x1_S131072x1x1_S131072x1x2_d2 : Shape.Concatenates [S131072x1x1, S131072x1x1] S131072x1x2 2
  shapeCasts_S131072x1x2_S131072x2 : S131072x1x2.ShapeCasts S131072x2
  slices_S131072x1023_S131072x2_0_1 : S131072x1023.Slices ![0, 1] S131072x2
  bcast_S_S131072x2 : S_.BroadcastsInDim S131072x2 (![] : Fin 0 → Fin S131072x2.rank)
  bcast_S131072x2_S131072x2x1_0_1 : S131072x2.BroadcastsInDim S131072x2x1 (![0, 1] : Fin 2 → Fin S131072x2x1.rank)
  concatenates_S131072x2x1_S131072x2x1_S131072x2x2_d2 : Shape.Concatenates [S131072x2x1, S131072x2x1] S131072x2x2 2
  shapeCasts_S131072x2x2_S131072x4 : S131072x2x2.ShapeCasts S131072x4
  slices_S131072x1023_S131072x4_0_3 : S131072x1023.Slices ![0, 3] S131072x4
  bcast_S_S131072x4 : S_.BroadcastsInDim S131072x4 (![] : Fin 0 → Fin S131072x4.rank)
  bcast_S131072x4_S131072x4x1_0_1 : S131072x4.BroadcastsInDim S131072x4x1 (![0, 1] : Fin 2 → Fin S131072x4x1.rank)
  concatenates_S131072x4x1_S131072x4x1_S131072x4x2_d2 : Shape.Concatenates [S131072x4x1, S131072x4x1] S131072x4x2 2
  shapeCasts_S131072x4x2_S131072x8 : S131072x4x2.ShapeCasts S131072x8
  slices_S131072x1023_S131072x8_0_7 : S131072x1023.Slices ![0, 7] S131072x8
  bcast_S_S131072x8 : S_.BroadcastsInDim S131072x8 (![] : Fin 0 → Fin S131072x8.rank)
  bcast_S131072x8_S131072x8x1_0_1 : S131072x8.BroadcastsInDim S131072x8x1 (![0, 1] : Fin 2 → Fin S131072x8x1.rank)
  concatenates_S131072x8x1_S131072x8x1_S131072x8x2_d2 : Shape.Concatenates [S131072x8x1, S131072x8x1] S131072x8x2 2
  shapeCasts_S131072x8x2_S131072x16 : S131072x8x2.ShapeCasts S131072x16
  slices_S131072x1023_S131072x16_0_15 : S131072x1023.Slices ![0, 15] S131072x16
  bcast_S_S131072x16 : S_.BroadcastsInDim S131072x16 (![] : Fin 0 → Fin S131072x16.rank)
  bcast_S131072x16_S131072x16x1_0_1 : S131072x16.BroadcastsInDim S131072x16x1 (![0, 1] : Fin 2 → Fin S131072x16x1.rank)
  concatenates_S131072x16x1_S131072x16x1_S131072x16x2_d2 : Shape.Concatenates [S131072x16x1, S131072x16x1] S131072x16x2 2
  shapeCasts_S131072x16x2_S131072x32 : S131072x16x2.ShapeCasts S131072x32
  slices_S131072x1023_S131072x32_0_31 : S131072x1023.Slices ![0, 31] S131072x32
  bcast_S_S131072x32 : S_.BroadcastsInDim S131072x32 (![] : Fin 0 → Fin S131072x32.rank)
  bcast_S131072x32_S131072x32x1_0_1 : S131072x32.BroadcastsInDim S131072x32x1 (![0, 1] : Fin 2 → Fin S131072x32x1.rank)
  concatenates_S131072x32x1_S131072x32x1_S131072x32x2_d2 : Shape.Concatenates [S131072x32x1, S131072x32x1] S131072x32x2 2
  shapeCasts_S131072x32x2_S131072x64 : S131072x32x2.ShapeCasts S131072x64
  slices_S131072x1023_S131072x64_0_63 : S131072x1023.Slices ![0, 63] S131072x64
  bcast_S_S131072x64 : S_.BroadcastsInDim S131072x64 (![] : Fin 0 → Fin S131072x64.rank)
  bcast_S131072x64_S131072x64x1_0_1 : S131072x64.BroadcastsInDim S131072x64x1 (![0, 1] : Fin 2 → Fin S131072x64x1.rank)
  concatenates_S131072x64x1_S131072x64x1_S131072x64x2_d2 : Shape.Concatenates [S131072x64x1, S131072x64x1] S131072x64x2 2
  shapeCasts_S131072x64x2_S131072x128 : S131072x64x2.ShapeCasts S131072x128
  slices_S131072x1023_S131072x128_0_127 : S131072x1023.Slices ![0, 127] S131072x128
  bcast_S_S131072x128 : S_.BroadcastsInDim S131072x128 (![] : Fin 0 → Fin S131072x128.rank)
  bcast_S131072x128_S131072x128x1_0_1 : S131072x128.BroadcastsInDim S131072x128x1 (![0, 1] : Fin 2 → Fin S131072x128x1.rank)
  concatenates_S131072x128x1_S131072x128x1_S131072x128x2_d2 : Shape.Concatenates [S131072x128x1, S131072x128x1] S131072x128x2 2
  shapeCasts_S131072x128x2_S131072x256 : S131072x128x2.ShapeCasts S131072x256
  slices_S131072x1023_S131072x256_0_255 : S131072x1023.Slices ![0, 255] S131072x256
  bcast_S_S131072x256 : S_.BroadcastsInDim S131072x256 (![] : Fin 0 → Fin S131072x256.rank)
  bcast_S131072x256_S131072x256x1_0_1 : S131072x256.BroadcastsInDim S131072x256x1 (![0, 1] : Fin 2 → Fin S131072x256x1.rank)
  concatenates_S131072x256x1_S131072x256x1_S131072x256x2_d2 : Shape.Concatenates [S131072x256x1, S131072x256x1] S131072x256x2 2
  shapeCasts_S131072x256x2_S131072x512 : S131072x256x2.ShapeCasts S131072x512
  slices_S131072x1023_S131072x512_0_511 : S131072x1023.Slices ![0, 511] S131072x512
  bcast_S_S131072x512 : S_.BroadcastsInDim S131072x512 (![] : Fin 0 → Fin S131072x512.rank)
  bcast_S131072x512_S131072x512x1_0_1 : S131072x512.BroadcastsInDim S131072x512x1 (![0, 1] : Fin 2 → Fin S131072x512x1.rank)
  concatenates_S131072x512x1_S131072x512x1_S131072x512x2_d2 : Shape.Concatenates [S131072x512x1, S131072x512x1] S131072x512x2 2
  shapeCasts_S131072x512x2_S131072x1024 : S131072x512x2.ShapeCasts S131072x1024
  reducesTo_S1024x16_S1024_d1 : S1024x16.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x16_0_1 : S1024x1.BroadcastsInDim S1024x16 (![0, 1] : Fin 2 → Fin S1024x16.rank)
  dot_S131072x64_S64x1023_S131072x1023_1_0_0_1_n_n_wf : DotDims.WF S131072x64 S64x1023 S131072x1023 [1] [0] [0] [1] [] []
  dot_S131072x1024_S1024x16_S131072x16_1_0_0_1_n_n_wf : DotDims.WF S131072x1024 S1024x16 S131072x16 [1] [0] [0] [1] [] []

variable [Facts₀]

def dot_S131072x64_S64x1023_S131072x1023_1_0_0_1_n_n : DotDims S131072x64 S64x1023 S131072x1023 where
  lhsContracting := [1]
  rhsContracting := [0]
  lhsNonContracting := [0]
  rhsNonContracting := [1]
  lhsBatch := []
  rhsBatch := []
  wf := dot_S131072x64_S64x1023_S131072x1023_1_0_0_1_n_n_wf
def dot_S131072x1024_S1024x16_S131072x16_1_0_0_1_n_n : DotDims S131072x1024 S1024x16 S131072x16 where
  lhsContracting := [1]
  rhsContracting := [0]
  lhsNonContracting := [0]
  rhsNonContracting := [1]
  lhsBatch := []
  rhsBatch := []
  wf := dot_S131072x1024_S1024x16_S131072x16_1_0_0_1_n_n_wf

class Facts : Prop extends Facts₀ where

variable [Facts]
-- ==== Proof.TreeSpec.lean ====
/-
  The mathematics of the soft decision tree, with no program in sight.

  A complete binary tree of depth D has inner nodes in heap order: level d holds the nodes
  2^d - 1 + i for i < 2^d, and node i of level d has children 2i (left) and 2i+1 (right) on
  level d+1. A row's gate values p n in [0,1] give each root-to-leaf path the product of (1 - p) at
  every left turn and p at every right turn. Two ways of laying out the 2^d partial products of
  level d are compared here:

  * heap order (pathR): entry j of level d+1 descends from entry j / 2 of level d, to the left
    when j is even and to the right when j is odd;
  * append order (pathK): entry j of level d+1 descends from entry j (left turn) when
    j < 2^d, and from entry j - 2^d (right turn) otherwise: the right children are appended after
    all the left children.

  The two orders differ by the reversal br d of the d low bits: if the gates read by the append
  order at position i of level e are the gates read by the heap order at position br e i, then entry j
  of the append order is entry br d j of the heap order (pathK_eq_pathR). Bit reversal of ten bits is
  an involution of Fin 1024, so a sum over all leaves may be taken in either order (sum_br10).
-/
import Idealize.ShloMosaic.PureOps.Ideal
import Idealize.ShloMosaic.Lib.ValueIdx
import Idealize.ShloMosaic.Lib.IdealHost

noncomputable section

namespace Cert.TreeSpec

open Idealize.ShloMosaic Idealize.ShloMosaic.ValueIdx

/-! ## Bit reversal -/

/-- The reversal of the d low bits of j: the lowest bit of the result is bit d-1 of j. -/
def br : ℕ → ℕ → ℕ
  | 0, _ => 0
  | d + 1, j => if j < 2 ^ d then 2 * br d j else 2 * br d (j - 2 ^ d) + 1

theorem br_zero (j : ℕ) : br 0 j = 0 := rfl

theorem br_succ (d j : ℕ) :
    br (d + 1) j = if j < 2 ^ d then 2 * br d j else 2 * br d (j - 2 ^ d) + 1 := rfl

theorem br_lt : ∀ d j : ℕ, br d j < 2 ^ d
  | 0, _ => by simp [br]
  | d + 1, j => by
      rw [br_succ, pow_succ]
      have h1 := br_lt d j
      have h2 := br_lt d (j - 2 ^ d)
      split_ifs <;> omega

/-! ## The two layouts of the path products -/

/-- Heap order: entry j of level d+1 is entry j/2 of level d times the gate factor of node
    2^d - 1 + j/2, the left factor (1 - p) for even j and the right factor p for odd j. -/
def pathR (p : ℕ → EReal) : ℕ → ℕ → EReal
  | 0, _ => 1
  | d + 1, j =>
      if j % 2 = 0 then pathR p d (j / 2) * (1 - p (2 ^ d - 1 + j / 2))
      else pathR p d (j / 2) * p (2 ^ d - 1 + j / 2)

/-- Append order: entry j < 2^d of level d+1 is entry j of level d times its left factor, and entry
    2^d + j is entry j times its right factor. -/
def pathK (q : ℕ → EReal) : ℕ → ℕ → EReal
  | 0, _ => 1
  | d + 1, j =>
      if j < 2 ^ d then pathK q d j * (1 - q (2 ^ d - 1 + j))
      else pathK q d (j - 2 ^ d) * q (2 ^ d - 1 + (j - 2 ^ d))

theorem pathR_zero (p : ℕ → EReal) (j : ℕ) : pathR p 0 j = 1 := rfl

theorem pathR_succ (p : ℕ → EReal) (d j : ℕ) :
    pathR p (d + 1) j =
      if j % 2 = 0 then pathR p d (j / 2) * (1 - p (2 ^ d - 1 + j / 2))
      else pathR p d (j / 2) * p (2 ^ d - 1 + j / 2) := rfl

theorem pathK_zero (q : ℕ → EReal) (j : ℕ) : pathK q 0 j = 1 := rfl

theorem pathK_succ (q : ℕ → EReal) (d j : ℕ) :
    pathK q (d + 1) j =
      if j < 2 ^ d then pathK q d j * (1 - q (2 ^ d - 1 + j))
      else pathK q d (j - 2 ^ d) * q (2 ^ d - 1 + (j - 2 ^ d)) := rfl

/-- If, level by level, the append order reads at position i the gate that the heap order reads at the
    bit-reversed position, then the append order's products are the heap order's, bit-reversed. -/
theorem pathK_eq_pathR (p q : ℕ → EReal) (D : ℕ)
    (hq : ∀ e, e < D → ∀ i, i < 2 ^ e → q (2 ^ e - 1 + i) = p (2 ^ e - 1 + br e i)) :
    ∀ d, d ≤ D → ∀ j, j < 2 ^ d → pathK q d j = pathR p d (br d j) := by
  intro d
  induction d with
  | zero => intro _ j _; rfl
  | succ d ih =>
    intro hd j hj
    have hpow : 2 ^ (d + 1) = 2 * 2 ^ d := by rw [pow_succ]; ring
    rw [pathK_succ, br_succ, pathR_succ]
    by_cases h : j < 2 ^ d
    · rw [if_pos h, if_pos h, if_pos (by omega), (by omega : 2 * br d j / 2 = br d j),
        ih (by omega) j h, hq d (by omega) j h]
    · have h' : j - 2 ^ d < 2 ^ d := by omega
      rw [if_neg h, if_neg h, if_neg (by omega), (by omega : (2 * br d (j - 2 ^ d) + 1) / 2 = br d (j - 2 ^ d)),
        ih (by omega) _ h', hq d (by omega) _ h']

/-! ## Ten bits: a permutation of the leaves -/

/-- Bit reversal of ten bits, on the 1024 leaves. -/
def br10 (l : Fin 1024) : Fin 1024 := ⟨br 10 l.val, br_lt 10 l.val⟩

theorem br10_val (l : Fin 1024) : (br10 l).val = br 10 l.val := rfl

theorem br10_involutive : Function.Involutive br10 := by
  have h : ∀ l : Fin 1024, br 10 (br 10 l.val) = l.val := by decide +kernel
  intro l
  exact Fin.ext (h l)

/-- A sum over the leaves may be taken in bit-reversed order. -/
theorem sum_br10 {M : Type*} [AddCommMonoid M] (f : Fin 1024 → M) :
    ∑ l : Fin 1024, f (br10 l) = ∑ l : Fin 1024, f l :=
  Function.Bijective.sum_comp br10_involutive.bijective f

/-! ## The leaf distributions -/

/-- The largest entry of a row of sixteen, folded from the value the pattern 0xFF800000 denotes. -/
def rowMax (row : Fin 16 → EReal) : EReal :=
  (Finset.univ : Finset (Fin 16)).fold max (Ideal.ofBits .f32 0xFF800000#32 : EReal) row

/-- The softmax of a row of sixteen: exp (x - max) over the sum of those. -/
def softmaxRow (row : Fin 16 → EReal) (c : Fin 16) : EReal :=
  Ideal.div (Ideal.exp (row c - rowMax row)) (∑ c' : Fin 16, Ideal.exp (row c' - rowMax row))

/-! ## The whole result -/

abbrev SX : Shape := ⟨2, ![131072, 64]⟩
abbrev SW : Shape := ⟨2, ![1023, 64]⟩
abbrev SB : Shape := ⟨1, ![1023]⟩
abbrev SL : Shape := ⟨2, ![1024, 16]⟩
abbrev SO : Shape := ⟨2, ![131072, 16]⟩

/-- Node n's gate on row r: logistic (beta_n * (x_r . w_n + b_n)). -/
def gate (X : SX.Idx → EReal) (W : SW.Idx → EReal) (b beta : SB.Idx → EReal) (r : Fin 131072) (n : Fin 1023) : EReal :=
  Ideal.logistic (beta (ix1 n) * ((∑ k : Fin 64, X (ix2 r k) * W (ix2 n k)) + b (ix1 n)))

/-- A row's gates by heap index, as a function of every natural number (zero past the last node). -/
def gateN (X : SX.Idx → EReal) (W : SW.Idx → EReal) (b beta : SB.Idx → EReal) (r : Fin 131072) : ℕ → EReal :=
  fun n => if h : n < 1023 then gate X W b beta r ⟨n, h⟩ else 0

theorem gateN_of_lt (X : SX.Idx → EReal) (W : SW.Idx → EReal) (b beta : SB.Idx → EReal) (r : Fin 131072)
    (n : ℕ) (h : n < 1023) : gateN X W b beta r n = gate X W b beta r ⟨n, h⟩ := dif_pos h

/-- The mixture: entry (r, c) is the sum over the leaves of the path product to the leaf times the
    leaf's softmax at c. -/
def mixture (X : SX.Idx → EReal) (W : SW.Idx → EReal) (b beta : SB.Idx → EReal) (L : SL.Idx → EReal) : SO.Idx → EReal :=
  fun i => ∑ l : Fin 1024, pathR (gateN X W b beta (i 0)) 10 l.val * softmaxRow (fun c => L (ix2 l c)) (i 1)

end Cert.TreeSpec

end
-- ==== Proof.AppendStep.lean ====
/-
  One level of the tree in the append order, for a block of R rows.

  A level of width n holds, per row, the n path products so far. The next level, of width 2n, is the
  row-wise append of two vectors: the products times their left factors 1 - g, then the products times their
  right factors g, where g is the level's n gates, a column slice of the gate matrix starting at
  column off = n - 1. Read at column j of row r this is TreeSpec.pathK's recursion step.
-/
import Idealize.ShloMosaic.Lib.Pipeline.Value
import Idealize.ShloMosaic.Lib.ValueIdx
import Idealize.ShloMosaic.Lib.IdealHost
import Idealize.ShloMosaic.PureOps.Ideal.Laws
import proofs.«163341_j35716948033588_2_alg».proof.Proof.TreeSpec

noncomputable section

namespace Cert.AppendStep

open Idealize.ShloMosaic Idealize.ShloMosaic.ValueIdx Cert.TreeSpec

variable {α : Type}

/-- The append of two row blocks of width n, read in its first n columns, is the first block. -/
theorem append_left {R n n2 : ℕ} (a b : (⟨2, ![R, n]⟩ : Shape).Idx → α)
    (hc : Shape.Concatenates [(⟨2, ![R, n]⟩ : Shape), (⟨2, ![R, n]⟩ : Shape)] (⟨2, ![R, n2]⟩ : Shape) 1)
    (r : Fin R) (j : Fin n2) (j' : Fin n) (hj : j'.val = j.val) :
    concatenate (⟨2, ![R, n2]⟩ : Shape) 1 [⟨(⟨2, ![R, n]⟩ : Shape), a⟩, ⟨(⟨2, ![R, n]⟩ : Shape), b⟩] hc (ix2 r j)
      = a (ix2 r j') := by
  refine concatenate_pair_apply_left (1 : Fin 2) a b hc (ix2 r j) rfl (ix2 r j') ?_
  intro x
  match x with
  | ⟨0, _⟩ => rfl
  | ⟨1, _⟩ => exact hj

/-- Read in its last n columns, it is the second block, n columns to the left. -/
theorem append_right {R n n2 : ℕ} (a b : (⟨2, ![R, n]⟩ : Shape).Idx → α)
    (hc : Shape.Concatenates [(⟨2, ![R, n]⟩ : Shape), (⟨2, ![R, n]⟩ : Shape)] (⟨2, ![R, n2]⟩ : Shape) 1)
    (r : Fin R) (j : Fin n2) (j' : Fin n) (hj : j'.val + n = j.val) :
    concatenate (⟨2, ![R, n2]⟩ : Shape) 1 [⟨(⟨2, ![R, n]⟩ : Shape), a⟩, ⟨(⟨2, ![R, n]⟩ : Shape), b⟩] hc (ix2 r j)
      = b (ix2 r j') := by
  refine concatenate_pair_apply_right (1 : Fin 2) a b hc (ix2 r j) rfl rfl (ix2 r j') ?_ ?_
  · intro x hx
    match x with
    | ⟨0, _⟩ => rfl
    | ⟨1, _⟩ => exact absurd rfl hx
  · exact hj

/-- A slice of n columns starting at column off, read at column j, is the matrix at column off + j. -/
theorem colSlice_apply {R n tot off : ℕ} (P : (⟨2, ![R, tot]⟩ : Shape).Idx → α)
    (hs : (⟨2, ![R, tot]⟩ : Shape).Slices ![0, off] (⟨2, ![R, n]⟩ : Shape))
    (r : Fin R) (j : Fin n) (k : Fin tot) (hk : k.val = off + j.val) :
    extractStridedSlice (⟨2, ![R, n]⟩ : Shape) ![0, off] P hs (ix2 r j) = P (ix2 r k) := by
  refine extractStridedSlice_apply ![0, off] P hs (ix2 r j) (ix2 r k) ?_
  intro x
  match x with
  | ⟨0, _⟩ => show r.val = 0 + r.val; omega
  | ⟨1, _⟩ => exact hk

/-- THE LEVEL STEP. If row r of the gate matrix P is q, and row r of the level-d products is pathK q d,
    then row r of the appended next level is pathK q (d + 1). -/
theorem level_step {R n n2 tot off : ℕ} (d : ℕ) (hn : n = 2 ^ d) (hn2 : n2 = 2 * n) (hoff : off = 2 ^ d - 1)
    (htot : off + n ≤ tot)
    (P : FVec Ideal (⟨2, ![R, tot]⟩ : Shape) .f32) (path : FVec Ideal (⟨2, ![R, n]⟩ : Shape) .f32)
    (hs : (⟨2, ![R, tot]⟩ : Shape).Slices ![0, off] (⟨2, ![R, n]⟩ : Shape))
    (hc : Shape.Concatenates [(⟨2, ![R, n]⟩ : Shape), (⟨2, ![R, n]⟩ : Shape)] (⟨2, ![R, n2]⟩ : Shape) 1)
    (r : Fin R) (q : ℕ → EReal)
    (hP : ∀ k : Fin tot, P (ix2 r k) = q k.val)
    (hpath : ∀ j : Fin n, path (ix2 r j) = pathK q d j.val) (j : Fin n2) :
    concatenate (⟨2, ![R, n2]⟩ : Shape) 1
        [⟨(⟨2, ![R, n]⟩ : Shape), mulf path (subf (broadcast (⟨2, ![R, n]⟩ : Shape) (Scalar.ofBits (F := Ideal) .f32 0x3F800000#32))
            (extractStridedSlice (⟨2, ![R, n]⟩ : Shape) ![0, off] P hs))⟩,
         ⟨(⟨2, ![R, n]⟩ : Shape), mulf path (extractStridedSlice (⟨2, ![R, n]⟩ : Shape) ![0, off] P hs)⟩] hc (ix2 r j)
      = pathK q (d + 1) j.val := by
  subst hn hoff
  have hone : (Scalar.ofBits (F := Ideal) .f32 0x3F800000#32 : EReal) = 1 := Ideal.ofBits_one_f32
  rw [pathK_succ]
  by_cases h : j.val < 2 ^ d
  · rw [if_pos h, append_left _ _ hc r j ⟨j.val, h⟩ rfl, mulf_apply, subf_apply, broadcast_apply,
      colSlice_apply P hs r ⟨j.val, h⟩ ⟨2 ^ d - 1 + j.val, by omega⟩ rfl, hpath, hP, hone]
  · have hjlt := j.isLt
    have hj' : j.val - 2 ^ d < 2 ^ d := by omega
    rw [if_neg h, append_right _ _ hc r j ⟨j.val - 2 ^ d, hj'⟩ (by show j.val - 2 ^ d + 2 ^ d = j.val; omega), mulf_apply,
      colSlice_apply P hs r ⟨j.val - 2 ^ d, hj'⟩ ⟨2 ^ d - 1 + (j.val - 2 ^ d), by omega⟩ rfl, hpath, hP]

end Cert.AppendStep

end
-- ==== Proof.Levels.lean ====
/-
  The kernel body's path products, level by level, and its leaf distributions, as named functions of the
  gate matrix g (1024 rows, 1023 columns in the kernel's own column order) and of the leaf block.

  Level d + 1 is the row-wise append of level d times the left factors and level d times the right
  factors (AppendStep.level_step), so row r of level d is TreeSpec.pathK of row r of g. The stored value is
  the product of the level-10 matrix (1024 rows, 1024 leaves in append order) with the row softmax of
  the leaf block.
-/
import proofs.«163341_j35716948033588_2_alg».proof.Proof.Gen.KernelIdeal.Skeleton
import proofs.«163341_j35716948033588_2_alg».proof.Proof.AppendStep

noncomputable section

namespace Cert.KernelIdeal.Levels

open Cert.KernelIdeal Cert.KernelIdeal.Gen
open Idealize.ShloMosaic Idealize.ShloMosaic.ValueIdx Cert.TreeSpec Cert.AppendStep

/-- Level 0: one column of ones. -/
def lvl0 : FVec Ideal S1024x1 .f32 := broadcast S1024x1 (Scalar.ofBits (F := Ideal) .f32 0x3F800000#32)

theorem lvl0_apply (r : Fin 1024) (q : ℕ → EReal) (j : Fin 1) : lvl0 (ix2 r j) = pathK q 0 j.val :=
  Ideal.ofBits_one_f32

/-- Level 1: 2 columns; the level's 1 gates are columns 0 to 0 of g. -/
def lvl1 (g : FVec Ideal S1024x1023 .f32) : FVec Ideal S1024x2 .f32 :=
  concatenate S1024x2 1
    [⟨S1024x1, mulf lvl0 (subf (broadcast S1024x1 (Scalar.ofBits (F := Ideal) .f32 0x3F800000#32))
        (extractStridedSlice S1024x1 ![0, 0] g slices_S1024x1023_o0_0_S1024x1))⟩,
     ⟨S1024x1, mulf lvl0 (extractStridedSlice S1024x1 ![0, 0] g slices_S1024x1023_o0_0_S1024x1)⟩]
    concatenates_S1024x1_S1024x1_S1024x2_d1

theorem lvl1_apply (g : FVec Ideal S1024x1023 .f32) (r : Fin 1024) (q : ℕ → EReal)
    (hg : ∀ k : Fin 1023, g (ix2 r k) = q k.val) (j : Fin 2) : lvl1 g (ix2 r j) = pathK q 1 j.val := by
  unfold lvl1
  exact level_step 0 (by norm_num) (by norm_num) (by norm_num) (by norm_num) g lvl0 _ _ r q hg (fun j => lvl0_apply r q j) j

/-- Level 2: 4 columns; the level's 2 gates are columns 1 to 2 of g. -/
def lvl2 (g : FVec Ideal S1024x1023 .f32) : FVec Ideal S1024x4 .f32 :=
  concatenate S1024x4 1
    [⟨S1024x2, mulf (lvl1 g) (subf (broadcast S1024x2 (Scalar.ofBits (F := Ideal) .f32 0x3F800000#32))
        (extractStridedSlice S1024x2 ![0, 1] g slices_S1024x1023_o0_1_S1024x2))⟩,
     ⟨S1024x2, mulf (lvl1 g) (extractStridedSlice S1024x2 ![0, 1] g slices_S1024x1023_o0_1_S1024x2)⟩]
    concatenates_S1024x2_S1024x2_S1024x4_d1

theorem lvl2_apply (g : FVec Ideal S1024x1023 .f32) (r : Fin 1024) (q : ℕ → EReal)
    (hg : ∀ k : Fin 1023, g (ix2 r k) = q k.val) (j : Fin 4) : lvl2 g (ix2 r j) = pathK q 2 j.val := by
  unfold lvl2
  exact level_step 1 (by norm_num) (by norm_num) (by norm_num) (by norm_num) g (lvl1 g) _ _ r q hg (fun j => lvl1_apply g r q hg j) j

/-- Level 3: 8 columns; the level's 4 gates are columns 3 to 6 of g. -/
def lvl3 (g : FVec Ideal S1024x1023 .f32) : FVec Ideal S1024x8 .f32 :=
  concatenate S1024x8 1
    [⟨S1024x4, mulf (lvl2 g) (subf (broadcast S1024x4 (Scalar.ofBits (F := Ideal) .f32 0x3F800000#32))
        (extractStridedSlice S1024x4 ![0, 3] g slices_S1024x1023_o0_3_S1024x4))⟩,
     ⟨S1024x4, mulf (lvl2 g) (extractStridedSlice S1024x4 ![0, 3] g slices_S1024x1023_o0_3_S1024x4)⟩]
    concatenates_S1024x4_S1024x4_S1024x8_d1

theorem lvl3_apply (g : FVec Ideal S1024x1023 .f32) (r : Fin 1024) (q : ℕ → EReal)
    (hg : ∀ k : Fin 1023, g (ix2 r k) = q k.val) (j : Fin 8) : lvl3 g (ix2 r j) = pathK q 3 j.val := by
  unfold lvl3
  exact level_step 2 (by norm_num) (by norm_num) (by norm_num) (by norm_num) g (lvl2 g) _ _ r q hg (fun j => lvl2_apply g r q hg j) j

/-- Level 4: 16 columns; the level's 8 gates are columns 7 to 14 of g. -/
def lvl4 (g : FVec Ideal S1024x1023 .f32) : FVec Ideal S1024x16 .f32 :=
  concatenate S1024x16 1
    [⟨S1024x8, mulf (lvl3 g) (subf (broadcast S1024x8 (Scalar.ofBits (F := Ideal) .f32 0x3F800000#32))
        (extractStridedSlice S1024x8 ![0, 7] g slices_S1024x1023_o0_7_S1024x8))⟩,
     ⟨S1024x8, mulf (lvl3 g) (extractStridedSlice S1024x8 ![0, 7] g slices_S1024x1023_o0_7_S1024x8)⟩]
    concatenates_S1024x8_S1024x8_S1024x16_d1

theorem lvl4_apply (g : FVec Ideal S1024x1023 .f32) (r : Fin 1024) (q : ℕ → EReal)
    (hg : ∀ k : Fin 1023, g (ix2 r k) = q k.val) (j : Fin 16) : lvl4 g (ix2 r j) = pathK q 4 j.val := by
  unfold lvl4
  exact level_step 3 (by norm_num) (by norm_num) (by norm_num) (by norm_num) g (lvl3 g) _ _ r q hg (fun j => lvl3_apply g r q hg j) j

/-- Level 5: 32 columns; the level's 16 gates are columns 15 to 30 of g. -/
def lvl5 (g : FVec Ideal S1024x1023 .f32) : FVec Ideal S1024x32 .f32 :=
  concatenate S1024x32 1
    [⟨S1024x16, mulf (lvl4 g) (subf (broadcast S1024x16 (Scalar.ofBits (F := Ideal) .f32 0x3F800000#32))
        (extractStridedSlice S1024x16 ![0, 15] g slices_S1024x1023_o0_15_S1024x16))⟩,
     ⟨S1024x16, mulf (lvl4 g) (extractStridedSlice S1024x16 ![0, 15] g slices_S1024x1023_o0_15_S1024x16)⟩]
    concatenates_S1024x16_S1024x16_S1024x32_d1

theorem lvl5_apply (g : FVec Ideal S1024x1023 .f32) (r : Fin 1024) (q : ℕ → EReal)
    (hg : ∀ k : Fin 1023, g (ix2 r k) = q k.val) (j : Fin 32) : lvl5 g (ix2 r j) = pathK q 5 j.val := by
  unfold lvl5
  exact level_step 4 (by norm_num) (by norm_num) (by norm_num) (by norm_num) g (lvl4 g) _ _ r q hg (fun j => lvl4_apply g r q hg j) j

/-- Level 6: 64 columns; the level's 32 gates are columns 31 to 62 of g. -/
def lvl6 (g : FVec Ideal S1024x1023 .f32) : FVec Ideal S1024x64 .f32 :=
  concatenate S1024x64 1
    [⟨S1024x32, mulf (lvl5 g) (subf (broadcast S1024x32 (Scalar.ofBits (F := Ideal) .f32 0x3F800000#32))
        (extractStridedSlice S1024x32 ![0, 31] g slices_S1024x1023_o0_31_S1024x32))⟩,
     ⟨S1024x32, mulf (lvl5 g) (extractStridedSlice S1024x32 ![0, 31] g slices_S1024x1023_o0_31_S1024x32)⟩]
    concatenates_S1024x32_S1024x32_S1024x64_d1

theorem lvl6_apply (g : FVec Ideal S1024x1023 .f32) (r : Fin 1024) (q : ℕ → EReal)
    (hg : ∀ k : Fin 1023, g (ix2 r k) = q k.val) (j : Fin 64) : lvl6 g (ix2 r j) = pathK q 6 j.val := by
  unfold lvl6
  exact level_step 5 (by norm_num) (by norm_num) (by norm_num) (by norm_num) g (lvl5 g) _ _ r q hg (fun j => lvl5_apply g r q hg j) j

/-- Level 7: 128 columns; the level's 64 gates are columns 63 to 126 of g. -/
def lvl7 (g : FVec Ideal S1024x1023 .f32) : FVec Ideal S1024x128 .f32 :=
  concatenate S1024x128 1
    [⟨S1024x64, mulf (lvl6 g) (subf (broadcast S1024x64 (Scalar.ofBits (F := Ideal) .f32 0x3F800000#32))
        (extractStridedSlice S1024x64 ![0, 63] g slices_S1024x1023_o0_63_S1024x64))⟩,
     ⟨S1024x64, mulf (lvl6 g) (extractStridedSlice S1024x64 ![0, 63] g slices_S1024x1023_o0_63_S1024x64)⟩]
    concatenates_S1024x64_S1024x64_S1024x128_d1

theorem lvl7_apply (g : FVec Ideal S1024x1023 .f32) (r : Fin 1024) (q : ℕ → EReal)
    (hg : ∀ k : Fin 1023, g (ix2 r k) = q k.val) (j : Fin 128) : lvl7 g (ix2 r j) = pathK q 7 j.val := by
  unfold lvl7
  exact level_step 6 (by norm_num) (by norm_num) (by norm_num) (by norm_num) g (lvl6 g) _ _ r q hg (fun j => lvl6_apply g r q hg j) j

/-- Level 8: 256 columns; the level's 128 gates are columns 127 to 254 of g. -/
def lvl8 (g : FVec Ideal S1024x1023 .f32) : FVec Ideal S1024x256 .f32 :=
  concatenate S1024x256 1
    [⟨S1024x128, mulf (lvl7 g) (subf (broadcast S1024x128 (Scalar.ofBits (F := Ideal) .f32 0x3F800000#32))
        (extractStridedSlice S1024x128 ![0, 127] g slices_S1024x1023_o0_127_S1024x128))⟩,
     ⟨S1024x128, mulf (lvl7 g) (extractStridedSlice S1024x128 ![0, 127] g slices_S1024x1023_o0_127_S1024x128)⟩]
    concatenates_S1024x128_S1024x128_S1024x256_d1

theorem lvl8_apply (g : FVec Ideal S1024x1023 .f32) (r : Fin 1024) (q : ℕ → EReal)
    (hg : ∀ k : Fin 1023, g (ix2 r k) = q k.val) (j : Fin 256) : lvl8 g (ix2 r j) = pathK q 8 j.val := by
  unfold lvl8
  exact level_step 7 (by norm_num) (by norm_num) (by norm_num) (by norm_num) g (lvl7 g) _ _ r q hg (fun j => lvl7_apply g r q hg j) j

/-- Level 9: 512 columns; the level's 256 gates are columns 255 to 510 of g. -/
def lvl9 (g : FVec Ideal S1024x1023 .f32) : FVec Ideal S1024x512 .f32 :=
  concatenate S1024x512 1
    [⟨S1024x256, mulf (lvl8 g) (subf (broadcast S1024x256 (Scalar.ofBits (F := Ideal) .f32 0x3F800000#32))
        (extractStridedSlice S1024x256 ![0, 255] g slices_S1024x1023_o0_255_S1024x256))⟩,
     ⟨S1024x256, mulf (lvl8 g) (extractStridedSlice S1024x256 ![0, 255] g slices_S1024x1023_o0_255_S1024x256)⟩]
    concatenates_S1024x256_S1024x256_S1024x512_d1

theorem lvl9_apply (g : FVec Ideal S1024x1023 .f32) (r : Fin 1024) (q : ℕ → EReal)
    (hg : ∀ k : Fin 1023, g (ix2 r k) = q k.val) (j : Fin 512) : lvl9 g (ix2 r j) = pathK q 9 j.val := by
  unfold lvl9
  exact level_step 8 (by norm_num) (by norm_num) (by norm_num) (by norm_num) g (lvl8 g) _ _ r q hg (fun j => lvl8_apply g r q hg j) j

/-- Level 10: 1024 columns; the level's 512 gates are columns 511 to 1022 of g. -/
def lvl10 (g : FVec Ideal S1024x1023 .f32) : FVec Ideal S1024x1024 .f32 :=
  concatenate S1024x1024 1
    [⟨S1024x512, mulf (lvl9 g) (subf (broadcast S1024x512 (Scalar.ofBits (F := Ideal) .f32 0x3F800000#32))
        (extractStridedSlice S1024x512 ![0, 511] g slices_S1024x1023_o0_511_S1024x512))⟩,
     ⟨S1024x512, mulf (lvl9 g) (extractStridedSlice S1024x512 ![0, 511] g slices_S1024x1023_o0_511_S1024x512)⟩]
    concatenates_S1024x512_S1024x512_S1024x1024_d1

theorem lvl10_apply (g : FVec Ideal S1024x1023 .f32) (r : Fin 1024) (q : ℕ → EReal)
    (hg : ∀ k : Fin 1023, g (ix2 r k) = q k.val) (j : Fin 1024) : lvl10 g (ix2 r j) = pathK q 10 j.val := by
  unfold lvl10
  exact level_step 9 (by norm_num) (by norm_num) (by norm_num) (by norm_num) g (lvl9 g) _ _ r q hg (fun j => lvl9_apply g r q hg j) j

/-! ## The leaf distributions -/

/-- The row softmax of the leaf block as the body computes it: exp (x - rowmax) over the row sum of those. -/
def leafSoftmax (v76 : Vec Ideal S1024x16 .f32) : FVec Ideal S1024x16 .f32 :=
  have v77 : FVec Ideal S1024x16 .f32 := shapeCast S1024x16 v76 shapeCasts_S1024x16_S1024x16
  have v78 : FVec Ideal S1024 .f32 := multiReduction .maximumf [1] S1024 v77 0xFF800000#32 reduces_S1024x16_S1024 (.inl rfl) rfl
  have v79 : FVec Ideal S1024x1 .f32 := shapeCast S1024x1 v78 shapeCasts_S1024_S1024x1
  have v80 : FVec Ideal S1024x16 .f32 := broadcastTo S1024x16 v79 broadcasts_S1024x1_S1024x16
  have v81 : FVec Ideal S1024x16 .f32 := subf v77 v80
  have v82 : FVec Ideal S1024x16 .f32 := exp v81
  have v83 : FVec Ideal S1024 .f32 := multiReduction .add [1] S1024 v82 0x00000000#32 reduces_S1024x16_S1024 (.inl rfl) rfl
  have v84 : FVec Ideal S1024x1 .f32 := shapeCast S1024x1 v83 shapeCasts_S1024_S1024x1
  have v85 : FVec Ideal S1024x16 .f32 := broadcastTo S1024x16 v84 broadcasts_S1024x1_S1024x16
  divf v82 v85

/-! ## The payloads are these functions -/

theorem pay2_eq (x0 : Vec Ideal S1024x64 .f32) (x1 : Vec Ideal S64x1023 .f32) (x2 x3 : Vec Ideal S1x1023 .f32) :
    k0_pay2 x0 x1 x2 x3 = lvl4 (k0_pay1 x0 x1 x2 x3) := rfl

theorem pay5_eq (x0 : Vec Ideal S1024x64 .f32) (x1 : Vec Ideal S64x1023 .f32) (x2 x3 : Vec Ideal S1x1023 .f32)
    (v76 : Vec Ideal S1024x16 .f32) :
    k0_pay5 (k0_pay1 x0 x1 x2 x3) (k0_pay2 x0 x1 x2 x3) (k0_pay3 x0 x1 x2 x3) (k0_pay4 x0 x1 x2 x3) v76
      = matmul (F := Ideal) dot_S1024x1024_S1024x16_S1024x16_1_0_0_1_n_n none
          (truncf .bf16 (lvl10 (k0_pay1 x0 x1 x2 x3)) bitsLt_bf16_f32)
          (truncf .bf16 (leafSoftmax v76) bitsLt_bf16_f32)
          (constant (F := Ideal) S1024x16 .f32 0x00000000#32) := rfl

end Cert.KernelIdeal.Levels

end
-- ==== Proof.KernelBlock.lean ====
/-
  What one grid point's body stores, read at row r and column c of its block, as a function of the five blocks
  it loads: x0 (1024 rows of the batch), x1 (the transposed, permuted weights), x2 and x3 (the permuted biases and
  temperatures, one row each) and x4 (the permuted leaf rows).

  The gates are logistic (x3 * (x0 . x1 + x2)) (gate_apply); the ten levels turn row r of the gates into the
  append-order path products (Levels); the leaf block's row softmax is TreeSpec.softmaxRow (leafSoftmax_apply); and
  the stored matrix product is the sum over the 1024 leaves of product times softmax (mix_apply).
-/
import proofs.«163341_j35716948033588_2_alg».proof.Proof.Gen.KernelIdeal.Skeleton
import proofs.«163341_j35716948033588_2_alg».proof.Proof.Levels
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Block

open Cert.KernelIdeal Cert.KernelIdeal.Gen Cert.KernelIdeal.Levels
open Idealize.ShloMosaic Idealize.ShloMosaic.ValueIdx Cert.TreeSpec

/-! ## The two matrix products as sums, and the gates -/

abbrev dotA := dot_S1024x64_S64x1023_S1024x1023_1_0_0_1_n_n
theorem dotA_rank : dotA.contr.rank = 1 := rfl
theorem dotA_size : dotA.contr.size ⟨0, by rw [dotA_rank]; exact Nat.one_pos⟩ = 64 := rfl

/-- The first product's operand indices at result (r, n) and contraction position k. -/
theorem dotA_lhs (r : Fin 1024) (n : Fin 1023) (k : Fin 64) :
    dotA.lhsIdx (ix2 r n) ((contrEquiv1 dotA 64 dotA_rank dotA_size).symm k) = ix2 r k := by
  funext a
  match a with
  | ⟨0, _⟩ => rfl
  | ⟨1, _⟩ =>
    refine Fin.ext ?_
    exact (dotA.lhsIdx_val_of_single (cl := (1 : Fin 2)) rfl (ix2 r n) _).trans (contrEquiv1_symm_val dotA 64 dotA_rank dotA_size k)

theorem dotA_rhs (r : Fin 1024) (n : Fin 1023) (k : Fin 64) :
    dotA.rhsIdx (ix2 r n) ((contrEquiv1 dotA 64 dotA_rank dotA_size).symm k) = ix2 k n := by
  funext a
  match a with
  | ⟨1, _⟩ => rfl
  | ⟨0, _⟩ =>
    refine Fin.ext ?_
    exact (dotA.rhsIdx_val_of_single (cr := (0 : Fin 2)) rfl (ix2 r n) _).trans (contrEquiv1_symm_val dotA 64 dotA_rank dotA_size k)

theorem gate_apply (x0 : Vec Ideal S1024x64 .f32) (x1 : Vec Ideal S64x1023 .f32) (x2 x3 : Vec Ideal S1x1023 .f32)
    (r : Fin 1024) (n : Fin 1023) :
    k0_pay1 x0 x1 x2 x3 (ix2 r n)
      = Ideal.logistic (x3 (ix2 0 n) * ((∑ k : Fin 64, x0 (ix2 r k) * x1 (ix2 k n)) + x2 (ix2 0 n))) := by
  unfold k0_pay1
  show Ideal.logistic (_ * (_ + _)) = _
  have e3 : broadcastTo S1024x1023 (shapeCast S1x1023 x3 shapeCasts_S1x1023_S1x1023) broadcasts_S1x1023_S1024x1023 (ix2 r n) = x3 (ix2 0 n) := by
    rw [shapeCast_self]
    exact broadcastTo_apply x3 _ (ix2 r n) (ix2 0 n) (fun a => match a with | ⟨0, _⟩ => rfl | ⟨1, _⟩ => rfl)
  have e2 : broadcastTo S1024x1023 (shapeCast S1x1023 x2 shapeCasts_S1x1023_S1x1023) broadcasts_S1x1023_S1024x1023 (ix2 r n) = x2 (ix2 0 n) := by
    rw [shapeCast_self]
    exact broadcastTo_apply x2 _ (ix2 r n) (ix2 0 n) (fun a => match a with | ⟨0, _⟩ => rfl | ⟨1, _⟩ => rfl)
  have em : matmul (F := Ideal) dotA none (truncf FTy.bf16 x0 bitsLt_bf16_f32)
      (truncf FTy.bf16 (shapeCast S64x1023 x1 shapeCasts_S64x1023_S64x1023) bitsLt_bf16_f32)
      (constant (F := Ideal) S1024x1023 FTy.f32 0x00000000#32) (ix2 r n) = (∑ k : Fin 64, x0 (ix2 r k) * x1 (ix2 k n) : EReal) := by
    rw [shapeCast_self]
    refine (Ideal.matmul_constant_zero_apply dotA none _ _ (ix2 r n)).trans ?_
    refine (Equiv.sum_comp (contrEquiv1 dotA 64 dotA_rank dotA_size).symm _).symm.trans ?_
    refine Finset.sum_congr rfl fun k _ => ?_
    rw [dotA_lhs, dotA_rhs]; rfl
  rw [e3, e2, em]

/-- The same, with each operand named where the gate reads it. -/
theorem gate_eq (x0 : Vec Ideal S1024x64 .f32) (x1 : Vec Ideal S64x1023 .f32) (x2 x3 : Vec Ideal S1x1023 .f32)
    (r : Fin 1024) (n : Fin 1023) (xr wn : Fin 64 → EReal) (bn tn : EReal)
    (h0 : ∀ k, x0 (ix2 r k) = xr k) (h1 : ∀ k, x1 (ix2 k n) = wn k) (h2 : x2 (ix2 0 n) = bn) (h3 : x3 (ix2 0 n) = tn) :
    k0_pay1 x0 x1 x2 x3 (ix2 r n) = Ideal.logistic (tn * ((∑ k : Fin 64, xr k * wn k) + bn)) := by
  rw [gate_apply x0 x1 x2 x3 r n, h2, h3, Finset.sum_congr rfl (fun k _ => by rw [h0 k, h1 k])]

abbrev dotB := dot_S1024x1024_S1024x16_S1024x16_1_0_0_1_n_n
theorem dotB_rank : dotB.contr.rank = 1 := rfl
theorem dotB_size : dotB.contr.size ⟨0, by rw [dotB_rank]; exact Nat.one_pos⟩ = 1024 := rfl

theorem dotB_lhs (r : Fin 1024) (c : Fin 16) (l : Fin 1024) :
    dotB.lhsIdx (ix2 r c) ((contrEquiv1 dotB 1024 dotB_rank dotB_size).symm l) = ix2 r l := by
  funext a
  match a with
  | ⟨0, _⟩ => rfl
  | ⟨1, _⟩ =>
    refine Fin.ext ?_
    exact (dotB.lhsIdx_val_of_single (cl := (1 : Fin 2)) rfl (ix2 r c) _).trans (contrEquiv1_symm_val dotB 1024 dotB_rank dotB_size l)

theorem dotB_rhs (r : Fin 1024) (c : Fin 16) (l : Fin 1024) :
    dotB.rhsIdx (ix2 r c) ((contrEquiv1 dotB 1024 dotB_rank dotB_size).symm l) = ix2 l c := by
  funext a
  match a with
  | ⟨1, _⟩ => rfl
  | ⟨0, _⟩ =>
    refine Fin.ext ?_
    exact (dotB.rhsIdx_val_of_single (cr := (0 : Fin 2)) rfl (ix2 r c) _).trans (contrEquiv1_symm_val dotB 1024 dotB_rank dotB_size l)

/-- The second product at (r, c): the sum over the 1024 leaves. -/
theorem mix_apply (A : FVec Ideal S1024x1024 .f32) (Q : FVec Ideal S1024x16 .f32) (r : Fin 1024) (c : Fin 16) :
    matmul (F := Ideal) dotB none (truncf .bf16 A bitsLt_bf16_f32) (truncf .bf16 Q bitsLt_bf16_f32)
      (constant (F := Ideal) S1024x16 .f32 0x00000000#32) (ix2 r c) = (∑ l : Fin 1024, A (ix2 r l) * Q (ix2 l c) : EReal) := by
  refine (Ideal.matmul_constant_zero_apply dotB none _ _ (ix2 r c)).trans ?_
  refine (Equiv.sum_comp (contrEquiv1 dotB 1024 dotB_rank dotB_size).symm _).symm.trans ?_
  refine Finset.sum_congr rfl fun l _ => ?_
  rw [dotB_lhs, dotB_rhs]; rfl

/-! ## The leaf block's row softmax -/

/-- A value per row, re-laid as a column and spread over the sixteen columns, read at (l, c), is the row's value. -/
theorem spread_apply (v : FVec Ideal S1024 .f32) (l : Fin 1024) (c : Fin 16) :
    broadcastTo S1024x16 (shapeCast S1024x1 v shapeCasts_S1024_S1024x1) broadcasts_S1024x1_S1024x16 (ix2 l c) = v (ix1 l) := by
  refine (broadcastTo_apply _ _ (ix2 l c) (ix2 l (0 : Fin 1)) (fun a => match a with | ⟨0, _⟩ => rfl | ⟨1, _⟩ => rfl)).trans ?_
  refine shapeCast_apply v _ (ix2 l (0 : Fin 1)) (ix1 l) ?_
  rw [Shape.rowMajor_val_one, Shape.rowMajor_val_two]
  show l.val = l.val * 1 + 0
  omega

theorem lift_eq (l : Fin 1024) (c : Fin 16) : reduces_S1024x16_S1024.lift (ix1 l) c = ix2 l c := by
  funext a
  match a with
  | ⟨0, _⟩ => rfl
  | ⟨1, _⟩ => rfl

/-- The body's row maximum is the fold of max over the row. -/
theorem rowMax_apply (v76 : Vec Ideal S1024x16 .f32) (l : Fin 1024) :
    multiReduction (F := Ideal) .maximumf [1] S1024 v76 0xFF800000#32 reduces_S1024x16_S1024 (.inl rfl) rfl (ix1 l)
      = rowMax (fun c' => v76 (ix2 l c')) := by
  refine (Ideal.multiReduction_maximumf_single v76 _ reduces_S1024x16_S1024 _ _ (ix1 l)).trans ?_
  exact congrArg (fun f : Fin 16 → EReal => (Finset.univ : Finset (Fin 16)).fold max (Ideal.ofBits .f32 0xFF800000#32 : EReal) f)
    (funext fun c' => congrArg v76 (lift_eq l c'))

/-- The exponential of an entry less its row's maximum. -/
theorem expTerm_apply (v76 : Vec Ideal S1024x16 .f32) (l : Fin 1024) (c : Fin 16) :
    exp (subf v76 (broadcastTo S1024x16 (shapeCast S1024x1
        (multiReduction (F := Ideal) .maximumf [1] S1024 v76 0xFF800000#32 reduces_S1024x16_S1024 (.inl rfl) rfl)
        shapeCasts_S1024_S1024x1) broadcasts_S1024x1_S1024x16)) (ix2 l c)
      = Ideal.exp (v76 (ix2 l c) - rowMax (fun c' => v76 (ix2 l c'))) := by
  show Ideal.exp (v76 (ix2 l c) - _) = _
  rw [spread_apply, rowMax_apply]

theorem leafSoftmax_apply (v76 : Vec Ideal S1024x16 .f32) (l : Fin 1024) (c : Fin 16) :
    leafSoftmax v76 (ix2 l c) = softmaxRow (fun c' => v76 (ix2 l c')) c := by
  unfold leafSoftmax
  simp only [shapeCast_self]
  show Ideal.div (exp (F := Ideal) (φ := .f32) (subf v76 _) (ix2 l c)) _ = _
  rw [expTerm_apply, spread_apply]
  unfold softmaxRow
  refine congrArg (Ideal.div (Ideal.exp (v76 (ix2 l c) - rowMax fun c' => v76 (ix2 l c')))) ?_
  refine (Ideal.multiReduction_add_single _ _ reduces_S1024x16_S1024 _ _ (ix1 l)).trans ?_
  refine Finset.sum_congr rfl fun k _ => ?_
  exact (congrArg _ (lift_eq l k)).trans (expTerm_apply v76 l k)

/-! ## The block -/

/-- Row r of the gates, by column, as a function of every natural number (zero past the last column). -/
def gateRow (x0 : Vec Ideal S1024x64 .f32) (x1 : Vec Ideal S64x1023 .f32) (x2 x3 : Vec Ideal S1x1023 .f32) (r : Fin 1024) : ℕ → EReal :=
  fun n => if h : n < 1023 then k0_pay1 x0 x1 x2 x3 (ix2 r ⟨n, h⟩) else 0

theorem gateRow_val (x0 : Vec Ideal S1024x64 .f32) (x1 : Vec Ideal S64x1023 .f32) (x2 x3 : Vec Ideal S1x1023 .f32) (r : Fin 1024)
    (k : Fin 1023) : k0_pay1 x0 x1 x2 x3 (ix2 r k) = gateRow x0 x1 x2 x3 r k.val := by
  unfold gateRow
  rw [dif_pos k.isLt]

/-- THE BLOCK at (r, c): the sum over the leaves, in append order, of row r's path product times the leaf row's
    softmax at c. -/
theorem block_apply (x0 : Vec Ideal S1024x64 .f32) (x1 : Vec Ideal S64x1023 .f32) (x2 x3 : Vec Ideal S1x1023 .f32)
    (x4 : Vec Ideal S1024x16 .f32) (r : Fin 1024) (c : Fin 16) :
    k0_pay5 (k0_pay1 x0 x1 x2 x3) (k0_pay2 x0 x1 x2 x3) (k0_pay3 x0 x1 x2 x3) (k0_pay4 x0 x1 x2 x3) x4 (ix2 r c)
      = ∑ l : Fin 1024, pathK (gateRow x0 x1 x2 x3 r) 10 l.val * softmaxRow (fun c' => x4 (ix2 l c')) c := by
  rw [pay5_eq]
  refine (mix_apply _ _ r c).trans ?_
  refine Finset.sum_congr rfl fun l _ => ?_
  rw [lvl10_apply (k0_pay1 x0 x1 x2 x3) r (gateRow x0 x1 x2 x3 r) (gateRow_val x0 x1 x2 x3 r) l, leafSoftmax_apply]

end Cert.KernelIdeal.Block

end
-- ==== Proof.Bridge.lean ====
/-
  The law that joins the two programs.

  One side sums, over the leaves in append order, the append-order path product times the softmax of the leaf's
  row, where the gates it reads are the heap-order gates permuted level by level by bit reversal, and leaf row l is
  the heap-order leaf row br10 l. The other side is the heap-order mixture. By pathK_eq_pathR term l of the first sum
  is term br10 l of the second, and bit reversal permutes the leaves, so the sums agree. Only commutativity of a
  finite sum is used: no entry need be finite.
-/
import proofs.«163341_j35716948033588_2_alg».proof.Proof.TreeSpec

noncomputable section

namespace Cert.Bridge

open Idealize.ShloMosaic Idealize.ShloMosaic.ValueIdx Cert.TreeSpec

theorem two_pow_le_512 (e : ℕ) (he : e < 10) : 2 ^ e ≤ 512 :=
  (Nat.pow_le_pow_right (by norm_num) (by omega : e ≤ 9)).trans (by norm_num)

/-- The append-order leaf sum over permuted gates and bit-reversed leaf rows is the heap-order mixture. -/
theorem append_sum_eq_mixture (X : SX.Idx → EReal) (W : SW.Idx → EReal) (b beta : SB.Idx → EReal) (L : SL.Idx → EReal)
    (R : Fin 131072) (c : Fin 16)
    (perm : Fin 1023 → Fin 1023)
    (hperm : ∀ e, e < 10 → ∀ i, i < 2 ^ e → ∀ h : 2 ^ e - 1 + i < 1023, (perm ⟨2 ^ e - 1 + i, h⟩).val = 2 ^ e - 1 + br e i)
    (q : ℕ → EReal) (hq : ∀ n : Fin 1023, q n.val = gate X W b beta R (perm n))
    (Lk : Fin 1024 → Fin 16 → EReal) (hL : ∀ l c', Lk l c' = L (ix2 (br10 l) c')) :
    ∑ l : Fin 1024, pathK q 10 l.val * softmaxRow (Lk l) c = mixture X W b beta L (ix2 R c) := by
  have hq' : ∀ e, e < 10 → ∀ i, i < 2 ^ e → q (2 ^ e - 1 + i) = gateN X W b beta R (2 ^ e - 1 + br e i) := by
    intro e he i hi
    have h512 := two_pow_le_512 e he
    have hbr := br_lt e i
    have hlt : 2 ^ e - 1 + i < 1023 := by omega
    have hlt' : 2 ^ e - 1 + br e i < 1023 := by omega
    rw [gateN_of_lt X W b beta R _ hlt', show q (2 ^ e - 1 + i) = q (⟨2 ^ e - 1 + i, hlt⟩ : Fin 1023).val from rfl, hq]
    exact congrArg (gate X W b beta R) (Fin.ext (hperm e he i hi hlt))
  show _ = ∑ l : Fin 1024, pathR (gateN X W b beta R) 10 l.val * softmaxRow (fun c' => L (ix2 l c')) c
  rw [← sum_br10 (fun l => pathR (gateN X W b beta R) 10 l.val * softmaxRow (fun c' => L (ix2 l c')) c)]
  refine Finset.sum_congr rfl fun l _ => ?_
  rw [pathK_eq_pathR (gateN X W b beta R) q 10 hq' 10 le_rfl l.val l.isLt, br10_val]
  exact congrArg (fun row => pathR (gateN X W b beta R) 10 (br 10 l.val) * softmaxRow row c) (funext fun c' => hL l c')

end Cert.Bridge

end
-- ==== Proof.Tables.lean ====
/-
  The two constant index tables of the host side, as arithmetic.

  The node table has 1023 entries and the leaf table 1024. The leaf table is the reversal of ten
  bits. The node table lists the inner nodes of a complete binary tree of depth ten in heap order,
  level by level, and inside level e (the nodes 2^e - 1 + i for i < 2^e) it permutes the positions
  by the reversal of e bits. Every fact here is a finite check over the literal entries, decided by
  evaluation once and cited afterwards, so that no later step has to look inside a table.
-/
import proofs.«163341_j35716948033588_2_alg».proof.KernelIdeal
import proofs.«163341_j35716948033588_2_alg».proof.Proof.TreeSpec

namespace Cert.KernelIdeal.HostSide

open Cert.KernelIdeal

/-! ## The decided facts -/

/-- Every entry of the node table is a node: below 1023. -/
theorem lit0_lt : ∀ n : Fin 1023, (lit0 n).toNat < 1023 := by decide +kernel

/-- The leaf table is the reversal of ten bits. -/
theorem lit1_eq_br : ∀ l : Fin 1024, (lit1 l).toNat = Cert.TreeSpec.br 10 l.val := by decide +kernel

/-- Level e of the node table (positions 2^e - 1 + i, i < 2^e) holds the nodes of level e with the
    position's e bits reversed; stated over the table's underlying function of a natural number. -/
theorem lit0t_level : ∀ e : Fin 10, ∀ i : Fin 512, i.val < 2 ^ e.val →
    (lit0t (2 ^ e.val - 1 + i.val)).toNat = 2 ^ e.val - 1 + Cert.TreeSpec.br e.val i.val := by
  decide +kernel

/-! ## Their consequences -/

/-- Every entry of the leaf table is a leaf: below 1024. -/
theorem lit1_lt (l : Fin 1024) : (lit1 l).toNat < 1024 := by
  rw [lit1_eq_br l]
  exact Cert.TreeSpec.br_lt 10 l.val

/-- A level below ten has at most 512 positions. -/
theorem two_pow_le_512 {e : ℕ} (he : e < 10) : 2 ^ e ≤ 512 :=
  (Nat.pow_le_pow_right (by decide) (by omega : e ≤ 9)).trans (by decide)

/-- Position i of level e is a node. -/
theorem level_lt {e i : ℕ} (he : e < 10) (hi : i < 2 ^ e) : 2 ^ e - 1 + i < 1023 := by
  have := two_pow_le_512 he
  omega

/-- Position i of level e, with its e bits reversed, is a node. -/
theorem level_br_lt {e : ℕ} (he : e < 10) (i : ℕ) : 2 ^ e - 1 + Cert.TreeSpec.br e i < 1023 := by
  have := two_pow_le_512 he
  have := Cert.TreeSpec.br_lt e i
  omega

/-- The node table at position i of level e: the node of level e at the bit-reversed position. -/
theorem lit0_level {e i : ℕ} (he : e < 10) (hi : i < 2 ^ e) :
    (lit0 ⟨2 ^ e - 1 + i, level_lt he hi⟩).toNat = 2 ^ e - 1 + Cert.TreeSpec.br e i :=
  lit0t_level ⟨e, he⟩ ⟨i, by have := two_pow_le_512 he; omega⟩ hi

/-- The same, in the form that also hands back the bound. -/
theorem lit0_level_exists : ∀ e : Fin 10, ∀ i : Fin 512, i.val < 2 ^ e.val →
    ∃ h : 2 ^ e.val - 1 + i.val < 1023,
      (lit0 ⟨2 ^ e.val - 1 + i.val, h⟩).toNat = 2 ^ e.val - 1 + Cert.TreeSpec.br e.val i.val :=
  fun e i hi => ⟨level_lt e.isLt hi, lit0_level e.isLt hi⟩

end Cert.KernelIdeal.HostSide
-- ==== Proof.HostSide.lean ====
/-
  The host side of the program, read at an index.

  Before the region is entered the host permutes four of the argument arrays: the rows of the
  weight matrix, the two per-node vectors and the rows of the leaf matrix are each gathered through
  a constant index table, the gathered weight matrix is then transposed and the two vectors are
  reshaped to one row. Each start index goes table -> (table + extent, discarded by a select whose
  mask is false everywhere) -> broadcast to one column, and the gather reads it as a signed integer
  clamped into range; the tables' entries are in range, so the clamp does nothing.

  This file states, for each staged array, its element at an index as the argument array's element
  at the permuted index. First the two gather shapes are opened once over variable extents (a gather
  of whole rows of a matrix, and a gather of single elements of a vector), then the start-index
  chain, then the four staged arrays; the tables enter only through the decided facts of Tables.
-/
import proofs.«163341_j35716948033588_2_alg».proof.Proof.Gen.KernelIdeal.Frame
import proofs.«163341_j35716948033588_2_alg».proof.Proof.Tables
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.ValueIdx
open Idealize.ShloMosaic.TcCoe

/-! ## The two gather shapes, read at an index -/

section Gathers
variable {α : Type}

/-- Gathering whole rows: operand [N, C], start indices [M, 1] (one row number per result row),
    result [M, C]; axis 0 of the operand is collapsed and indexed, axis 1 is the offset axis. -/
abbrev rowsDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Result element (r, k) of a row gather is the operand at row idx[r, 0], read signed and clamped
    into [0, N - 1], and column k. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (k : Fin C) :
    Host.gather (rowsDims N M C wf) x idx (ix2 r k)
      = x (ix2 ⟨min (idx (ix2 r 0)).toInt.toNat (N - 1), by omega⟩ k) := by
  unfold Host.gather
  refine congrArg x ?_
  funext a
  refine Fin.ext ?_
  match a with
  | ⟨0, _⟩ =>
    -- the indexed axis: the clamped start, no batching coordinate, no offset
    show (rowsDims N M C wf).start (ix2 r k) idx 0 + (rowsDims N M C wf).batchCoord (ix2 r k) 0
      + (rowsDims N M C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx (ix2 r k) ⟨List.idxOf (0 : Fin 2) (rowsDims N M C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    -- the offset axis: no start, no batching coordinate, the result's own column
    show (rowsDims N M C wf).start (ix2 r k) idx 1 + (rowsDims N M C wf).batchCoord (ix2 r k) 1
      + (rowsDims N M C wf).offCoord (ix2 r k) 1 = k.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- Gathering single elements: operand [N], start indices [M, 1], result [M]; the operand's one
    axis is collapsed and indexed, and there is no offset axis. -/
abbrev elemsDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Result element r of an element gather is the operand at idx[r, 0], read signed and clamped into
    [0, N - 1]. -/
theorem gather_elems_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (r : Fin M) :
    Host.gather (elemsDims N M wf) x idx (ix1 r)
      = x (ix1 ⟨min (idx (ix2 r 0)).toInt.toNat (N - 1), by omega⟩) := by
  unfold Host.gather
  refine congrArg x ?_
  funext a
  obtain rfl : a = 0 := Subsingleton.elim _ _
  refine Fin.ext ?_
  show (elemsDims N M wf).start (ix1 r) idx 0 + (elemsDims N M wf).batchCoord (ix1 r) 0
    + (elemsDims N M wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N M wf).startIndexMap from List.mem_singleton.mpr rfl)]
  have hsi : (elemsDims N M wf).siIdx (ix1 r) ⟨List.idxOf (0 : Fin 1) (elemsDims N M wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

end Gathers

/-! ## The start-index chain -/

/-- A 32-bit word within a bound below 2^31, read as a signed integer and clamped at that bound, is
    its own value. -/
theorem clamp_toInt {x : BitVec 32} {B : Nat} (h : x.toNat ≤ B) (hB : B < 2 ^ 31) :
    min x.toInt.toNat B = x.toNat := by
  rw [BitVec.toInt_eq_toNat_of_lt (by omega)]
  simp only [Int.toNat_natCast]
  omega

section Chain
variable {α : Type}

/-- The start indices as a gather receives them: a select on a mask that is false everywhere keeps
    its second operand t (whatever the first operand a is), and the broadcast to one column reads
    entry r of it at (r, 0). -/
theorem startIdx_apply {N : Nat} (hN : N ≠ 1)
    (hb : (⟨1, ![N]⟩ : Shape).BroadcastsInDim ⟨2, ![N, 1]⟩ (![0] : Fin 1 → Fin 2))
    (a t : IVec ⟨1, ![N]⟩ 32) (r : Fin N) :
    broadcastInDim ⟨2, ![N, 1]⟩ ![0] hb (select (constantI ⟨1, ![N]⟩ 1 0#1) a t) (ix2 r 0) = t (ix1 r) := by
  rw [broadcastInDim_apply _ _ _ _ (ix1 r) (fun a => by
    match a with
    | ⟨0, _⟩ => show r.val = if N = 1 then 0 else r.val; rw [if_neg hN])]
  rw [select_apply]
  exact select_zero _ _

/-- A row gather through that chain: when entry r of the kept operand t is the row number v, result
    element (r, k) is the operand at (v, k). -/
theorem gather_rows_chain {N C : Nat} (hN : N ≠ 1) (hN31 : N < 2 ^ 31)
    (wf : GatherDims.WF ⟨2, ![N, C]⟩ ⟨2, ![N, 1]⟩ ⟨2, ![N, C]⟩ [1] [0] [] [0] [] 1 ![1, C])
    (hb : (⟨1, ![N]⟩ : Shape).BroadcastsInDim ⟨2, ![N, 1]⟩ (![0] : Fin 1 → Fin 2))
    (x : (⟨2, ![N, C]⟩ : Shape).Idx → α) (a t : IVec ⟨1, ![N]⟩ 32) (r : Fin N) (k : Fin C)
    (v : Fin N) (hv : (t (ix1 r)).toNat = v.val) :
    Host.gather (rowsDims N N C wf) x
        (broadcastInDim ⟨2, ![N, 1]⟩ ![0] hb (select (constantI ⟨1, ![N]⟩ 1 0#1) a t)) (ix2 r k)
      = x (ix2 v k) := by
  have hpos : 0 < N := by have := v.isLt; omega
  rw [gather_rows_apply hpos]
  refine congrArg x (congrArg (fun z => ix2 z k) (Fin.ext ?_))
  show min _ (N - 1) = v.val
  rw [startIdx_apply hN, clamp_toInt (by have := v.isLt; omega) (by omega), hv]

/-- An element gather through that chain: when entry r of the kept operand t is the position v,
    result element r is the operand at v. -/
theorem gather_elems_chain {N : Nat} (hN : N ≠ 1) (hN31 : N < 2 ^ 31)
    (wf : GatherDims.WF ⟨1, ![N]⟩ ⟨2, ![N, 1]⟩ ⟨1, ![N]⟩ [] [0] [] [0] [] 1 ![1])
    (hb : (⟨1, ![N]⟩ : Shape).BroadcastsInDim ⟨2, ![N, 1]⟩ (![0] : Fin 1 → Fin 2))
    (x : (⟨1, ![N]⟩ : Shape).Idx → α) (a t : IVec ⟨1, ![N]⟩ 32) (r : Fin N)
    (v : Fin N) (hv : (t (ix1 r)).toNat = v.val) :
    Host.gather (elemsDims N N wf) x
        (broadcastInDim ⟨2, ![N, 1]⟩ ![0] hb (select (constantI ⟨1, ![N]⟩ 1 0#1) a t)) (ix1 r)
      = x (ix1 v) := by
  have hpos : 0 < N := by have := v.isLt; omega
  rw [gather_elems_apply hpos]
  refine congrArg x (congrArg (fun z => ix1 z) (Fin.ext ?_))
  show min _ (N - 1) = v.val
  rw [startIdx_apply hN, clamp_toInt (by have := v.isLt; omega) (by omega), hv]

end Chain

/-! ## The four staged arrays -/

section Staged
variable (m : (ℓ : Loc nD τ sig) → Buf (Elt Ideal) ℓ) (c : Dev nD)

/-- The node the node table names at position n. -/
def node (n : Fin 1023) : Fin 1023 := ⟨(lit0 n).toNat, lit0_lt n⟩

/-- The leaf the leaf table names at position l. -/
def leaf (l : Fin 1024) : Fin 1024 := ⟨(lit1 l).toNat, lit1_lt l⟩

theorem node_val (n : Fin 1023) : (node n).val = (lit0 n).toNat := rfl
theorem leaf_val (l : Fin 1024) : (leaf l).val = (lit1 l).toNat := rfl

/-- The leaf table is the reversal of ten bits. -/
theorem leaf_eq_br10 (l : Fin 1024) : leaf l = Cert.TreeSpec.br10 l :=
  Fin.ext (lit1_eq_br l)

/-- The node table at position i of level e is the node of level e at the bit-reversed position. -/
theorem node_level {e i : ℕ} (he : e < 10) (hi : i < 2 ^ e) :
    node ⟨2 ^ e - 1 + i, level_lt he hi⟩ = ⟨2 ^ e - 1 + Cert.TreeSpec.br e i, level_br_lt he i⟩ :=
  Fin.ext (lit0_level he hi)

/-- The staged weight matrix [64, 1023] at (k, n): the weight matrix argument [1023, 64] at row
    (table entry n), column k — gathered by rows, then transposed. -/
theorem V_main_v20_apply (k : Fin 64) (n : Fin 1023) :
    (V m c main_v20 : S64x1023.Idx → EReal) (ix2 k n)
      = (m ((c : Thread nD τ).loc main_arg1) : S1023x64.Idx → EReal) (ix2 ⟨(lit0 n).toNat, lit0_lt n⟩ k) := by
  dsimp only [Gen.V, Gen.hostOps0]
  after_results
  rw [transpose_apply _ _ _ _ (ix2 n k) (fun b => by match b with | ⟨0, _⟩ => rfl | ⟨1, _⟩ => rfl)]
  exact gather_rows_chain (by decide) (by decide) _ _ _ _ _ n k ⟨(lit0 n).toNat, lit0_lt n⟩
    (congrArg (fun z => (lit0 z).toNat) (Fin.ext (Shape.rowMajor_val_one _)))

/-- The first staged per-node vector [1, 1023] at (0, n): its argument [1023] at (table entry n) —
    gathered by elements, then reshaped to one row. -/
theorem V_main_v21_apply (n : Fin 1023) :
    (V m c main_v21 : S1x1023.Idx → EReal) (ix2 0 n)
      = (m ((c : Thread nD τ).loc main_arg2) : S1023.Idx → EReal) (ix1 ⟨(lit0 n).toNat, lit0_lt n⟩) := by
  dsimp only [Gen.V, Gen.hostOps0]
  after_results
  show shapeCast S1x1023 (Host.gather _ _ _) _ (ix2 0 n) = _
  rw [shapeCast_apply _ _ _ (ix1 n) (by
    rw [Shape.rowMajor_val_one, Shape.rowMajor_val_two]
    show n.val = (0 : Fin 1).val * 1023 + n.val
    simp)]
  exact gather_elems_chain (by decide) (by decide) _ _ _ _ _ n ⟨(lit0 n).toNat, lit0_lt n⟩
    (congrArg (fun z => (lit0 z).toNat) (Fin.ext (Shape.rowMajor_val_one _)))

/-- The second staged per-node vector [1, 1023] at (0, n): its argument [1023] at (table entry n). -/
theorem V_main_v22_apply (n : Fin 1023) :
    (V m c main_v22 : S1x1023.Idx → EReal) (ix2 0 n)
      = (m ((c : Thread nD τ).loc main_arg3) : S1023.Idx → EReal) (ix1 ⟨(lit0 n).toNat, lit0_lt n⟩) := by
  dsimp only [Gen.V, Gen.hostOps0]
  after_results
  show shapeCast S1x1023 (Host.gather _ _ _) _ (ix2 0 n) = _
  rw [shapeCast_apply _ _ _ (ix1 n) (by
    rw [Shape.rowMajor_val_one, Shape.rowMajor_val_two]
    show n.val = (0 : Fin 1).val * 1023 + n.val
    simp)]
  exact gather_elems_chain (by decide) (by decide) _ _ _ _ _ n ⟨(lit0 n).toNat, lit0_lt n⟩
    (congrArg (fun z => (lit0 z).toNat) (Fin.ext (Shape.rowMajor_val_one _)))

/-- The staged leaf matrix [1024, 16] at (l, c'): the leaf matrix argument at row (table entry l),
    column c' — gathered by rows. -/
theorem V_main_v19_apply (l : Fin 1024) (c' : Fin 16) :
    (V m c main_v19 : S1024x16.Idx → EReal) (ix2 l c')
      = (m ((c : Thread nD τ).loc main_arg4) : S1024x16.Idx → EReal) (ix2 ⟨(lit1 l).toNat, lit1_lt l⟩ c') := by
  dsimp only [Gen.V, Gen.hostOps0]
  after_results
  exact gather_rows_chain (by decide) (by decide) _ _ _ _ _ l c' ⟨(lit1 l).toNat, lit1_lt l⟩
    (congrArg (fun z => (lit1 z).toNat) (Fin.ext (Shape.rowMajor_val_one _)))

/-! ### The same four, with the tables read as arithmetic -/

/-- The staged leaf matrix at (l, c') is the argument's row at the ten-bit reversal of l. -/
theorem V_main_v19_br10 (l : Fin 1024) (c' : Fin 16) :
    (V m c main_v19 : S1024x16.Idx → EReal) (ix2 l c')
      = (m ((c : Thread nD τ).loc main_arg4) : S1024x16.Idx → EReal) (ix2 (Cert.TreeSpec.br10 l) c') :=
  (V_main_v19_apply m c l c').trans (congrArg (fun z => (m ((c : Thread nD τ).loc main_arg4) : S1024x16.Idx → EReal) (ix2 z c')) (leaf_eq_br10 l))

/-- The staged weight matrix at column 2^e - 1 + i of level e is the argument's row
    2^e - 1 + br e i. -/
theorem V_main_v20_level (k : Fin 64) {e i : ℕ} (he : e < 10) (hi : i < 2 ^ e) :
    (V m c main_v20 : S64x1023.Idx → EReal) (ix2 k ⟨2 ^ e - 1 + i, level_lt he hi⟩)
      = (m ((c : Thread nD τ).loc main_arg1) : S1023x64.Idx → EReal)
          (ix2 ⟨2 ^ e - 1 + Cert.TreeSpec.br e i, level_br_lt he i⟩ k) :=
  (V_main_v20_apply m c k _).trans
    (congrArg (fun z => (m ((c : Thread nD τ).loc main_arg1) : S1023x64.Idx → EReal) (ix2 z k)) (node_level he hi))

/-- The first staged per-node vector at position 2^e - 1 + i of level e is the argument at
    2^e - 1 + br e i. -/
theorem V_main_v21_level {e i : ℕ} (he : e < 10) (hi : i < 2 ^ e) :
    (V m c main_v21 : S1x1023.Idx → EReal) (ix2 0 ⟨2 ^ e - 1 + i, level_lt he hi⟩)
      = (m ((c : Thread nD τ).loc main_arg2) : S1023.Idx → EReal)
          (ix1 ⟨2 ^ e - 1 + Cert.TreeSpec.br e i, level_br_lt he i⟩) :=
  (V_main_v21_apply m c _).trans
    (congrArg (fun z => (m ((c : Thread nD τ).loc main_arg2) : S1023.Idx → EReal) (ix1 z)) (node_level he hi))

/-- The second staged per-node vector at position 2^e - 1 + i of level e is the argument at
    2^e - 1 + br e i. -/
theorem V_main_v22_level {e i : ℕ} (he : e < 10) (hi : i < 2 ^ e) :
    (V m c main_v22 : S1x1023.Idx → EReal) (ix2 0 ⟨2 ^ e - 1 + i, level_lt he hi⟩)
      = (m ((c : Thread nD τ).loc main_arg3) : S1023.Idx → EReal)
          (ix1 ⟨2 ^ e - 1 + Cert.TreeSpec.br e i, level_br_lt he i⟩) :=
  (V_main_v22_apply m c _).trans
    (congrArg (fun z => (m ((c : Thread nD τ).loc main_arg3) : S1023.Idx → EReal) (ix1 z)) (node_level he hi))

end Staged

end Cert.KernelIdeal.HostSide

end
-- ==== Proof.KernelValue.lean ====
/-
  The kernel's result array after the run is the heap-order mixture of the argument arrays.

  Grid point t stages rows 1024 t .. 1024 t + 1023 of the batch, the whole of each of the four small arrays (as the
  host operations left them: permuted), and writes back rows 1024 t .. 1024 t + 1023 of the result. By KernelBlock
  what it writes at (r, c) is the append-order leaf sum over the staged blocks; by HostSide the staged arrays are
  the arguments permuted by the two tables, which are the level-wise and the full bit reversal; by Bridge that sum is
  the mixture at row 1024 t + r. The 128 blocks tile the result.
-/
import proofs.«163341_j35716948033588_2_alg».proof.Proof.Gen.KernelIdeal.Value
import proofs.«163341_j35716948033588_2_alg».proof.Proof.KernelBlock
import proofs.«163341_j35716948033588_2_alg».proof.Proof.Bridge
import proofs.«163341_j35716948033588_2_alg».proof.Proof.HostSide

noncomputable section

namespace Cert.KernelIdeal.Mixture

open Cert.KernelIdeal Cert.KernelIdeal.Gen Cert.KernelIdeal.Block Cert.KernelIdeal.HostSide
open Idealize.ShloMosaic Idealize.ShloMosaic.TcCoe Idealize.SL.Sem Idealize.ShloMosaic.ValueIdx Cert.TreeSpec
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps over the 128 grid points: the batch window and the result window move down one block per
    point, the four small windows stay at the origin. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 128 := lt_of_lt_of_eq t.isLt N_0

/-- The batch row that row r of point t's block is. -/
def batchRow (t : Fin cfg0.N) (r : Fin 1024) : Fin 131072 := ⟨t.val * 1024 + r.val, by have := point_lt t; omega⟩

/-! ## The staged blocks, read at an index -/

/-- Row r of point t's batch block is row 1024 t + r of the batch. -/
theorem iblk0_apply (c : Dev nD) (t : Fin cfg0.N) (r : Fin 1024) (k : Fin 64) :
    iblk m c 0 t (ix2 r k) = (m ((c : Thread nD τ).loc main_arg0) : S131072x64.Idx → EReal) (ix2 (batchRow t r) k) := by
  show V m c main_arg0 (((cfg0.win 0).blk t).view.emb (ix2 r k)) = _
  rw [V_main_arg0]
  refine congrArg _ ?_
  obtain ⟨e0, e1, -⟩ := index_facts t
  funext a; apply Fin.ext
  match a with
  | ⟨0, _⟩ => show win0_0.index t (0 : Fin 2) * 1024 + 1 * r.val = t.val * 1024 + r.val; omega
  | ⟨1, _⟩ => show win0_0.index t (1 : Fin 2) * 64 + 1 * k.val = k.val; omega

/-- Each small window's block is the whole staged array. -/
theorem iblk1_apply (c : Dev nD) (t : Fin cfg0.N) (k : Fin 64) (n : Fin 1023) :
    iblk m c 1 t (ix2 k n) = (V m c main_v20 : S64x1023.Idx → EReal) (ix2 k n) := by
  show V m c main_v20 (((cfg0.win 1).blk t).view.emb (ix2 k n)) = _
  refine congrArg _ ?_
  obtain ⟨-, -, e0, e1, -⟩ := index_facts t
  funext a; apply Fin.ext
  match a with
  | ⟨0, _⟩ => show win0_1.index t (0 : Fin 2) * 64 + 1 * k.val = k.val; omega
  | ⟨1, _⟩ => show win0_1.index t (1 : Fin 2) * 1023 + 1 * n.val = n.val; omega

theorem iblk2_apply (c : Dev nD) (t : Fin cfg0.N) (n : Fin 1023) :
    iblk m c 2 t (ix2 0 n) = (V m c main_v21 : S1x1023.Idx → EReal) (ix2 0 n) := by
  show V m c main_v21 (((cfg0.win 2).blk t).view.emb (ix2 0 n)) = _
  refine congrArg _ ?_
  obtain ⟨-, -, -, -, e0, e1, -⟩ := index_facts t
  funext a; apply Fin.ext
  match a with
  | ⟨0, _⟩ => show win0_2.index t (0 : Fin 2) * 1 + 1 * (0 : Fin 1).val = (0 : Fin 1).val; omega
  | ⟨1, _⟩ => show win0_2.index t (1 : Fin 2) * 1023 + 1 * n.val = n.val; omega

theorem iblk3_apply (c : Dev nD) (t : Fin cfg0.N) (n : Fin 1023) :
    iblk m c 3 t (ix2 0 n) = (V m c main_v22 : S1x1023.Idx → EReal) (ix2 0 n) := by
  show V m c main_v22 (((cfg0.win 3).blk t).view.emb (ix2 0 n)) = _
  refine congrArg _ ?_
  obtain ⟨-, -, -, -, -, -, e0, e1, -⟩ := index_facts t
  funext a; apply Fin.ext
  match a with
  | ⟨0, _⟩ => show win0_3.index t (0 : Fin 2) * 1 + 1 * (0 : Fin 1).val = (0 : Fin 1).val; omega
  | ⟨1, _⟩ => show win0_3.index t (1 : Fin 2) * 1023 + 1 * n.val = n.val; omega

theorem iblk4_apply (c : Dev nD) (t : Fin cfg0.N) (l : Fin 1024) (c' : Fin 16) :
    iblk m c 4 t (ix2 l c') = (V m c main_v19 : S1024x16.Idx → EReal) (ix2 l c') := by
  show V m c main_v19 (((cfg0.win 4).blk t).view.emb (ix2 l c')) = _
  refine congrArg _ ?_
  obtain ⟨-, -, -, -, -, -, -, -, e0, e1, -⟩ := index_facts t
  funext a; apply Fin.ext
  match a with
  | ⟨0, _⟩ => show win0_4.index t (0 : Fin 2) * 1024 + 1 * l.val = l.val; omega
  | ⟨1, _⟩ => show win0_4.index t (1 : Fin 2) * 16 + 1 * c'.val = c'.val; omega

/-! ## A block row's gates are the heap-order gates at the permuted node -/

/-- The mixture of the five argument arrays as launched, on core c. -/
abbrev G (c : Dev nD) : S131072x16.Idx → EReal :=
  mixture (m ((c : Thread nD τ).loc main_arg0)) (m ((c : Thread nD τ).loc main_arg1)) (m ((c : Thread nD τ).loc main_arg2))
    (m ((c : Thread nD τ).loc main_arg3)) (m ((c : Thread nD τ).loc main_arg4))

theorem gateRow_eq (c : Dev nD) (t : Fin cfg0.N) (r : Fin 1024) (n : Fin 1023) :
    gateRow (iblk m c 0 t) (iblk m c 1 t) (iblk m c 2 t) (iblk m c 3 t) r n.val
      = gate (m ((c : Thread nD τ).loc main_arg0)) (m ((c : Thread nD τ).loc main_arg1)) (m ((c : Thread nD τ).loc main_arg2))
          (m ((c : Thread nD τ).loc main_arg3)) (batchRow t r) (node n) := by
  rw [← gateRow_val (iblk m c 0 t) (iblk m c 1 t) (iblk m c 2 t) (iblk m c 3 t) r n]
  unfold gate
  exact gate_eq (iblk m c 0 t) (iblk m c 1 t) (iblk m c 2 t) (iblk m c 3 t) r n _ _ _ _
    (fun k => iblk0_apply m c t r k)
    (fun k => (iblk1_apply m c t k n).trans (V_main_v20_apply m c k n))
    ((iblk2_apply m c t n).trans (V_main_v21_apply m c n))
    ((iblk3_apply m c t n).trans (V_main_v22_apply m c n))

/-! ## What a point writes back, the cover, the run -/

/-- What point t's body stores: its payload over the five staged blocks. -/
def stored (c : Dev nD) (t : Fin cfg0.N) : Vec Ideal S1024x16 .f32 :=
  k0_pay5 (k0_pay1 (iblk m c 0 t) (iblk m c 1 t) (iblk m c 2 t) (iblk m c 3 t))
    (k0_pay2 (iblk m c 0 t) (iblk m c 1 t) (iblk m c 2 t) (iblk m c 3 t))
    (k0_pay3 (iblk m c 0 t) (iblk m c 1 t) (iblk m c 2 t) (iblk m c 3 t))
    (k0_pay4 (iblk m c 0 t) (iblk m c 1 t) (iblk m c 2 t) (iblk m c 3 t)) (iblk m c 4 t)

/-- Point t's block at (r, c') is the mixture at batch row 1024 t + r. -/
theorem block_eq (c : Dev nD) (t : Fin cfg0.N) (r : Fin 1024) (c' : Fin 16) :
    stored m c t (ix2 r c') = G m c (ix2 (batchRow t r) c') := by
  unfold stored
  refine (block_apply (iblk m c 0 t) (iblk m c 1 t) (iblk m c 2 t) (iblk m c 3 t) (iblk m c 4 t) r c').trans ?_
  exact Cert.Bridge.append_sum_eq_mixture _ _ _ _ _ (batchRow t r) c' node
    (fun e he i hi _ => congrArg Fin.val (node_level he hi)) _ (fun n => gateRow_eq m c t r n) _
    (fun l c'' => (iblk4_apply m c t l c'').trans (V_main_v19_br10 m c l c''))

/-- WHAT POINT t WRITES BACK is block t of the mixture. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero offsets_zero]
  simp only [View.ld_unit_zero (S := S1024x64) offsets_zero, View.ld_unit_zero (S := S64x1023) offsets_zero,
    View.ld_unit_zero (S := S1x1023) offsets_zero, View.ld_unit_zero (S := S1024x16) offsets_zero]
  funext (j : S1024x16.Idx)
  show stored m c t j = G m c (((cfg0.win 5).blk t).view.emb j)
  refine ((congrArg (stored m c t) (eq_ix2 j)).trans (block_eq m c t (j 0) (j 1))).trans (congrArg (G m c) ?_)
  obtain ⟨-, -, -, -, -, -, -, -, -, -, e0, e1⟩ := index_facts t
  funext a; apply Fin.ext
  match a with
  | ⟨0, _⟩ => show t.val * 1024 + (j 0).val = win0_5.index t (0 : Fin 2) * 1024 + 1 * (j 0).val; omega
  | ⟨1, _⟩ => show (j 1).val = win0_5.index t (1 : Fin 2) * 16 + 1 * (j 1).val; omega

/-- An index of the result is in point t's block iff each coordinate is in the block's range on its axis. -/
theorem mem_blk (t : Fin cfg0.N) (i : S131072x16.Idx) :
    i ∈ ((cfg0.win 5).blk t).view.set ↔ ∀ a : Fin 2, win0_5.index t a * S1024x16.size a ≤ (i a).val ∧ (i a).val < win0_5.index t a * S1024x16.size a + S1024x16.size a := by
  show i ∈ ((View.whole main_v23).slice (win0_5.rect t)).set ↔ _
  rw [View.set_slice_whole, Rect.mem_set_unit]
  exact Iff.rfl

/-- Row R of the result is in the block of point R / 1024. -/
theorem cover (i : S131072x16.Idx) :
    ∃ t : Fin cfg0.N, (cfg0.win 5).flush t = true ∧ i ∈ ((cfg0.win 5).blk t).view.set := by
  have hi0 : (i 0).val < 131072 := (i 0).isLt
  have hi1 : (i 1).val < 16 := (i 1).isLt
  have hN : cfg0.N = 128 := N_0
  have ht : (i 0).val / 1024 < cfg0.N := by rw [hN]; omega
  obtain ⟨-, -, -, -, -, -, -, -, -, -, e0, e1⟩ := index_facts ⟨(i 0).val / 1024, ht⟩
  refine ⟨⟨(i 0).val / 1024, ht⟩, flush0_5 _, ?_⟩
  rw [mem_blk]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_5.index ⟨(i 0).val / 1024, ht⟩ (1 : Fin 2) * 16 ≤ (i 1).val ∧ (i 1).val < win0_5.index ⟨(i 0).val / 1024, ht⟩ (1 : Fin 2) * 16 + 16
    omega

/-- THE RESULT ARRAY after the run is the mixture. -/
theorem final (c : Dev nD) : (dats m 0 c).arrAt 5 cfg0.N = G m c :=
  (dats m 0 c).arrAt_eq_of_cover 5 (G m c) (fun t _ => flushed_eq m c t) cover

/-- The frame run re-posted: the result at the mixture of the arguments, the arguments unchanged. -/
theorem run : θ_run defs (onTc (τ := τ) (main (F := Ideal))) ⟨m, fun _ => 0, ρ⟩ fun r => ∀ c : Dev nD,
      r.2.mem ((c : Thread nD τ).loc main_v23) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Mixture

end
-- ==== Proof.RefRun.lean ====
/-
  The reference's run, read back window by window.

  @main of the reference is a straight line of 133 host operations: sixteen compute every inner node's gate, then one
  window per tree level interleaves the previous level's path products times the level's left and right factors, and the
  last fifteen take the row softmax of the leaf array and the final product. The line is stated as the list ops (the
  printed @main is that list run in order: main_eq), every named intermediate as its term of the launch contents
  (res_main_v13 … res_main_v111, res_main_v104), and the run is resolved one window at a time: across windows only the
  gates buffer, the leaf array and the current path buffer are still read, so each window is resolved by itself from
  those three (Keeps and the level lemmas) and the windows are chained. No operation writes an argument.
-/
import proofs.«163341_j35716948033588_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 133 operations, in order. -/
abbrev ops : List (HloOp τ sig (Elt F)) :=
  [ unary main_arg1 main_v0 ((transpose S64x1023 [1, 0] · transposes_S1023x64_S64x1023_1_0) : (⟨S1023x64, .f32⟩ : BufTy).Contents (Elt F) → (⟨S64x1023, .f32⟩ : BufTy).Contents (Elt F)),
    binary main_arg0 main_v0 main_v1 ((fun l r => Host.dotGeneral dot_S131072x64_S64x1023_S131072x1023_1_0_0_1_n_n none l r) : (⟨S131072x64, .f32⟩ : BufTy).Contents (Elt F) → (⟨S64x1023, .f32⟩ : BufTy).Contents (Elt F) → (⟨S131072x1023, .f32⟩ : BufTy).Contents (Elt F)),
    unary main_arg2 main_v2 (broadcastInDim S1x1023 ![1] bcast_S1023_S1x1023_1 : (⟨S1023, .f32⟩ : BufTy).Contents (Elt F) → (⟨S1x1023, .f32⟩ : BufTy).Contents (Elt F)),
    unary main_v2 main_v3 (broadcastInDim S131072x1023 ![0, 1] bcast_S1x1023_S131072x1023_0_1 : (⟨S1x1023, .f32⟩ : BufTy).Contents (Elt F) → (⟨S131072x1023, .f32⟩ : BufTy).Contents (Elt F)),
    binary main_v1 main_v3 main_v4 (addf : (⟨S131072x1023, .f32⟩ : BufTy).Contents (Elt F) → (⟨S131072x1023, .f32⟩ : BufTy).Contents (Elt F) → (⟨S131072x1023, .f32⟩ : BufTy).Contents (Elt F)),
    unary main_arg3 main_v5 (broadcastInDim S1x1023 ![1] bcast_S1023_S1x1023_1 : (⟨S1023, .f32⟩ : BufTy).Contents (Elt F) → (⟨S1x1023, .f32⟩ : BufTy).Contents (Elt F)),
    unary main_v5 main_v6 (broadcastInDim S131072x1023 ![0, 1] bcast_S1x1023_S131072x1023_0_1 : (⟨S1x1023, .f32⟩ : BufTy).Contents (Elt F) → (⟨S131072x1023, .f32⟩ : BufTy).Contents (Elt F)),
    binary main_v6 main_v4 main_v7 (mulf : (⟨S131072x1023, .f32⟩ : BufTy).Contents (Elt F) → (⟨S131072x1023, .f32⟩ : BufTy).Contents (Elt F) → (⟨S131072x1023, .f32⟩ : BufTy).Contents (Elt F)),
    unary main_v7 main_v8 (Host.negf : (⟨S131072x1023, .f32⟩ : BufTy).Contents (Elt F) → (⟨S131072x1023, .f32⟩ : BufTy).Contents (Elt F)),
    unary main_v8 main_v9 (Host.exp : (⟨S131072x1023, .f32⟩ : BufTy).Contents (Elt F) → (⟨S131072x1023, .f32⟩ : BufTy).Contents (Elt F)),
    nullary main_cst (constant S_ .f32 0x3F800000#32),
    unary main_cst main_v10 (broadcastInDim S131072x1023 ![] bcast_S_S131072x1023 : (⟨S_, .f32⟩ : BufTy).Contents (Elt F) → (⟨S131072x1023, .f32⟩ : BufTy).Contents (Elt F)),
    binary main_v10 main_v9 main_v11 (addf : (⟨S131072x1023, .f32⟩ : BufTy).Contents (Elt F) → (⟨S131072x1023, .f32⟩ : BufTy).Contents (Elt F) → (⟨S131072x1023, .f32⟩ : BufTy).Contents (Elt F)),
    nullary main_cst_0 (constant S_ .f32 0x3F800000#32),
    unary main_cst_0 main_v12 (broadcastInDim S131072x1023 ![] bcast_S_S131072x1023 : (⟨S_, .f32⟩ : BufTy).Contents (Elt F) → (⟨S131072x1023, .f32⟩ : BufTy).Contents (Elt F)),
    binary main_v12 main_v11 main_v13 (Host.divf : (⟨S131072x1023, .f32⟩ : BufTy).Contents (Elt F) → (⟨S131072x1023, .f32⟩ : BufTy).Contents (Elt F) → (⟨S131072x1023, .f32⟩ : BufTy).Contents (Elt F)),
    nullary main_cst_1 (constant S_ .f32 0x3F800000#32),
    unary main_cst_1 main_v14 (broadcastInDim S131072x1 ![] bcast_S_S131072x1 : (⟨S_, .f32⟩ : BufTy).Contents (Elt F) → (⟨S131072x1, .f32⟩ : BufTy).Contents (Elt F)),
    unary main_v13 main_v15 ((extractStridedSlice S131072x1 ![0, 0] · slices_S131072x1023_S131072x1_0_0) : (⟨S131072x1023, .f32⟩ : BufTy).Contents (Elt F) → (⟨S131072x1, .f32⟩ : BufTy).Contents (Elt F)),
    nullary main_cst_2 (constant S_ .f32 0x3F800000#32),
    unary main_cst_2 main_v16 (broadcastInDim S131072x1 ![] bcast_S_S131072x1 : (⟨S_, .f32⟩ : BufTy).Contents (Elt F) → (⟨S131072x1, .f32⟩ : BufTy).Contents (Elt F)),
    binary main_v16 main_v15 main_v17 (subf : (⟨S131072x1, .f32⟩ : BufTy).Contents (Elt F) → (⟨S131072x1, .f32⟩ : BufTy).Contents (Elt F) → (⟨S131072x1, .f32⟩ : BufTy).Contents (Elt F)),
    binary main_v14 main_v17 main_v18 (mulf : (⟨S131072x1, .f32⟩ : BufTy).Contents (Elt F) → (⟨S131072x1, .f32⟩ : BufTy).Contents (Elt F) → (⟨S131072x1, .f32⟩ : BufTy).Contents (Elt F)),
    binary main_v14 main_v15 main_v19 (mulf : (⟨S131072x1, .f32⟩ : BufTy).Contents (Elt F) → (⟨S131072x1, .f32⟩ : BufTy).Contents (Elt F) → (⟨S131072x1, .f32⟩ : BufTy).Contents (Elt F)),
    unary main_v18 main_v20 (broadcastInDim S131072x1x1 ![0, 1] bcast_S131072x1_S131072x1x1_0_1 : (⟨S131072x1, .f32⟩ : BufTy).Contents (Elt F) → (⟨S131072x1x1, .f32⟩ : BufTy).Contents (Elt F)),
    unary main_v19 main_v21 (broadcastInDim S131072x1x1 ![0, 1] bcast_S131072x1_S131072x1x1_0_1 : (⟨S131072x1, .f32⟩ : BufTy).Contents (Elt F) → (⟨S131072x1x1, .f32⟩ : BufTy).Contents (Elt F)),
    binary main_v20 main_v21 main_v22 ((fun a b => concatenate S131072x1x2 2 [⟨S131072x1x1, a⟩, ⟨S131072x1x1, b⟩] concatenates_S131072x1x1_S131072x1x1_S131072x1x2_d2) : (⟨S131072x1x1, .f32⟩ : BufTy).Contents (Elt F) → (⟨S131072x1x1, .f32⟩ : BufTy).Contents (Elt F) → (⟨S131072x1x2, .f32⟩ : BufTy).Contents (Elt F)),
    reshape main_v22 main_v23 rfl shapeCasts_S131072x1x2_S131072x2,
    unary main_v13 main_v24 ((extractStridedSlice S131072x2 ![0, 1] · slices_S131072x1023_S131072x2_0_1) : (⟨S131072x1023, .f32⟩ : BufTy).Contents (Elt F) → (⟨S131072x2, .f32⟩ : BufTy).Contents (Elt F)),
    nullary main_cst_3 (constant S_ .f32 0x3F800000#32),
    unary main_cst_3 main_v25 (broadcastInDim S131072x2 ![] bcast_S_S131072x2 : (⟨S_, .f32⟩ : BufTy).Contents (Elt F) → (⟨S131072x2, .f32⟩ : BufTy).Contents (Elt F)),
    binary main_v25 main_v24 main_v26 (subf : (⟨S131072x2, .f32⟩ : BufTy).Contents (Elt F) → (⟨S131072x2, .f32⟩ : BufTy).Contents (Elt F) → (⟨S131072x2, .f32⟩ : BufTy).Contents (Elt F)),
    binary main_v23 main_v26 main_v27 (mulf : (⟨S131072x2, .f32⟩ : BufTy).Contents (Elt F) → (⟨S131072x2, .f32⟩ : BufTy).Contents (Elt F) → (⟨S131072x2, .f32⟩ : BufTy).Contents (Elt F)),
    binary main_v23 main_v24 main_v28 (mulf : (⟨S131072x2, .f32⟩ : BufTy).Contents (Elt F) → (⟨S131072x2, .f32⟩ : BufTy).Contents (Elt F) → (⟨S131072x2, .f32⟩ : BufTy).Contents (Elt F)),
    unary main_v27 main_v29 (broadcastInDim S131072x2x1 ![0, 1] bcast_S131072x2_S131072x2x1_0_1 : (⟨S131072x2, .f32⟩ : BufTy).Contents (Elt F) → (⟨S131072x2x1, .f32⟩ : BufTy).Contents (Elt F)),
    unary main_v28 main_v30 (broadcastInDim S131072x2x1 ![0, 1] bcast_S131072x2_S131072x2x1_0_1 : (⟨S131072x2, .f32⟩ : BufTy).Contents (Elt F) → (⟨S131072x2x1, .f32⟩ : BufTy).Contents (Elt F)),
    binary main_v29 main_v30 main_v31 ((fun a b => concatenate S131072x2x2 2 [⟨S131072x2x1, a⟩, ⟨S131072x2x1, b⟩] concatenates_S131072x2x1_S131072x2x1_S131072x2x2_d2) : (⟨S131072x2x1, .f32⟩ : BufTy).Contents (Elt F) → (⟨S131072x2x1, .f32⟩ : BufTy).Contents (Elt F) → (⟨S131072x2x2, .f32⟩ : BufTy).Contents (Elt F)),
    reshape main_v31 main_v32 rfl shapeCasts_S131072x2x2_S131072x4,
    unary main_v13 main_v33 ((extractStridedSlice S131072x4 ![0, 3] · slices_S131072x1023_S131072x4_0_3) : (⟨S131072x1023, .f32⟩ : BufTy).Contents (Elt F) → (⟨S131072x4, .f32⟩ : BufTy).Contents (Elt F)),
    nullary main_cst_4 (constant S_ .f32 0x3F800000#32),
    unary main_cst_4 main_v34 (broadcastInDim S131072x4 ![] bcast_S_S131072x4 : (⟨S_, .f32⟩ : BufTy).Contents (Elt F) → (⟨S131072x4, .f32⟩ : BufTy).Contents (Elt F)),
    binary main_v34 main_v33 main_v35 (subf : (⟨S131072x4, .f32⟩ : BufTy).Contents (Elt F) → (⟨S131072x4, .f32⟩ : BufTy).Contents (Elt F) → (⟨S131072x4, .f32⟩ : BufTy).Contents (Elt F)),
    binary main_v32 main_v35 main_v36 (mulf : (⟨S131072x4, .f32⟩ : BufTy).Contents (Elt F) → (⟨S131072x4, .f32⟩ : BufTy).Contents (Elt F) → (⟨S131072x4, .f32⟩ : BufTy).Contents (Elt F)),
    binary main_v32 main_v33 main_v37 (mulf : (⟨S131072x4, .f32⟩ : BufTy).Contents (Elt F) → (⟨S131072x4, .f32⟩ : BufTy).Contents (Elt F) → (⟨S131072x4, .f32⟩ : BufTy).Contents (Elt F)),
    unary main_v36 main_v38 (broadcastInDim S131072x4x1 ![0, 1] bcast_S131072x4_S131072x4x1_0_1 : (⟨S131072x4, .f32⟩ : BufTy).Contents (Elt F) → (⟨S131072x4x1, .f32⟩ : BufTy).Contents (Elt F)),
    unary main_v37 main_v39 (broadcastInDim S131072x4x1 ![0, 1] bcast_S131072x4_S131072x4x1_0_1 : (⟨S131072x4, .f32⟩ : BufTy).Contents (Elt F) → (⟨S131072x4x1, .f32⟩ : BufTy).Contents (Elt F)),
    binary main_v38 main_v39 main_v40 ((fun a b => concatenate S131072x4x2 2 [⟨S131072x4x1, a⟩, ⟨S131072x4x1, b⟩] concatenates_S131072x4x1_S131072x4x1_S131072x4x2_d2) : (⟨S131072x4x1, .f32⟩ : BufTy).Contents (Elt F) → (⟨S131072x4x1, .f32⟩ : BufTy).Contents (Elt F) → (⟨S131072x4x2, .f32⟩ : BufTy).Contents (Elt F)),
    reshape main_v40 main_v41 rfl shapeCasts_S131072x4x2_S131072x8,
    unary main_v13 main_v42 ((extractStridedSlice S131072x8 ![0, 7] · slices_S131072x1023_S131072x8_0_7) : (⟨S131072x1023, .f32⟩ : BufTy).Contents (Elt F) → (⟨S131072x8, .f32⟩ : BufTy).Contents (Elt F)),
    nullary main_cst_5 (constant S_ .f32 0x3F800000#32),
    unary main_cst_5 main_v43 (broadcastInDim S131072x8 ![] bcast_S_S131072x8 : (⟨S_, .f32⟩ : BufTy).Contents (Elt F) → (⟨S131072x8, .f32⟩ : BufTy).Contents (Elt F)),
    binary main_v43 main_v42 main_v44 (subf : (⟨S131072x8, .f32⟩ : BufTy).Contents (Elt F) → (⟨S131072x8, .f32⟩ : BufTy).Contents (Elt F) → (⟨S131072x8, .f32⟩ : BufTy).Contents (Elt F)),
    binary main_v41 main_v44 main_v45 (mulf : (⟨S131072x8, .f32⟩ : BufTy).Contents (Elt F) → (⟨S131072x8, .f32⟩ : BufTy).Contents (Elt F) → (⟨S131072x8, .f32⟩ : BufTy).Contents (Elt F)),
    binary main_v41 main_v42 main_v46 (mulf : (⟨S131072x8, .f32⟩ : BufTy).Contents (Elt F) → (⟨S131072x8, .f32⟩ : BufTy).Contents (Elt F) → (⟨S131072x8, .f32⟩ : BufTy).Contents (Elt F)),
    unary main_v45 main_v47 (broadcastInDim S131072x8x1 ![0, 1] bcast_S131072x8_S131072x8x1_0_1 : (⟨S131072x8, .f32⟩ : BufTy).Contents (Elt F) → (⟨S131072x8x1, .f32⟩ : BufTy).Contents (Elt F)),
    unary main_v46 main_v48 (broadcastInDim S131072x8x1 ![0, 1] bcast_S131072x8_S131072x8x1_0_1 : (⟨S131072x8, .f32⟩ : BufTy).Contents (Elt F) → (⟨S131072x8x1, .f32⟩ : BufTy).Contents (Elt F)),
    binary main_v47 main_v48 main_v49 ((fun a b => concatenate S131072x8x2 2 [⟨S131072x8x1, a⟩, ⟨S131072x8x1, b⟩] concatenates_S131072x8x1_S131072x8x1_S131072x8x2_d2) : (⟨S131072x8x1, .f32⟩ : BufTy).Contents (Elt F) → (⟨S131072x8x1, .f32⟩ : BufTy).Contents (Elt F) → (⟨S131072x8x2, .f32⟩ : BufTy).Contents (Elt F)),
    reshape main_v49 main_v50 rfl shapeCasts_S131072x8x2_S131072x16,
    unary main_v13 main_v51 ((extractStridedSlice S131072x16 ![0, 15] · slices_S131072x1023_S131072x16_0_15) : (⟨S131072x1023, .f32⟩ : BufTy).Contents (Elt F) → (⟨S131072x16, .f32⟩ : BufTy).Contents (Elt F)),
    nullary main_cst_6 (constant S_ .f32 0x3F800000#32),
    unary main_cst_6 main_v52 (broadcastInDim S131072x16 ![] bcast_S_S131072x16 : (⟨S_, .f32⟩ : BufTy).Contents (Elt F) → (⟨S131072x16, .f32⟩ : BufTy).Contents (Elt F)),
    binary main_v52 main_v51 main_v53 (subf : (⟨S131072x16, .f32⟩ : BufTy).Contents (Elt F) → (⟨S131072x16, .f32⟩ : BufTy).Contents (Elt F) → (⟨S131072x16, .f32⟩ : BufTy).Contents (Elt F)),
    binary main_v50 main_v53 main_v54 (mulf : (⟨S131072x16, .f32⟩ : BufTy).Contents (Elt F) → (⟨S131072x16, .f32⟩ : BufTy).Contents (Elt F) → (⟨S131072x16, .f32⟩ : BufTy).Contents (Elt F)),
    binary main_v50 main_v51 main_v55 (mulf : (⟨S131072x16, .f32⟩ : BufTy).Contents (Elt F) → (⟨S131072x16, .f32⟩ : BufTy).Contents (Elt F) → (⟨S131072x16, .f32⟩ : BufTy).Contents (Elt F)),
    unary main_v54 main_v56 (broadcastInDim S131072x16x1 ![0, 1] bcast_S131072x16_S131072x16x1_0_1 : (⟨S131072x16, .f32⟩ : BufTy).Contents (Elt F) → (⟨S131072x16x1, .f32⟩ : BufTy).Contents (Elt F)),
    unary main_v55 main_v57 (broadcastInDim S131072x16x1 ![0, 1] bcast_S131072x16_S131072x16x1_0_1 : (⟨S131072x16, .f32⟩ : BufTy).Contents (Elt F) → (⟨S131072x16x1, .f32⟩ : BufTy).Contents (Elt F)),
    binary main_v56 main_v57 main_v58 ((fun a b => concatenate S131072x16x2 2 [⟨S131072x16x1, a⟩, ⟨S131072x16x1, b⟩] concatenates_S131072x16x1_S131072x16x1_S131072x16x2_d2) : (⟨S131072x16x1, .f32⟩ : BufTy).Contents (Elt F) → (⟨S131072x16x1, .f32⟩ : BufTy).Contents (Elt F) → (⟨S131072x16x2, .f32⟩ : BufTy).Contents (Elt F)),
    reshape main_v58 main_v59 rfl shapeCasts_S131072x16x2_S131072x32,
    unary main_v13 main_v60 ((extractStridedSlice S131072x32 ![0, 31] · slices_S131072x1023_S131072x32_0_31) : (⟨S131072x1023, .f32⟩ : BufTy).Contents (Elt F) → (⟨S131072x32, .f32⟩ : BufTy).Contents (Elt F)),
    nullary main_cst_7 (constant S_ .f32 0x3F800000#32),
    unary main_cst_7 main_v61 (broadcastInDim S131072x32 ![] bcast_S_S131072x32 : (⟨S_, .f32⟩ : BufTy).Contents (Elt F) → (⟨S131072x32, .f32⟩ : BufTy).Contents (Elt F)),
    binary main_v61 main_v60 main_v62 (subf : (⟨S131072x32, .f32⟩ : BufTy).Contents (Elt F) → (⟨S131072x32, .f32⟩ : BufTy).Contents (Elt F) → (⟨S131072x32, .f32⟩ : BufTy).Contents (Elt F)),
    binary main_v59 main_v62 main_v63 (mulf : (⟨S131072x32, .f32⟩ : BufTy).Contents (Elt F) → (⟨S131072x32, .f32⟩ : BufTy).Contents (Elt F) → (⟨S131072x32, .f32⟩ : BufTy).Contents (Elt F)),
    binary main_v59 main_v60 main_v64 (mulf : (⟨S131072x32, .f32⟩ : BufTy).Contents (Elt F) → (⟨S131072x32, .f32⟩ : BufTy).Contents (Elt F) → (⟨S131072x32, .f32⟩ : BufTy).Contents (Elt F)),
    unary main_v63 main_v65 (broadcastInDim S131072x32x1 ![0, 1] bcast_S131072x32_S131072x32x1_0_1 : (⟨S131072x32, .f32⟩ : BufTy).Contents (Elt F) → (⟨S131072x32x1, .f32⟩ : BufTy).Contents (Elt F)),
    unary main_v64 main_v66 (broadcastInDim S131072x32x1 ![0, 1] bcast_S131072x32_S131072x32x1_0_1 : (⟨S131072x32, .f32⟩ : BufTy).Contents (Elt F) → (⟨S131072x32x1, .f32⟩ : BufTy).Contents (Elt F)),
    binary main_v65 main_v66 main_v67 ((fun a b => concatenate S131072x32x2 2 [⟨S131072x32x1, a⟩, ⟨S131072x32x1, b⟩] concatenates_S131072x32x1_S131072x32x1_S131072x32x2_d2) : (⟨S131072x32x1, .f32⟩ : BufTy).Contents (Elt F) → (⟨S131072x32x1, .f32⟩ : BufTy).Contents (Elt F) → (⟨S131072x32x2, .f32⟩ : BufTy).Contents (Elt F)),
    reshape main_v67 main_v68 rfl shapeCasts_S131072x32x2_S131072x64,
    unary main_v13 main_v69 ((extractStridedSlice S131072x64 ![0, 63] · slices_S131072x1023_S131072x64_0_63) : (⟨S131072x1023, .f32⟩ : BufTy).Contents (Elt F) → (⟨S131072x64, .f32⟩ : BufTy).Contents (Elt F)),
    nullary main_cst_8 (constant S_ .f32 0x3F800000#32),
    unary main_cst_8 main_v70 (broadcastInDim S131072x64 ![] bcast_S_S131072x64 : (⟨S_, .f32⟩ : BufTy).Contents (Elt F) → (⟨S131072x64, .f32⟩ : BufTy).Contents (Elt F)),
    binary main_v70 main_v69 main_v71 (subf : (⟨S131072x64, .f32⟩ : BufTy).Contents (Elt F) → (⟨S131072x64, .f32⟩ : BufTy).Contents (Elt F) → (⟨S131072x64, .f32⟩ : BufTy).Contents (Elt F)),
    binary main_v68 main_v71 main_v72 (mulf : (⟨S131072x64, .f32⟩ : BufTy).Contents (Elt F) → (⟨S131072x64, .f32⟩ : BufTy).Contents (Elt F) → (⟨S131072x64, .f32⟩ : BufTy).Contents (Elt F)),
    binary main_v68 main_v69 main_v73 (mulf : (⟨S131072x64, .f32⟩ : BufTy).Contents (Elt F) → (⟨S131072x64, .f32⟩ : BufTy).Contents (Elt F) → (⟨S131072x64, .f32⟩ : BufTy).Contents (Elt F)),
    unary main_v72 main_v74 (broadcastInDim S131072x64x1 ![0, 1] bcast_S131072x64_S131072x64x1_0_1 : (⟨S131072x64, .f32⟩ : BufTy).Contents (Elt F) → (⟨S131072x64x1, .f32⟩ : BufTy).Contents (Elt F)),
    unary main_v73 main_v75 (broadcastInDim S131072x64x1 ![0, 1] bcast_S131072x64_S131072x64x1_0_1 : (⟨S131072x64, .f32⟩ : BufTy).Contents (Elt F) → (⟨S131072x64x1, .f32⟩ : BufTy).Contents (Elt F)),
    binary main_v74 main_v75 main_v76 ((fun a b => concatenate S131072x64x2 2 [⟨S131072x64x1, a⟩, ⟨S131072x64x1, b⟩] concatenates_S131072x64x1_S131072x64x1_S131072x64x2_d2) : (⟨S131072x64x1, .f32⟩ : BufTy).Contents (Elt F) → (⟨S131072x64x1, .f32⟩ : BufTy).Contents (Elt F) → (⟨S131072x64x2, .f32⟩ : BufTy).Contents (Elt F)),
    reshape main_v76 main_v77 rfl shapeCasts_S131072x64x2_S131072x128,
    unary main_v13 main_v78 ((extractStridedSlice S131072x128 ![0, 127] · slices_S131072x1023_S131072x128_0_127) : (⟨S131072x1023, .f32⟩ : BufTy).Contents (Elt F) → (⟨S131072x128, .f32⟩ : BufTy).Contents (Elt F)),
    nullary main_cst_9 (constant S_ .f32 0x3F800000#32),
    unary main_cst_9 main_v79 (broadcastInDim S131072x128 ![] bcast_S_S131072x128 : (⟨S_, .f32⟩ : BufTy).Contents (Elt F) → (⟨S131072x128, .f32⟩ : BufTy).Contents (Elt F)),
    binary main_v79 main_v78 main_v80 (subf : (⟨S131072x128, .f32⟩ : BufTy).Contents (Elt F) → (⟨S131072x128, .f32⟩ : BufTy).Contents (Elt F) → (⟨S131072x128, .f32⟩ : BufTy).Contents (Elt F)),
    binary main_v77 main_v80 main_v81 (mulf : (⟨S131072x128, .f32⟩ : BufTy).Contents (Elt F) → (⟨S131072x128, .f32⟩ : BufTy).Contents (Elt F) → (⟨S131072x128, .f32⟩ : BufTy).Contents (Elt F)),
    binary main_v77 main_v78 main_v82 (mulf : (⟨S131072x128, .f32⟩ : BufTy).Contents (Elt F) → (⟨S131072x128, .f32⟩ : BufTy).Contents (Elt F) → (⟨S131072x128, .f32⟩ : BufTy).Contents (Elt F)),
    unary main_v81 main_v83 (broadcastInDim S131072x128x1 ![0, 1] bcast_S131072x128_S131072x128x1_0_1 : (⟨S131072x128, .f32⟩ : BufTy).Contents (Elt F) → (⟨S131072x128x1, .f32⟩ : BufTy).Contents (Elt F)),
    unary main_v82 main_v84 (broadcastInDim S131072x128x1 ![0, 1] bcast_S131072x128_S131072x128x1_0_1 : (⟨S131072x128, .f32⟩ : BufTy).Contents (Elt F) → (⟨S131072x128x1, .f32⟩ : BufTy).Contents (Elt F)),
    binary main_v83 main_v84 main_v85 ((fun a b => concatenate S131072x128x2 2 [⟨S131072x128x1, a⟩, ⟨S131072x128x1, b⟩] concatenates_S131072x128x1_S131072x128x1_S131072x128x2_d2) : (⟨S131072x128x1, .f32⟩ : BufTy).Contents (Elt F) → (⟨S131072x128x1, .f32⟩ : BufTy).Contents (Elt F) → (⟨S131072x128x2, .f32⟩ : BufTy).Contents (Elt F)),
    reshape main_v85 main_v86 rfl shapeCasts_S131072x128x2_S131072x256,
    unary main_v13 main_v87 ((extractStridedSlice S131072x256 ![0, 255] · slices_S131072x1023_S131072x256_0_255) : (⟨S131072x1023, .f32⟩ : BufTy).Contents (Elt F) → (⟨S131072x256, .f32⟩ : BufTy).Contents (Elt F)),
    nullary main_cst_10 (constant S_ .f32 0x3F800000#32),
    unary main_cst_10 main_v88 (broadcastInDim S131072x256 ![] bcast_S_S131072x256 : (⟨S_, .f32⟩ : BufTy).Contents (Elt F) → (⟨S131072x256, .f32⟩ : BufTy).Contents (Elt F)),
    binary main_v88 main_v87 main_v89 (subf : (⟨S131072x256, .f32⟩ : BufTy).Contents (Elt F) → (⟨S131072x256, .f32⟩ : BufTy).Contents (Elt F) → (⟨S131072x256, .f32⟩ : BufTy).Contents (Elt F)),
    binary main_v86 main_v89 main_v90 (mulf : (⟨S131072x256, .f32⟩ : BufTy).Contents (Elt F) → (⟨S131072x256, .f32⟩ : BufTy).Contents (Elt F) → (⟨S131072x256, .f32⟩ : BufTy).Contents (Elt F)),
    binary main_v86 main_v87 main_v91 (mulf : (⟨S131072x256, .f32⟩ : BufTy).Contents (Elt F) → (⟨S131072x256, .f32⟩ : BufTy).Contents (Elt F) → (⟨S131072x256, .f32⟩ : BufTy).Contents (Elt F)),
    unary main_v90 main_v92 (broadcastInDim S131072x256x1 ![0, 1] bcast_S131072x256_S131072x256x1_0_1 : (⟨S131072x256, .f32⟩ : BufTy).Contents (Elt F) → (⟨S131072x256x1, .f32⟩ : BufTy).Contents (Elt F)),
    unary main_v91 main_v93 (broadcastInDim S131072x256x1 ![0, 1] bcast_S131072x256_S131072x256x1_0_1 : (⟨S131072x256, .f32⟩ : BufTy).Contents (Elt F) → (⟨S131072x256x1, .f32⟩ : BufTy).Contents (Elt F)),
    binary main_v92 main_v93 main_v94 ((fun a b => concatenate S131072x256x2 2 [⟨S131072x256x1, a⟩, ⟨S131072x256x1, b⟩] concatenates_S131072x256x1_S131072x256x1_S131072x256x2_d2) : (⟨S131072x256x1, .f32⟩ : BufTy).Contents (Elt F) → (⟨S131072x256x1, .f32⟩ : BufTy).Contents (Elt F) → (⟨S131072x256x2, .f32⟩ : BufTy).Contents (Elt F)),
    reshape main_v94 main_v95 rfl shapeCasts_S131072x256x2_S131072x512,
    unary main_v13 main_v96 ((extractStridedSlice S131072x512 ![0, 511] · slices_S131072x1023_S131072x512_0_511) : (⟨S131072x1023, .f32⟩ : BufTy).Contents (Elt F) → (⟨S131072x512, .f32⟩ : BufTy).Contents (Elt F)),
    nullary main_cst_11 (constant S_ .f32 0x3F800000#32),
    unary main_cst_11 main_v97 (broadcastInDim S131072x512 ![] bcast_S_S131072x512 : (⟨S_, .f32⟩ : BufTy).Contents (Elt F) → (⟨S131072x512, .f32⟩ : BufTy).Contents (Elt F)),
    binary main_v97 main_v96 main_v98 (subf : (⟨S131072x512, .f32⟩ : BufTy).Contents (Elt F) → (⟨S131072x512, .f32⟩ : BufTy).Contents (Elt F) → (⟨S131072x512, .f32⟩ : BufTy).Contents (Elt F)),
    binary main_v95 main_v98 main_v99 (mulf : (⟨S131072x512, .f32⟩ : BufTy).Contents (Elt F) → (⟨S131072x512, .f32⟩ : BufTy).Contents (Elt F) → (⟨S131072x512, .f32⟩ : BufTy).Contents (Elt F)),
    binary main_v95 main_v96 main_v100 (mulf : (⟨S131072x512, .f32⟩ : BufTy).Contents (Elt F) → (⟨S131072x512, .f32⟩ : BufTy).Contents (Elt F) → (⟨S131072x512, .f32⟩ : BufTy).Contents (Elt F)),
    unary main_v99 main_v101 (broadcastInDim S131072x512x1 ![0, 1] bcast_S131072x512_S131072x512x1_0_1 : (⟨S131072x512, .f32⟩ : BufTy).Contents (Elt F) → (⟨S131072x512x1, .f32⟩ : BufTy).Contents (Elt F)),
    unary main_v100 main_v102 (broadcastInDim S131072x512x1 ![0, 1] bcast_S131072x512_S131072x512x1_0_1 : (⟨S131072x512, .f32⟩ : BufTy).Contents (Elt F) → (⟨S131072x512x1, .f32⟩ : BufTy).Contents (Elt F)),
    binary main_v101 main_v102 main_v103 ((fun a b => concatenate S131072x512x2 2 [⟨S131072x512x1, a⟩, ⟨S131072x512x1, b⟩] concatenates_S131072x512x1_S131072x512x1_S131072x512x2_d2) : (⟨S131072x512x1, .f32⟩ : BufTy).Contents (Elt F) → (⟨S131072x512x1, .f32⟩ : BufTy).Contents (Elt F) → (⟨S131072x512x2, .f32⟩ : BufTy).Contents (Elt F)),
    reshape main_v103 main_v104 rfl shapeCasts_S131072x512x2_S131072x1024,
    nullary main_cst_12 (constant S_ .f32 0xFF800000#32),
    binary main_arg4 main_cst_12 main_v105 ((fun x v => Host.reduce FloatOps.maximumf x v reducesTo_S1024x16_S1024_d1 h_S_) : (⟨S1024x16, .f32⟩ : BufTy).Contents (Elt F) → (⟨S_, .f32⟩ : BufTy).Contents (Elt F) → (⟨S1024, .f32⟩ : BufTy).Contents (Elt F)),
    nullary main_cst_13 (constant S_ .f32 0xFF800000#32),
    unary main_cst_13 main_v106 (broadcastInDim S1024 ![] bcast_S_S1024 : (⟨S_, .f32⟩ : BufTy).Contents (Elt F) → (⟨S1024, .f32⟩ : BufTy).Contents (Elt F)),
    binary main_v106 main_v105 main_v107 (maximumf : (⟨S1024, .f32⟩ : BufTy).Contents (Elt F) → (⟨S1024, .f32⟩ : BufTy).Contents (Elt F) → (⟨S1024, .f32⟩ : BufTy).Contents (Elt F)),
    unary main_v107 main_v108 (broadcastInDim S1024x1 ![0] bcast_S1024_S1024x1_0 : (⟨S1024, .f32⟩ : BufTy).Contents (Elt F) → (⟨S1024x1, .f32⟩ : BufTy).Contents (Elt F)),
    unary main_v108 main_v109 (broadcastInDim S1024x16 ![0, 1] bcast_S1024x1_S1024x16_0_1 : (⟨S1024x1, .f32⟩ : BufTy).Contents (Elt F) → (⟨S1024x16, .f32⟩ : BufTy).Contents (Elt F)),
    binary main_arg4 main_v109 main_v110 (subf : (⟨S1024x16, .f32⟩ : BufTy).Contents (Elt F) → (⟨S1024x16, .f32⟩ : BufTy).Contents (Elt F) → (⟨S1024x16, .f32⟩ : BufTy).Contents (Elt F)),
    unary main_v110 main_v111 (Host.exp : (⟨S1024x16, .f32⟩ : BufTy).Contents (Elt F) → (⟨S1024x16, .f32⟩ : BufTy).Contents (Elt F)),
    nullary main_cst_14 (constant S_ .f32 0x00000000#32),
    binary main_v111 main_cst_14 main_v112 ((fun x v => Host.reduceAdd x v reducesTo_S1024x16_S1024_d1 h_S_) : (⟨S1024x16, .f32⟩ : BufTy).Contents (Elt F) → (⟨S_, .f32⟩ : BufTy).Contents (Elt F) → (⟨S1024, .f32⟩ : BufTy).Contents (Elt F)),
    unary main_v112 main_v113 (broadcastInDim S1024x1 ![0] bcast_S1024_S1024x1_0 : (⟨S1024, .f32⟩ : BufTy).Contents (Elt F) → (⟨S1024x1, .f32⟩ : BufTy).Contents (Elt F)),
    unary main_v113 main_v114 (broadcastInDim S1024x16 ![0, 1] bcast_S1024x1_S1024x16_0_1 : (⟨S1024x1, .f32⟩ : BufTy).Contents (Elt F) → (⟨S1024x16, .f32⟩ : BufTy).Contents (Elt F)),
    binary main_v111 main_v114 main_v115 (Host.divf : (⟨S1024x16, .f32⟩ : BufTy).Contents (Elt F) → (⟨S1024x16, .f32⟩ : BufTy).Contents (Elt F) → (⟨S1024x16, .f32⟩ : BufTy).Contents (Elt F)),
    binary main_v104 main_v115 main_v116 ((fun l r => Host.dotGeneral dot_S131072x1024_S1024x16_S131072x16_1_0_0_1_n_n none l r) : (⟨S131072x1024, .f32⟩ : BufTy).Contents (Elt F) → (⟨S1024x16, .f32⟩ : BufTy).Contents (Elt F) → (⟨S131072x16, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

set_option maxRecDepth 8192 in
/-- `main_v13`'s composed term of the arguments (named: it is used 10 times). -/
def res_main_v13 (V0 : Valuation τ sig (Elt F)) : (Proc.devRef .tc main_v13 : DevRef τ sig).ty.Contents (Elt F) :=
  Host.divf (broadcastInDim S131072x1023 ![] bcast_S_S131072x1023 (constant S_ .f32 0x3F800000#32)) (addf (broadcastInDim S131072x1023 ![] bcast_S_S131072x1023 (constant S_ .f32 0x3F800000#32)) (Host.exp (Host.negf (mulf (broadcastInDim S131072x1023 ![0, 1] bcast_S1x1023_S131072x1023_0_1 (broadcastInDim S1x1023 ![1] bcast_S1023_S1x1023_1 (V0 (Proc.devRef .tc main_arg3)))) (addf (Host.dotGeneral dot_S131072x64_S64x1023_S131072x1023_1_0_0_1_n_n none (V0 (Proc.devRef .tc main_arg0)) (transpose S64x1023 [1, 0] (V0 (Proc.devRef .tc main_arg1)) transposes_S1023x64_S64x1023_1_0)) (broadcastInDim S131072x1023 ![0, 1] bcast_S1x1023_S131072x1023_0_1 (broadcastInDim S1x1023 ![1] bcast_S1023_S1x1023_1 (V0 (Proc.devRef .tc main_arg2)))))))))

set_option maxRecDepth 8192 in
/-- `main_v14`'s composed term of the arguments (named: it is used 2 times). -/
def res_main_v14 (V0 : Valuation τ sig (Elt F)) : (Proc.devRef .tc main_v14 : DevRef τ sig).ty.Contents (Elt F) :=
  broadcastInDim S131072x1 ![] bcast_S_S131072x1 (constant S_ .f32 0x3F800000#32)

set_option maxRecDepth 8192 in
/-- `main_v15`'s composed term of the arguments (named: it is used 2 times). -/
def res_main_v15 (V0 : Valuation τ sig (Elt F)) : (Proc.devRef .tc main_v15 : DevRef τ sig).ty.Contents (Elt F) :=
  extractStridedSlice S131072x1 ![0, 0] (res_main_v13 V0) slices_S131072x1023_S131072x1_0_0

set_option maxRecDepth 8192 in
/-- `main_v23`'s composed term of the arguments (named: it is used 2 times). -/
def res_main_v23 (V0 : Valuation τ sig (Elt F)) : (Proc.devRef .tc main_v23 : DevRef τ sig).ty.Contents (Elt F) :=
  shapeCast _ (concatenate S131072x1x2 2 [⟨S131072x1x1, (broadcastInDim S131072x1x1 ![0, 1] bcast_S131072x1_S131072x1x1_0_1 (mulf (res_main_v14 V0) (subf (broadcastInDim S131072x1 ![] bcast_S_S131072x1 (constant S_ .f32 0x3F800000#32)) (res_main_v15 V0))))⟩, ⟨S131072x1x1, (broadcastInDim S131072x1x1 ![0, 1] bcast_S131072x1_S131072x1x1_0_1 (mulf (res_main_v14 V0) (res_main_v15 V0)))⟩] concatenates_S131072x1x1_S131072x1x1_S131072x1x2_d2) shapeCasts_S131072x1x2_S131072x2

set_option maxRecDepth 8192 in
/-- `main_v24`'s composed term of the arguments (named: it is used 2 times). -/
def res_main_v24 (V0 : Valuation τ sig (Elt F)) : (Proc.devRef .tc main_v24 : DevRef τ sig).ty.Contents (Elt F) :=
  extractStridedSlice S131072x2 ![0, 1] (res_main_v13 V0) slices_S131072x1023_S131072x2_0_1

set_option maxRecDepth 8192 in
/-- `main_v32`'s composed term of the arguments (named: it is used 2 times). -/
def res_main_v32 (V0 : Valuation τ sig (Elt F)) : (Proc.devRef .tc main_v32 : DevRef τ sig).ty.Contents (Elt F) :=
  shapeCast _ (concatenate S131072x2x2 2 [⟨S131072x2x1, (broadcastInDim S131072x2x1 ![0, 1] bcast_S131072x2_S131072x2x1_0_1 (mulf (res_main_v23 V0) (subf (broadcastInDim S131072x2 ![] bcast_S_S131072x2 (constant S_ .f32 0x3F800000#32)) (res_main_v24 V0))))⟩, ⟨S131072x2x1, (broadcastInDim S131072x2x1 ![0, 1] bcast_S131072x2_S131072x2x1_0_1 (mulf (res_main_v23 V0) (res_main_v24 V0)))⟩] concatenates_S131072x2x1_S131072x2x1_S131072x2x2_d2) shapeCasts_S131072x2x2_S131072x4

set_option maxRecDepth 8192 in
/-- `main_v33`'s composed term of the arguments (named: it is used 2 times). -/
def res_main_v33 (V0 : Valuation τ sig (Elt F)) : (Proc.devRef .tc main_v33 : DevRef τ sig).ty.Contents (Elt F) :=
  extractStridedSlice S131072x4 ![0, 3] (res_main_v13 V0) slices_S131072x1023_S131072x4_0_3

set_option maxRecDepth 8192 in
/-- `main_v41`'s composed term of the arguments (named: it is used 2 times). -/
def res_main_v41 (V0 : Valuation τ sig (Elt F)) : (Proc.devRef .tc main_v41 : DevRef τ sig).ty.Contents (Elt F) :=
  shapeCast _ (concatenate S131072x4x2 2 [⟨S131072x4x1, (broadcastInDim S131072x4x1 ![0, 1] bcast_S131072x4_S131072x4x1_0_1 (mulf (res_main_v32 V0) (subf (broadcastInDim S131072x4 ![] bcast_S_S131072x4 (constant S_ .f32 0x3F800000#32)) (res_main_v33 V0))))⟩, ⟨S131072x4x1, (broadcastInDim S131072x4x1 ![0, 1] bcast_S131072x4_S131072x4x1_0_1 (mulf (res_main_v32 V0) (res_main_v33 V0)))⟩] concatenates_S131072x4x1_S131072x4x1_S131072x4x2_d2) shapeCasts_S131072x4x2_S131072x8

set_option maxRecDepth 8192 in
/-- `main_v42`'s composed term of the arguments (named: it is used 2 times). -/
def res_main_v42 (V0 : Valuation τ sig (Elt F)) : (Proc.devRef .tc main_v42 : DevRef τ sig).ty.Contents (Elt F) :=
  extractStridedSlice S131072x8 ![0, 7] (res_main_v13 V0) slices_S131072x1023_S131072x8_0_7

set_option maxRecDepth 8192 in
/-- `main_v50`'s composed term of the arguments (named: it is used 2 times). -/
def res_main_v50 (V0 : Valuation τ sig (Elt F)) : (Proc.devRef .tc main_v50 : DevRef τ sig).ty.Contents (Elt F) :=
  shapeCast _ (concatenate S131072x8x2 2 [⟨S131072x8x1, (broadcastInDim S131072x8x1 ![0, 1] bcast_S131072x8_S131072x8x1_0_1 (mulf (res_main_v41 V0) (subf (broadcastInDim S131072x8 ![] bcast_S_S131072x8 (constant S_ .f32 0x3F800000#32)) (res_main_v42 V0))))⟩, ⟨S131072x8x1, (broadcastInDim S131072x8x1 ![0, 1] bcast_S131072x8_S131072x8x1_0_1 (mulf (res_main_v41 V0) (res_main_v42 V0)))⟩] concatenates_S131072x8x1_S131072x8x1_S131072x8x2_d2) shapeCasts_S131072x8x2_S131072x16

set_option maxRecDepth 8192 in
/-- `main_v51`'s composed term of the arguments (named: it is used 2 times). -/
def res_main_v51 (V0 : Valuation τ sig (Elt F)) : (Proc.devRef .tc main_v51 : DevRef τ sig).ty.Contents (Elt F) :=
  extractStridedSlice S131072x16 ![0, 15] (res_main_v13 V0) slices_S131072x1023_S131072x16_0_15

set_option maxRecDepth 8192 in
/-- `main_v59`'s composed term of the arguments (named: it is used 2 times). -/
def res_main_v59 (V0 : Valuation τ sig (Elt F)) : (Proc.devRef .tc main_v59 : DevRef τ sig).ty.Contents (Elt F) :=
  shapeCast _ (concatenate S131072x16x2 2 [⟨S131072x16x1, (broadcastInDim S131072x16x1 ![0, 1] bcast_S131072x16_S131072x16x1_0_1 (mulf (res_main_v50 V0) (subf (broadcastInDim S131072x16 ![] bcast_S_S131072x16 (constant S_ .f32 0x3F800000#32)) (res_main_v51 V0))))⟩, ⟨S131072x16x1, (broadcastInDim S131072x16x1 ![0, 1] bcast_S131072x16_S131072x16x1_0_1 (mulf (res_main_v50 V0) (res_main_v51 V0)))⟩] concatenates_S131072x16x1_S131072x16x1_S131072x16x2_d2) shapeCasts_S131072x16x2_S131072x32

set_option maxRecDepth 8192 in
/-- `main_v60`'s composed term of the arguments (named: it is used 2 times). -/
def res_main_v60 (V0 : Valuation τ sig (Elt F)) : (Proc.devRef .tc main_v60 : DevRef τ sig).ty.Contents (Elt F) :=
  extractStridedSlice S131072x32 ![0, 31] (res_main_v13 V0) slices_S131072x1023_S131072x32_0_31

set_option maxRecDepth 8192 in
/-- `main_v68`'s composed term of the arguments (named: it is used 2 times). -/
def res_main_v68 (V0 : Valuation τ sig (Elt F)) : (Proc.devRef .tc main_v68 : DevRef τ sig).ty.Contents (Elt F) :=
  shapeCast _ (concatenate S131072x32x2 2 [⟨S131072x32x1, (broadcastInDim S131072x32x1 ![0, 1] bcast_S131072x32_S131072x32x1_0_1 (mulf (res_main_v59 V0) (subf (broadcastInDim S131072x32 ![] bcast_S_S131072x32 (constant S_ .f32 0x3F800000#32)) (res_main_v60 V0))))⟩, ⟨S131072x32x1, (broadcastInDim S131072x32x1 ![0, 1] bcast_S131072x32_S131072x32x1_0_1 (mulf (res_main_v59 V0) (res_main_v60 V0)))⟩] concatenates_S131072x32x1_S131072x32x1_S131072x32x2_d2) shapeCasts_S131072x32x2_S131072x64

set_option maxRecDepth 8192 in
/-- `main_v69`'s composed term of the arguments (named: it is used 2 times). -/
def res_main_v69 (V0 : Valuation τ sig (Elt F)) : (Proc.devRef .tc main_v69 : DevRef τ sig).ty.Contents (Elt F) :=
  extractStridedSlice S131072x64 ![0, 63] (res_main_v13 V0) slices_S131072x1023_S131072x64_0_63

set_option maxRecDepth 8192 in
/-- `main_v77`'s composed term of the arguments (named: it is used 2 times). -/
def res_main_v77 (V0 : Valuation τ sig (Elt F)) : (Proc.devRef .tc main_v77 : DevRef τ sig).ty.Contents (Elt F) :=
  shapeCast _ (concatenate S131072x64x2 2 [⟨S131072x64x1, (broadcastInDim S131072x64x1 ![0, 1] bcast_S131072x64_S131072x64x1_0_1 (mulf (res_main_v68 V0) (subf (broadcastInDim S131072x64 ![] bcast_S_S131072x64 (constant S_ .f32 0x3F800000#32)) (res_main_v69 V0))))⟩, ⟨S131072x64x1, (broadcastInDim S131072x64x1 ![0, 1] bcast_S131072x64_S131072x64x1_0_1 (mulf (res_main_v68 V0) (res_main_v69 V0)))⟩] concatenates_S131072x64x1_S131072x64x1_S131072x64x2_d2) shapeCasts_S131072x64x2_S131072x128

set_option maxRecDepth 8192 in
/-- `main_v78`'s composed term of the arguments (named: it is used 2 times). -/
def res_main_v78 (V0 : Valuation τ sig (Elt F)) : (Proc.devRef .tc main_v78 : DevRef τ sig).ty.Contents (Elt F) :=
  extractStridedSlice S131072x128 ![0, 127] (res_main_v13 V0) slices_S131072x1023_S131072x128_0_127

set_option maxRecDepth 8192 in
/-- `main_v86`'s composed term of the arguments (named: it is used 2 times). -/
def res_main_v86 (V0 : Valuation τ sig (Elt F)) : (Proc.devRef .tc main_v86 : DevRef τ sig).ty.Contents (Elt F) :=
  shapeCast _ (concatenate S131072x128x2 2 [⟨S131072x128x1, (broadcastInDim S131072x128x1 ![0, 1] bcast_S131072x128_S131072x128x1_0_1 (mulf (res_main_v77 V0) (subf (broadcastInDim S131072x128 ![] bcast_S_S131072x128 (constant S_ .f32 0x3F800000#32)) (res_main_v78 V0))))⟩, ⟨S131072x128x1, (broadcastInDim S131072x128x1 ![0, 1] bcast_S131072x128_S131072x128x1_0_1 (mulf (res_main_v77 V0) (res_main_v78 V0)))⟩] concatenates_S131072x128x1_S131072x128x1_S131072x128x2_d2) shapeCasts_S131072x128x2_S131072x256

set_option maxRecDepth 8192 in
/-- `main_v87`'s composed term of the arguments (named: it is used 2 times). -/
def res_main_v87 (V0 : Valuation τ sig (Elt F)) : (Proc.devRef .tc main_v87 : DevRef τ sig).ty.Contents (Elt F) :=
  extractStridedSlice S131072x256 ![0, 255] (res_main_v13 V0) slices_S131072x1023_S131072x256_0_255

set_option maxRecDepth 8192 in
/-- `main_v95`'s composed term of the arguments (named: it is used 2 times). -/
def res_main_v95 (V0 : Valuation τ sig (Elt F)) : (Proc.devRef .tc main_v95 : DevRef τ sig).ty.Contents (Elt F) :=
  shapeCast _ (concatenate S131072x256x2 2 [⟨S131072x256x1, (broadcastInDim S131072x256x1 ![0, 1] bcast_S131072x256_S131072x256x1_0_1 (mulf (res_main_v86 V0) (subf (broadcastInDim S131072x256 ![] bcast_S_S131072x256 (constant S_ .f32 0x3F800000#32)) (res_main_v87 V0))))⟩, ⟨S131072x256x1, (broadcastInDim S131072x256x1 ![0, 1] bcast_S131072x256_S131072x256x1_0_1 (mulf (res_main_v86 V0) (res_main_v87 V0)))⟩] concatenates_S131072x256x1_S131072x256x1_S131072x256x2_d2) shapeCasts_S131072x256x2_S131072x512

set_option maxRecDepth 8192 in
/-- `main_v96`'s composed term of the arguments (named: it is used 2 times). -/
def res_main_v96 (V0 : Valuation τ sig (Elt F)) : (Proc.devRef .tc main_v96 : DevRef τ sig).ty.Contents (Elt F) :=
  extractStridedSlice S131072x512 ![0, 511] (res_main_v13 V0) slices_S131072x1023_S131072x512_0_511

set_option maxRecDepth 8192 in
/-- `main_v111`'s composed term of the arguments (named: it is used 2 times). -/
def res_main_v111 (V0 : Valuation τ sig (Elt F)) : (Proc.devRef .tc main_v111 : DevRef τ sig).ty.Contents (Elt F) :=
  Host.exp (subf (V0 (Proc.devRef .tc main_arg4)) (broadcastInDim S1024x16 ![0, 1] bcast_S1024x1_S1024x16_0_1 (broadcastInDim S1024x1 ![0] bcast_S1024_S1024x1_0 (maximumf (broadcastInDim S1024 ![] bcast_S_S1024 (constant S_ .f32 0xFF800000#32)) (Host.reduce FloatOps.maximumf (V0 (Proc.devRef .tc main_arg4)) (constant S_ .f32 0xFF800000#32) reducesTo_S1024x16_S1024_d1 h_S_)))))

/-- The two arrays every later window still reads: the gates and the leaf array. -/
structure Keeps (V G : Valuation τ sig (Elt F)) : Prop where
  gates : G (Proc.devRef .tc main_v13) = res_main_v13 V
  leaves : G (Proc.devRef .tc main_arg4) = V (Proc.devRef .tc main_arg4)

theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The last level's path products (the result of its interleave), which the final product reads. -/
def res_main_v104 (V : Valuation τ sig (Elt F)) : (Proc.devRef .tc main_v104 : DevRef τ sig).ty.Contents (Elt F) :=
  shapeCast _ (concatenate S131072x512x2 2 [⟨S131072x512x1, (broadcastInDim S131072x512x1 ![0, 1] bcast_S131072x512_S131072x512x1_0_1 (mulf (res_main_v95 V) (subf (broadcastInDim S131072x512 ![] bcast_S_S131072x512 (constant S_ .f32 0x3F800000#32)) (res_main_v96 V))))⟩, ⟨S131072x512x1, (broadcastInDim S131072x512x1 ![0, 1] bcast_S131072x512_S131072x512x1_0_1 (mulf (res_main_v95 V) (res_main_v96 V)))⟩] concatenates_S131072x512x1_S131072x512x1_S131072x512x2_d2) shapeCasts_S131072x512x2_S131072x1024

/-- Operations 1 to 16 of @main. -/
def wG : List (HloOp τ sig (Elt F)) :=
  [ unary main_arg1 main_v0 ((transpose S64x1023 [1, 0] · transposes_S1023x64_S64x1023_1_0) : (⟨S1023x64, .f32⟩ : BufTy).Contents (Elt F) → (⟨S64x1023, .f32⟩ : BufTy).Contents (Elt F)),
    binary main_arg0 main_v0 main_v1 ((fun l r => Host.dotGeneral dot_S131072x64_S64x1023_S131072x1023_1_0_0_1_n_n none l r) : (⟨S131072x64, .f32⟩ : BufTy).Contents (Elt F) → (⟨S64x1023, .f32⟩ : BufTy).Contents (Elt F) → (⟨S131072x1023, .f32⟩ : BufTy).Contents (Elt F)),
    unary main_arg2 main_v2 (broadcastInDim S1x1023 ![1] bcast_S1023_S1x1023_1 : (⟨S1023, .f32⟩ : BufTy).Contents (Elt F) → (⟨S1x1023, .f32⟩ : BufTy).Contents (Elt F)),
    unary main_v2 main_v3 (broadcastInDim S131072x1023 ![0, 1] bcast_S1x1023_S131072x1023_0_1 : (⟨S1x1023, .f32⟩ : BufTy).Contents (Elt F) → (⟨S131072x1023, .f32⟩ : BufTy).Contents (Elt F)),
    binary main_v1 main_v3 main_v4 (addf : (⟨S131072x1023, .f32⟩ : BufTy).Contents (Elt F) → (⟨S131072x1023, .f32⟩ : BufTy).Contents (Elt F) → (⟨S131072x1023, .f32⟩ : BufTy).Contents (Elt F)),
    unary main_arg3 main_v5 (broadcastInDim S1x1023 ![1] bcast_S1023_S1x1023_1 : (⟨S1023, .f32⟩ : BufTy).Contents (Elt F) → (⟨S1x1023, .f32⟩ : BufTy).Contents (Elt F)),
    unary main_v5 main_v6 (broadcastInDim S131072x1023 ![0, 1] bcast_S1x1023_S131072x1023_0_1 : (⟨S1x1023, .f32⟩ : BufTy).Contents (Elt F) → (⟨S131072x1023, .f32⟩ : BufTy).Contents (Elt F)),
    binary main_v6 main_v4 main_v7 (mulf : (⟨S131072x1023, .f32⟩ : BufTy).Contents (Elt F) → (⟨S131072x1023, .f32⟩ : BufTy).Contents (Elt F) → (⟨S131072x1023, .f32⟩ : BufTy).Contents (Elt F)),
    unary main_v7 main_v8 (Host.negf : (⟨S131072x1023, .f32⟩ : BufTy).Contents (Elt F) → (⟨S131072x1023, .f32⟩ : BufTy).Contents (Elt F)),
    unary main_v8 main_v9 (Host.exp : (⟨S131072x1023, .f32⟩ : BufTy).Contents (Elt F) → (⟨S131072x1023, .f32⟩ : BufTy).Contents (Elt F)),
    nullary main_cst (constant S_ .f32 0x3F800000#32),
    unary main_cst main_v10 (broadcastInDim S131072x1023 ![] bcast_S_S131072x1023 : (⟨S_, .f32⟩ : BufTy).Contents (Elt F) → (⟨S131072x1023, .f32⟩ : BufTy).Contents (Elt F)),
    binary main_v10 main_v9 main_v11 (addf : (⟨S131072x1023, .f32⟩ : BufTy).Contents (Elt F) → (⟨S131072x1023, .f32⟩ : BufTy).Contents (Elt F) → (⟨S131072x1023, .f32⟩ : BufTy).Contents (Elt F)),
    nullary main_cst_0 (constant S_ .f32 0x3F800000#32),
    unary main_cst_0 main_v12 (broadcastInDim S131072x1023 ![] bcast_S_S131072x1023 : (⟨S_, .f32⟩ : BufTy).Contents (Elt F) → (⟨S131072x1023, .f32⟩ : BufTy).Contents (Elt F)),
    binary main_v12 main_v11 main_v13 (Host.divf : (⟨S131072x1023, .f32⟩ : BufTy).Contents (Elt F) → (⟨S131072x1023, .f32⟩ : BufTy).Contents (Elt F) → (⟨S131072x1023, .f32⟩ : BufTy).Contents (Elt F)) ]

/-- Operations 17 to 28 of @main. -/
def wL0 : List (HloOp τ sig (Elt F)) :=
  [ nullary main_cst_1 (constant S_ .f32 0x3F800000#32),
    unary main_cst_1 main_v14 (broadcastInDim S131072x1 ![] bcast_S_S131072x1 : (⟨S_, .f32⟩ : BufTy).Contents (Elt F) → (⟨S131072x1, .f32⟩ : BufTy).Contents (Elt F)),
    unary main_v13 main_v15 ((extractStridedSlice S131072x1 ![0, 0] · slices_S131072x1023_S131072x1_0_0) : (⟨S131072x1023, .f32⟩ : BufTy).Contents (Elt F) → (⟨S131072x1, .f32⟩ : BufTy).Contents (Elt F)),
    nullary main_cst_2 (constant S_ .f32 0x3F800000#32),
    unary main_cst_2 main_v16 (broadcastInDim S131072x1 ![] bcast_S_S131072x1 : (⟨S_, .f32⟩ : BufTy).Contents (Elt F) → (⟨S131072x1, .f32⟩ : BufTy).Contents (Elt F)),
    binary main_v16 main_v15 main_v17 (subf : (⟨S131072x1, .f32⟩ : BufTy).Contents (Elt F) → (⟨S131072x1, .f32⟩ : BufTy).Contents (Elt F) → (⟨S131072x1, .f32⟩ : BufTy).Contents (Elt F)),
    binary main_v14 main_v17 main_v18 (mulf : (⟨S131072x1, .f32⟩ : BufTy).Contents (Elt F) → (⟨S131072x1, .f32⟩ : BufTy).Contents (Elt F) → (⟨S131072x1, .f32⟩ : BufTy).Contents (Elt F)),
    binary main_v14 main_v15 main_v19 (mulf : (⟨S131072x1, .f32⟩ : BufTy).Contents (Elt F) → (⟨S131072x1, .f32⟩ : BufTy).Contents (Elt F) → (⟨S131072x1, .f32⟩ : BufTy).Contents (Elt F)),
    unary main_v18 main_v20 (broadcastInDim S131072x1x1 ![0, 1] bcast_S131072x1_S131072x1x1_0_1 : (⟨S131072x1, .f32⟩ : BufTy).Contents (Elt F) → (⟨S131072x1x1, .f32⟩ : BufTy).Contents (Elt F)),
    unary main_v19 main_v21 (broadcastInDim S131072x1x1 ![0, 1] bcast_S131072x1_S131072x1x1_0_1 : (⟨S131072x1, .f32⟩ : BufTy).Contents (Elt F) → (⟨S131072x1x1, .f32⟩ : BufTy).Contents (Elt F)),
    binary main_v20 main_v21 main_v22 ((fun a b => concatenate S131072x1x2 2 [⟨S131072x1x1, a⟩, ⟨S131072x1x1, b⟩] concatenates_S131072x1x1_S131072x1x1_S131072x1x2_d2) : (⟨S131072x1x1, .f32⟩ : BufTy).Contents (Elt F) → (⟨S131072x1x1, .f32⟩ : BufTy).Contents (Elt F) → (⟨S131072x1x2, .f32⟩ : BufTy).Contents (Elt F)),
    reshape main_v22 main_v23 rfl shapeCasts_S131072x1x2_S131072x2 ]

/-- Operations 29 to 38 of @main. -/
def wL1 : List (HloOp τ sig (Elt F)) :=
  [ unary main_v13 main_v24 ((extractStridedSlice S131072x2 ![0, 1] · slices_S131072x1023_S131072x2_0_1) : (⟨S131072x1023, .f32⟩ : BufTy).Contents (Elt F) → (⟨S131072x2, .f32⟩ : BufTy).Contents (Elt F)),
    nullary main_cst_3 (constant S_ .f32 0x3F800000#32),
    unary main_cst_3 main_v25 (broadcastInDim S131072x2 ![] bcast_S_S131072x2 : (⟨S_, .f32⟩ : BufTy).Contents (Elt F) → (⟨S131072x2, .f32⟩ : BufTy).Contents (Elt F)),
    binary main_v25 main_v24 main_v26 (subf : (⟨S131072x2, .f32⟩ : BufTy).Contents (Elt F) → (⟨S131072x2, .f32⟩ : BufTy).Contents (Elt F) → (⟨S131072x2, .f32⟩ : BufTy).Contents (Elt F)),
    binary main_v23 main_v26 main_v27 (mulf : (⟨S131072x2, .f32⟩ : BufTy).Contents (Elt F) → (⟨S131072x2, .f32⟩ : BufTy).Contents (Elt F) → (⟨S131072x2, .f32⟩ : BufTy).Contents (Elt F)),
    binary main_v23 main_v24 main_v28 (mulf : (⟨S131072x2, .f32⟩ : BufTy).Contents (Elt F) → (⟨S131072x2, .f32⟩ : BufTy).Contents (Elt F) → (⟨S131072x2, .f32⟩ : BufTy).Contents (Elt F)),
    unary main_v27 main_v29 (broadcastInDim S131072x2x1 ![0, 1] bcast_S131072x2_S131072x2x1_0_1 : (⟨S131072x2, .f32⟩ : BufTy).Contents (Elt F) → (⟨S131072x2x1, .f32⟩ : BufTy).Contents (Elt F)),
    unary main_v28 main_v30 (broadcastInDim S131072x2x1 ![0, 1] bcast_S131072x2_S131072x2x1_0_1 : (⟨S131072x2, .f32⟩ : BufTy).Contents (Elt F) → (⟨S131072x2x1, .f32⟩ : BufTy).Contents (Elt F)),
    binary main_v29 main_v30 main_v31 ((fun a b => concatenate S131072x2x2 2 [⟨S131072x2x1, a⟩, ⟨S131072x2x1, b⟩] concatenates_S131072x2x1_S131072x2x1_S131072x2x2_d2) : (⟨S131072x2x1, .f32⟩ : BufTy).Contents (Elt F) → (⟨S131072x2x1, .f32⟩ : BufTy).Contents (Elt F) → (⟨S131072x2x2, .f32⟩ : BufTy).Contents (Elt F)),
    reshape main_v31 main_v32 rfl shapeCasts_S131072x2x2_S131072x4 ]

/-- Operations 39 to 48 of @main. -/
def wL2 : List (HloOp τ sig (Elt F)) :=
  [ unary main_v13 main_v33 ((extractStridedSlice S131072x4 ![0, 3] · slices_S131072x1023_S131072x4_0_3) : (⟨S131072x1023, .f32⟩ : BufTy).Contents (Elt F) → (⟨S131072x4, .f32⟩ : BufTy).Contents (Elt F)),
    nullary main_cst_4 (constant S_ .f32 0x3F800000#32),
    unary main_cst_4 main_v34 (broadcastInDim S131072x4 ![] bcast_S_S131072x4 : (⟨S_, .f32⟩ : BufTy).Contents (Elt F) → (⟨S131072x4, .f32⟩ : BufTy).Contents (Elt F)),
    binary main_v34 main_v33 main_v35 (subf : (⟨S131072x4, .f32⟩ : BufTy).Contents (Elt F) → (⟨S131072x4, .f32⟩ : BufTy).Contents (Elt F) → (⟨S131072x4, .f32⟩ : BufTy).Contents (Elt F)),
    binary main_v32 main_v35 main_v36 (mulf : (⟨S131072x4, .f32⟩ : BufTy).Contents (Elt F) → (⟨S131072x4, .f32⟩ : BufTy).Contents (Elt F) → (⟨S131072x4, .f32⟩ : BufTy).Contents (Elt F)),
    binary main_v32 main_v33 main_v37 (mulf : (⟨S131072x4, .f32⟩ : BufTy).Contents (Elt F) → (⟨S131072x4, .f32⟩ : BufTy).Contents (Elt F) → (⟨S131072x4, .f32⟩ : BufTy).Contents (Elt F)),
    unary main_v36 main_v38 (broadcastInDim S131072x4x1 ![0, 1] bcast_S131072x4_S131072x4x1_0_1 : (⟨S131072x4, .f32⟩ : BufTy).Contents (Elt F) → (⟨S131072x4x1, .f32⟩ : BufTy).Contents (Elt F)),
    unary main_v37 main_v39 (broadcastInDim S131072x4x1 ![0, 1] bcast_S131072x4_S131072x4x1_0_1 : (⟨S131072x4, .f32⟩ : BufTy).Contents (Elt F) → (⟨S131072x4x1, .f32⟩ : BufTy).Contents (Elt F)),
    binary main_v38 main_v39 main_v40 ((fun a b => concatenate S131072x4x2 2 [⟨S131072x4x1, a⟩, ⟨S131072x4x1, b⟩] concatenates_S131072x4x1_S131072x4x1_S131072x4x2_d2) : (⟨S131072x4x1, .f32⟩ : BufTy).Contents (Elt F) → (⟨S131072x4x1, .f32⟩ : BufTy).Contents (Elt F) → (⟨S131072x4x2, .f32⟩ : BufTy).Contents (Elt F)),
    reshape main_v40 main_v41 rfl shapeCasts_S131072x4x2_S131072x8 ]

/-- Operations 49 to 58 of @main. -/
def wL3 : List (HloOp τ sig (Elt F)) :=
  [ unary main_v13 main_v42 ((extractStridedSlice S131072x8 ![0, 7] · slices_S131072x1023_S131072x8_0_7) : (⟨S131072x1023, .f32⟩ : BufTy).Contents (Elt F) → (⟨S131072x8, .f32⟩ : BufTy).Contents (Elt F)),
    nullary main_cst_5 (constant S_ .f32 0x3F800000#32),
    unary main_cst_5 main_v43 (broadcastInDim S131072x8 ![] bcast_S_S131072x8 : (⟨S_, .f32⟩ : BufTy).Contents (Elt F) → (⟨S131072x8, .f32⟩ : BufTy).Contents (Elt F)),
    binary main_v43 main_v42 main_v44 (subf : (⟨S131072x8, .f32⟩ : BufTy).Contents (Elt F) → (⟨S131072x8, .f32⟩ : BufTy).Contents (Elt F) → (⟨S131072x8, .f32⟩ : BufTy).Contents (Elt F)),
    binary main_v41 main_v44 main_v45 (mulf : (⟨S131072x8, .f32⟩ : BufTy).Contents (Elt F) → (⟨S131072x8, .f32⟩ : BufTy).Contents (Elt F) → (⟨S131072x8, .f32⟩ : BufTy).Contents (Elt F)),
    binary main_v41 main_v42 main_v46 (mulf : (⟨S131072x8, .f32⟩ : BufTy).Contents (Elt F) → (⟨S131072x8, .f32⟩ : BufTy).Contents (Elt F) → (⟨S131072x8, .f32⟩ : BufTy).Contents (Elt F)),
    unary main_v45 main_v47 (broadcastInDim S131072x8x1 ![0, 1] bcast_S131072x8_S131072x8x1_0_1 : (⟨S131072x8, .f32⟩ : BufTy).Contents (Elt F) → (⟨S131072x8x1, .f32⟩ : BufTy).Contents (Elt F)),
    unary main_v46 main_v48 (broadcastInDim S131072x8x1 ![0, 1] bcast_S131072x8_S131072x8x1_0_1 : (⟨S131072x8, .f32⟩ : BufTy).Contents (Elt F) → (⟨S131072x8x1, .f32⟩ : BufTy).Contents (Elt F)),
    binary main_v47 main_v48 main_v49 ((fun a b => concatenate S131072x8x2 2 [⟨S131072x8x1, a⟩, ⟨S131072x8x1, b⟩] concatenates_S131072x8x1_S131072x8x1_S131072x8x2_d2) : (⟨S131072x8x1, .f32⟩ : BufTy).Contents (Elt F) → (⟨S131072x8x1, .f32⟩ : BufTy).Contents (Elt F) → (⟨S131072x8x2, .f32⟩ : BufTy).Contents (Elt F)),
    reshape main_v49 main_v50 rfl shapeCasts_S131072x8x2_S131072x16 ]

/-- Operations 59 to 68 of @main. -/
def wL4 : List (HloOp τ sig (Elt F)) :=
  [ unary main_v13 main_v51 ((extractStridedSlice S131072x16 ![0, 15] · slices_S131072x1023_S131072x16_0_15) : (⟨S131072x1023, .f32⟩ : BufTy).Contents (Elt F) → (⟨S131072x16, .f32⟩ : BufTy).Contents (Elt F)),
    nullary main_cst_6 (constant S_ .f32 0x3F800000#32),
    unary main_cst_6 main_v52 (broadcastInDim S131072x16 ![] bcast_S_S131072x16 : (⟨S_, .f32⟩ : BufTy).Contents (Elt F) → (⟨S131072x16, .f32⟩ : BufTy).Contents (Elt F)),
    binary main_v52 main_v51 main_v53 (subf : (⟨S131072x16, .f32⟩ : BufTy).Contents (Elt F) → (⟨S131072x16, .f32⟩ : BufTy).Contents (Elt F) → (⟨S131072x16, .f32⟩ : BufTy).Contents (Elt F)),
    binary main_v50 main_v53 main_v54 (mulf : (⟨S131072x16, .f32⟩ : BufTy).Contents (Elt F) → (⟨S131072x16, .f32⟩ : BufTy).Contents (Elt F) → (⟨S131072x16, .f32⟩ : BufTy).Contents (Elt F)),
    binary main_v50 main_v51 main_v55 (mulf : (⟨S131072x16, .f32⟩ : BufTy).Contents (Elt F) → (⟨S131072x16, .f32⟩ : BufTy).Contents (Elt F) → (⟨S131072x16, .f32⟩ : BufTy).Contents (Elt F)),
    unary main_v54 main_v56 (broadcastInDim S131072x16x1 ![0, 1] bcast_S131072x16_S131072x16x1_0_1 : (⟨S131072x16, .f32⟩ : BufTy).Contents (Elt F) → (⟨S131072x16x1, .f32⟩ : BufTy).Contents (Elt F)),
    unary main_v55 main_v57 (broadcastInDim S131072x16x1 ![0, 1] bcast_S131072x16_S131072x16x1_0_1 : (⟨S131072x16, .f32⟩ : BufTy).Contents (Elt F) → (⟨S131072x16x1, .f32⟩ : BufTy).Contents (Elt F)),
    binary main_v56 main_v57 main_v58 ((fun a b => concatenate S131072x16x2 2 [⟨S131072x16x1, a⟩, ⟨S131072x16x1, b⟩] concatenates_S131072x16x1_S131072x16x1_S131072x16x2_d2) : (⟨S131072x16x1, .f32⟩ : BufTy).Contents (Elt F) → (⟨S131072x16x1, .f32⟩ : BufTy).Contents (Elt F) → (⟨S131072x16x2, .f32⟩ : BufTy).Contents (Elt F)),
    reshape main_v58 main_v59 rfl shapeCasts_S131072x16x2_S131072x32 ]

/-- Operations 69 to 78 of @main. -/
def wL5 : List (HloOp τ sig (Elt F)) :=
  [ unary main_v13 main_v60 ((extractStridedSlice S131072x32 ![0, 31] · slices_S131072x1023_S131072x32_0_31) : (⟨S131072x1023, .f32⟩ : BufTy).Contents (Elt F) → (⟨S131072x32, .f32⟩ : BufTy).Contents (Elt F)),
    nullary main_cst_7 (constant S_ .f32 0x3F800000#32),
    unary main_cst_7 main_v61 (broadcastInDim S131072x32 ![] bcast_S_S131072x32 : (⟨S_, .f32⟩ : BufTy).Contents (Elt F) → (⟨S131072x32, .f32⟩ : BufTy).Contents (Elt F)),
    binary main_v61 main_v60 main_v62 (subf : (⟨S131072x32, .f32⟩ : BufTy).Contents (Elt F) → (⟨S131072x32, .f32⟩ : BufTy).Contents (Elt F) → (⟨S131072x32, .f32⟩ : BufTy).Contents (Elt F)),
    binary main_v59 main_v62 main_v63 (mulf : (⟨S131072x32, .f32⟩ : BufTy).Contents (Elt F) → (⟨S131072x32, .f32⟩ : BufTy).Contents (Elt F) → (⟨S131072x32, .f32⟩ : BufTy).Contents (Elt F)),
    binary main_v59 main_v60 main_v64 (mulf : (⟨S131072x32, .f32⟩ : BufTy).Contents (Elt F) → (⟨S131072x32, .f32⟩ : BufTy).Contents (Elt F) → (⟨S131072x32, .f32⟩ : BufTy).Contents (Elt F)),
    unary main_v63 main_v65 (broadcastInDim S131072x32x1 ![0, 1] bcast_S131072x32_S131072x32x1_0_1 : (⟨S131072x32, .f32⟩ : BufTy).Contents (Elt F) → (⟨S131072x32x1, .f32⟩ : BufTy).Contents (Elt F)),
    unary main_v64 main_v66 (broadcastInDim S131072x32x1 ![0, 1] bcast_S131072x32_S131072x32x1_0_1 : (⟨S131072x32, .f32⟩ : BufTy).Contents (Elt F) → (⟨S131072x32x1, .f32⟩ : BufTy).Contents (Elt F)),
    binary main_v65 main_v66 main_v67 ((fun a b => concatenate S131072x32x2 2 [⟨S131072x32x1, a⟩, ⟨S131072x32x1, b⟩] concatenates_S131072x32x1_S131072x32x1_S131072x32x2_d2) : (⟨S131072x32x1, .f32⟩ : BufTy).Contents (Elt F) → (⟨S131072x32x1, .f32⟩ : BufTy).Contents (Elt F) → (⟨S131072x32x2, .f32⟩ : BufTy).Contents (Elt F)),
    reshape main_v67 main_v68 rfl shapeCasts_S131072x32x2_S131072x64 ]

/-- Operations 79 to 88 of @main. -/
def wL6 : List (HloOp τ sig (Elt F)) :=
  [ unary main_v13 main_v69 ((extractStridedSlice S131072x64 ![0, 63] · slices_S131072x1023_S131072x64_0_63) : (⟨S131072x1023, .f32⟩ : BufTy).Contents (Elt F) → (⟨S131072x64, .f32⟩ : BufTy).Contents (Elt F)),
    nullary main_cst_8 (constant S_ .f32 0x3F800000#32),
    unary main_cst_8 main_v70 (broadcastInDim S131072x64 ![] bcast_S_S131072x64 : (⟨S_, .f32⟩ : BufTy).Contents (Elt F) → (⟨S131072x64, .f32⟩ : BufTy).Contents (Elt F)),
    binary main_v70 main_v69 main_v71 (subf : (⟨S131072x64, .f32⟩ : BufTy).Contents (Elt F) → (⟨S131072x64, .f32⟩ : BufTy).Contents (Elt F) → (⟨S131072x64, .f32⟩ : BufTy).Contents (Elt F)),
    binary main_v68 main_v71 main_v72 (mulf : (⟨S131072x64, .f32⟩ : BufTy).Contents (Elt F) → (⟨S131072x64, .f32⟩ : BufTy).Contents (Elt F) → (⟨S131072x64, .f32⟩ : BufTy).Contents (Elt F)),
    binary main_v68 main_v69 main_v73 (mulf : (⟨S131072x64, .f32⟩ : BufTy).Contents (Elt F) → (⟨S131072x64, .f32⟩ : BufTy).Contents (Elt F) → (⟨S131072x64, .f32⟩ : BufTy).Contents (Elt F)),
    unary main_v72 main_v74 (broadcastInDim S131072x64x1 ![0, 1] bcast_S131072x64_S131072x64x1_0_1 : (⟨S131072x64, .f32⟩ : BufTy).Contents (Elt F) → (⟨S131072x64x1, .f32⟩ : BufTy).Contents (Elt F)),
    unary main_v73 main_v75 (broadcastInDim S131072x64x1 ![0, 1] bcast_S131072x64_S131072x64x1_0_1 : (⟨S131072x64, .f32⟩ : BufTy).Contents (Elt F) → (⟨S131072x64x1, .f32⟩ : BufTy).Contents (Elt F)),
    binary main_v74 main_v75 main_v76 ((fun a b => concatenate S131072x64x2 2 [⟨S131072x64x1, a⟩, ⟨S131072x64x1, b⟩] concatenates_S131072x64x1_S131072x64x1_S131072x64x2_d2) : (⟨S131072x64x1, .f32⟩ : BufTy).Contents (Elt F) → (⟨S131072x64x1, .f32⟩ : BufTy).Contents (Elt F) → (⟨S131072x64x2, .f32⟩ : BufTy).Contents (Elt F)),
    reshape main_v76 main_v77 rfl shapeCasts_S131072x64x2_S131072x128 ]

/-- Operations 89 to 98 of @main. -/
def wL7 : List (HloOp τ sig (Elt F)) :=
  [ unary main_v13 main_v78 ((extractStridedSlice S131072x128 ![0, 127] · slices_S131072x1023_S131072x128_0_127) : (⟨S131072x1023, .f32⟩ : BufTy).Contents (Elt F) → (⟨S131072x128, .f32⟩ : BufTy).Contents (Elt F)),
    nullary main_cst_9 (constant S_ .f32 0x3F800000#32),
    unary main_cst_9 main_v79 (broadcastInDim S131072x128 ![] bcast_S_S131072x128 : (⟨S_, .f32⟩ : BufTy).Contents (Elt F) → (⟨S131072x128, .f32⟩ : BufTy).Contents (Elt F)),
    binary main_v79 main_v78 main_v80 (subf : (⟨S131072x128, .f32⟩ : BufTy).Contents (Elt F) → (⟨S131072x128, .f32⟩ : BufTy).Contents (Elt F) → (⟨S131072x128, .f32⟩ : BufTy).Contents (Elt F)),
    binary main_v77 main_v80 main_v81 (mulf : (⟨S131072x128, .f32⟩ : BufTy).Contents (Elt F) → (⟨S131072x128, .f32⟩ : BufTy).Contents (Elt F) → (⟨S131072x128, .f32⟩ : BufTy).Contents (Elt F)),
    binary main_v77 main_v78 main_v82 (mulf : (⟨S131072x128, .f32⟩ : BufTy).Contents (Elt F) → (⟨S131072x128, .f32⟩ : BufTy).Contents (Elt F) → (⟨S131072x128, .f32⟩ : BufTy).Contents (Elt F)),
    unary main_v81 main_v83 (broadcastInDim S131072x128x1 ![0, 1] bcast_S131072x128_S131072x128x1_0_1 : (⟨S131072x128, .f32⟩ : BufTy).Contents (Elt F) → (⟨S131072x128x1, .f32⟩ : BufTy).Contents (Elt F)),
    unary main_v82 main_v84 (broadcastInDim S131072x128x1 ![0, 1] bcast_S131072x128_S131072x128x1_0_1 : (⟨S131072x128, .f32⟩ : BufTy).Contents (Elt F) → (⟨S131072x128x1, .f32⟩ : BufTy).Contents (Elt F)),
    binary main_v83 main_v84 main_v85 ((fun a b => concatenate S131072x128x2 2 [⟨S131072x128x1, a⟩, ⟨S131072x128x1, b⟩] concatenates_S131072x128x1_S131072x128x1_S131072x128x2_d2) : (⟨S131072x128x1, .f32⟩ : BufTy).Contents (Elt F) → (⟨S131072x128x1, .f32⟩ : BufTy).Contents (Elt F) → (⟨S131072x128x2, .f32⟩ : BufTy).Contents (Elt F)),
    reshape main_v85 main_v86 rfl shapeCasts_S131072x128x2_S131072x256 ]

/-- Operations 99 to 108 of @main. -/
def wL8 : List (HloOp τ sig (Elt F)) :=
  [ unary main_v13 main_v87 ((extractStridedSlice S131072x256 ![0, 255] · slices_S131072x1023_S131072x256_0_255) : (⟨S131072x1023, .f32⟩ : BufTy).Contents (Elt F) → (⟨S131072x256, .f32⟩ : BufTy).Contents (Elt F)),
    nullary main_cst_10 (constant S_ .f32 0x3F800000#32),
    unary main_cst_10 main_v88 (broadcastInDim S131072x256 ![] bcast_S_S131072x256 : (⟨S_, .f32⟩ : BufTy).Contents (Elt F) → (⟨S131072x256, .f32⟩ : BufTy).Contents (Elt F)),
    binary main_v88 main_v87 main_v89 (subf : (⟨S131072x256, .f32⟩ : BufTy).Contents (Elt F) → (⟨S131072x256, .f32⟩ : BufTy).Contents (Elt F) → (⟨S131072x256, .f32⟩ : BufTy).Contents (Elt F)),
    binary main_v86 main_v89 main_v90 (mulf : (⟨S131072x256, .f32⟩ : BufTy).Contents (Elt F) → (⟨S131072x256, .f32⟩ : BufTy).Contents (Elt F) → (⟨S131072x256, .f32⟩ : BufTy).Contents (Elt F)),
    binary main_v86 main_v87 main_v91 (mulf : (⟨S131072x256, .f32⟩ : BufTy).Contents (Elt F) → (⟨S131072x256, .f32⟩ : BufTy).Contents (Elt F) → (⟨S131072x256, .f32⟩ : BufTy).Contents (Elt F)),
    unary main_v90 main_v92 (broadcastInDim S131072x256x1 ![0, 1] bcast_S131072x256_S131072x256x1_0_1 : (⟨S131072x256, .f32⟩ : BufTy).Contents (Elt F) → (⟨S131072x256x1, .f32⟩ : BufTy).Contents (Elt F)),
    unary main_v91 main_v93 (broadcastInDim S131072x256x1 ![0, 1] bcast_S131072x256_S131072x256x1_0_1 : (⟨S131072x256, .f32⟩ : BufTy).Contents (Elt F) → (⟨S131072x256x1, .f32⟩ : BufTy).Contents (Elt F)),
    binary main_v92 main_v93 main_v94 ((fun a b => concatenate S131072x256x2 2 [⟨S131072x256x1, a⟩, ⟨S131072x256x1, b⟩] concatenates_S131072x256x1_S131072x256x1_S131072x256x2_d2) : (⟨S131072x256x1, .f32⟩ : BufTy).Contents (Elt F) → (⟨S131072x256x1, .f32⟩ : BufTy).Contents (Elt F) → (⟨S131072x256x2, .f32⟩ : BufTy).Contents (Elt F)),
    reshape main_v94 main_v95 rfl shapeCasts_S131072x256x2_S131072x512 ]

/-- Operations 109 to 118 of @main. -/
def wL9 : List (HloOp τ sig (Elt F)) :=
  [ unary main_v13 main_v96 ((extractStridedSlice S131072x512 ![0, 511] · slices_S131072x1023_S131072x512_0_511) : (⟨S131072x1023, .f32⟩ : BufTy).Contents (Elt F) → (⟨S131072x512, .f32⟩ : BufTy).Contents (Elt F)),
    nullary main_cst_11 (constant S_ .f32 0x3F800000#32),
    unary main_cst_11 main_v97 (broadcastInDim S131072x512 ![] bcast_S_S131072x512 : (⟨S_, .f32⟩ : BufTy).Contents (Elt F) → (⟨S131072x512, .f32⟩ : BufTy).Contents (Elt F)),
    binary main_v97 main_v96 main_v98 (subf : (⟨S131072x512, .f32⟩ : BufTy).Contents (Elt F) → (⟨S131072x512, .f32⟩ : BufTy).Contents (Elt F) → (⟨S131072x512, .f32⟩ : BufTy).Contents (Elt F)),
    binary main_v95 main_v98 main_v99 (mulf : (⟨S131072x512, .f32⟩ : BufTy).Contents (Elt F) → (⟨S131072x512, .f32⟩ : BufTy).Contents (Elt F) → (⟨S131072x512, .f32⟩ : BufTy).Contents (Elt F)),
    binary main_v95 main_v96 main_v100 (mulf : (⟨S131072x512, .f32⟩ : BufTy).Contents (Elt F) → (⟨S131072x512, .f32⟩ : BufTy).Contents (Elt F) → (⟨S131072x512, .f32⟩ : BufTy).Contents (Elt F)),
    unary main_v99 main_v101 (broadcastInDim S131072x512x1 ![0, 1] bcast_S131072x512_S131072x512x1_0_1 : (⟨S131072x512, .f32⟩ : BufTy).Contents (Elt F) → (⟨S131072x512x1, .f32⟩ : BufTy).Contents (Elt F)),
    unary main_v100 main_v102 (broadcastInDim S131072x512x1 ![0, 1] bcast_S131072x512_S131072x512x1_0_1 : (⟨S131072x512, .f32⟩ : BufTy).Contents (Elt F) → (⟨S131072x512x1, .f32⟩ : BufTy).Contents (Elt F)),
    binary main_v101 main_v102 main_v103 ((fun a b => concatenate S131072x512x2 2 [⟨S131072x512x1, a⟩, ⟨S131072x512x1, b⟩] concatenates_S131072x512x1_S131072x512x1_S131072x512x2_d2) : (⟨S131072x512x1, .f32⟩ : BufTy).Contents (Elt F) → (⟨S131072x512x1, .f32⟩ : BufTy).Contents (Elt F) → (⟨S131072x512x2, .f32⟩ : BufTy).Contents (Elt F)),
    reshape main_v103 main_v104 rfl shapeCasts_S131072x512x2_S131072x1024 ]

/-- Operations 119 to 133 of @main. -/
def wS : List (HloOp τ sig (Elt F)) :=
  [ nullary main_cst_12 (constant S_ .f32 0xFF800000#32),
    binary main_arg4 main_cst_12 main_v105 ((fun x v => Host.reduce FloatOps.maximumf x v reducesTo_S1024x16_S1024_d1 h_S_) : (⟨S1024x16, .f32⟩ : BufTy).Contents (Elt F) → (⟨S_, .f32⟩ : BufTy).Contents (Elt F) → (⟨S1024, .f32⟩ : BufTy).Contents (Elt F)),
    nullary main_cst_13 (constant S_ .f32 0xFF800000#32),
    unary main_cst_13 main_v106 (broadcastInDim S1024 ![] bcast_S_S1024 : (⟨S_, .f32⟩ : BufTy).Contents (Elt F) → (⟨S1024, .f32⟩ : BufTy).Contents (Elt F)),
    binary main_v106 main_v105 main_v107 (maximumf : (⟨S1024, .f32⟩ : BufTy).Contents (Elt F) → (⟨S1024, .f32⟩ : BufTy).Contents (Elt F) → (⟨S1024, .f32⟩ : BufTy).Contents (Elt F)),
    unary main_v107 main_v108 (broadcastInDim S1024x1 ![0] bcast_S1024_S1024x1_0 : (⟨S1024, .f32⟩ : BufTy).Contents (Elt F) → (⟨S1024x1, .f32⟩ : BufTy).Contents (Elt F)),
    unary main_v108 main_v109 (broadcastInDim S1024x16 ![0, 1] bcast_S1024x1_S1024x16_0_1 : (⟨S1024x1, .f32⟩ : BufTy).Contents (Elt F) → (⟨S1024x16, .f32⟩ : BufTy).Contents (Elt F)),
    binary main_arg4 main_v109 main_v110 (subf : (⟨S1024x16, .f32⟩ : BufTy).Contents (Elt F) → (⟨S1024x16, .f32⟩ : BufTy).Contents (Elt F) → (⟨S1024x16, .f32⟩ : BufTy).Contents (Elt F)),
    unary main_v110 main_v111 (Host.exp : (⟨S1024x16, .f32⟩ : BufTy).Contents (Elt F) → (⟨S1024x16, .f32⟩ : BufTy).Contents (Elt F)),
    nullary main_cst_14 (constant S_ .f32 0x00000000#32),
    binary main_v111 main_cst_14 main_v112 ((fun x v => Host.reduceAdd x v reducesTo_S1024x16_S1024_d1 h_S_) : (⟨S1024x16, .f32⟩ : BufTy).Contents (Elt F) → (⟨S_, .f32⟩ : BufTy).Contents (Elt F) → (⟨S1024, .f32⟩ : BufTy).Contents (Elt F)),
    unary main_v112 main_v113 (broadcastInDim S1024x1 ![0] bcast_S1024_S1024x1_0 : (⟨S1024, .f32⟩ : BufTy).Contents (Elt F) → (⟨S1024x1, .f32⟩ : BufTy).Contents (Elt F)),
    unary main_v113 main_v114 (broadcastInDim S1024x16 ![0, 1] bcast_S1024x1_S1024x16_0_1 : (⟨S1024x1, .f32⟩ : BufTy).Contents (Elt F) → (⟨S1024x16, .f32⟩ : BufTy).Contents (Elt F)),
    binary main_v111 main_v114 main_v115 (Host.divf : (⟨S1024x16, .f32⟩ : BufTy).Contents (Elt F) → (⟨S1024x16, .f32⟩ : BufTy).Contents (Elt F) → (⟨S1024x16, .f32⟩ : BufTy).Contents (Elt F)),
    binary main_v104 main_v115 main_v116 ((fun l r => Host.dotGeneral dot_S131072x1024_S1024x16_S131072x16_1_0_0_1_n_n none l r) : (⟨S131072x1024, .f32⟩ : BufTy).Contents (Elt F) → (⟨S1024x16, .f32⟩ : BufTy).Contents (Elt F) → (⟨S131072x16, .f32⟩ : BufTy).Contents (Elt F)) ]

/-- @main is its windows laid end to end. -/
theorem ops_eq : (ops : List (HloOp τ sig (Elt F))) = wG ++ (wL0 ++ (wL1 ++ (wL2 ++ (wL3 ++ (wL4 ++ (wL5 ++ (wL6 ++ (wL7 ++ (wL8 ++ (wL9 ++ wS)))))))))) := rfl

/-- After the first window the gates buffer holds the gates' term and the leaf array is untouched. -/
theorem gates_window (V : Valuation τ sig (Elt F)) : Keeps V (after wG V) := by
  refine ⟨?_, ?_⟩
  · unfold wG; after_results; rfl
  · unfold wG; after_results

/-- Level 0 reads only the gates: one column of ones times the root's two factors. -/
theorem level0_window (V G : Valuation τ sig (Elt F)) (h : Keeps V G) :
    Keeps V (after wL0 G) ∧ after wL0 G (Proc.devRef .tc main_v23) = res_main_v23 V := by
  obtain ⟨hg, hl⟩ := h
  refine ⟨⟨?_, ?_⟩, ?_⟩
  · unfold wL0; after_results; exact hg
  · unfold wL0; after_results; exact hl
  · unfold wL0; after_results; rw [hg]; rfl

/-- Level 1: the next path buffer is the interleave of the previous one times the level's left and right factors. -/
theorem level1_window (V G : Valuation τ sig (Elt F)) (h : Keeps V G)
    (hp : G (Proc.devRef .tc main_v23) = res_main_v23 V) :
    Keeps V (after wL1 G) ∧ after wL1 G (Proc.devRef .tc main_v32) = res_main_v32 V := by
  obtain ⟨hg, hl⟩ := h
  refine ⟨⟨?_, ?_⟩, ?_⟩
  · unfold wL1; after_results; exact hg
  · unfold wL1; after_results; exact hl
  · unfold wL1; after_results; rw [hg, hp]; rfl

/-- Level 2: the next path buffer is the interleave of the previous one times the level's left and right factors. -/
theorem level2_window (V G : Valuation τ sig (Elt F)) (h : Keeps V G)
    (hp : G (Proc.devRef .tc main_v32) = res_main_v32 V) :
    Keeps V (after wL2 G) ∧ after wL2 G (Proc.devRef .tc main_v41) = res_main_v41 V := by
  obtain ⟨hg, hl⟩ := h
  refine ⟨⟨?_, ?_⟩, ?_⟩
  · unfold wL2; after_results; exact hg
  · unfold wL2; after_results; exact hl
  · unfold wL2; after_results; rw [hg, hp]; rfl

/-- Level 3: the next path buffer is the interleave of the previous one times the level's left and right factors. -/
theorem level3_window (V G : Valuation τ sig (Elt F)) (h : Keeps V G)
    (hp : G (Proc.devRef .tc main_v41) = res_main_v41 V) :
    Keeps V (after wL3 G) ∧ after wL3 G (Proc.devRef .tc main_v50) = res_main_v50 V := by
  obtain ⟨hg, hl⟩ := h
  refine ⟨⟨?_, ?_⟩, ?_⟩
  · unfold wL3; after_results; exact hg
  · unfold wL3; after_results; exact hl
  · unfold wL3; after_results; rw [hg, hp]; rfl

/-- Level 4: the next path buffer is the interleave of the previous one times the level's left and right factors. -/
theorem level4_window (V G : Valuation τ sig (Elt F)) (h : Keeps V G)
    (hp : G (Proc.devRef .tc main_v50) = res_main_v50 V) :
    Keeps V (after wL4 G) ∧ after wL4 G (Proc.devRef .tc main_v59) = res_main_v59 V := by
  obtain ⟨hg, hl⟩ := h
  refine ⟨⟨?_, ?_⟩, ?_⟩
  · unfold wL4; after_results; exact hg
  · unfold wL4; after_results; exact hl
  · unfold wL4; after_results; rw [hg, hp]; rfl

/-- Level 5: the next path buffer is the interleave of the previous one times the level's left and right factors. -/
theorem level5_window (V G : Valuation τ sig (Elt F)) (h : Keeps V G)
    (hp : G (Proc.devRef .tc main_v59) = res_main_v59 V) :
    Keeps V (after wL5 G) ∧ after wL5 G (Proc.devRef .tc main_v68) = res_main_v68 V := by
  obtain ⟨hg, hl⟩ := h
  refine ⟨⟨?_, ?_⟩, ?_⟩
  · unfold wL5; after_results; exact hg
  · unfold wL5; after_results; exact hl
  · unfold wL5; after_results; rw [hg, hp]; rfl

/-- Level 6: the next path buffer is the interleave of the previous one times the level's left and right factors. -/
theorem level6_window (V G : Valuation τ sig (Elt F)) (h : Keeps V G)
    (hp : G (Proc.devRef .tc main_v68) = res_main_v68 V) :
    Keeps V (after wL6 G) ∧ after wL6 G (Proc.devRef .tc main_v77) = res_main_v77 V := by
  obtain ⟨hg, hl⟩ := h
  refine ⟨⟨?_, ?_⟩, ?_⟩
  · unfold wL6; after_results; exact hg
  · unfold wL6; after_results; exact hl
  · unfold wL6; after_results; rw [hg, hp]; rfl

/-- Level 7: the next path buffer is the interleave of the previous one times the level's left and right factors. -/
theorem level7_window (V G : Valuation τ sig (Elt F)) (h : Keeps V G)
    (hp : G (Proc.devRef .tc main_v77) = res_main_v77 V) :
    Keeps V (after wL7 G) ∧ after wL7 G (Proc.devRef .tc main_v86) = res_main_v86 V := by
  obtain ⟨hg, hl⟩ := h
  refine ⟨⟨?_, ?_⟩, ?_⟩
  · unfold wL7; after_results; exact hg
  · unfold wL7; after_results; exact hl
  · unfold wL7; after_results; rw [hg, hp]; rfl

/-- Level 8: the next path buffer is the interleave of the previous one times the level's left and right factors. -/
theorem level8_window (V G : Valuation τ sig (Elt F)) (h : Keeps V G)
    (hp : G (Proc.devRef .tc main_v86) = res_main_v86 V) :
    Keeps V (after wL8 G) ∧ after wL8 G (Proc.devRef .tc main_v95) = res_main_v95 V := by
  obtain ⟨hg, hl⟩ := h
  refine ⟨⟨?_, ?_⟩, ?_⟩
  · unfold wL8; after_results; exact hg
  · unfold wL8; after_results; exact hl
  · unfold wL8; after_results; rw [hg, hp]; rfl

/-- Level 9: the next path buffer is the interleave of the previous one times the level's left and right factors. -/
theorem level9_window (V G : Valuation τ sig (Elt F)) (h : Keeps V G)
    (hp : G (Proc.devRef .tc main_v95) = res_main_v95 V) :
    Keeps V (after wL9 G) ∧ after wL9 G (Proc.devRef .tc main_v104) = res_main_v104 V := by
  obtain ⟨hg, hl⟩ := h
  refine ⟨⟨?_, ?_⟩, ?_⟩
  · unfold wL9; after_results; exact hg
  · unfold wL9; after_results; exact hl
  · unfold wL9; after_results; rw [hg, hp]; rfl

/-- The tail: the row softmax of the leaf array and the final product with the last level's path products. -/
theorem tail_window (V G : Valuation τ sig (Elt F)) (h : Keeps V G)
    (hp : G (Proc.devRef .tc main_v104) = res_main_v104 V) :
    after wS G (Proc.devRef .tc main_v116) = Host.dotGeneral dot_S131072x1024_S1024x16_S131072x16_1_0_0_1_n_n none (shapeCast _ (concatenate S131072x512x2 2 [⟨S131072x512x1, (broadcastInDim S131072x512x1 ![0, 1] bcast_S131072x512_S131072x512x1_0_1 (mulf (res_main_v95 V) (subf (broadcastInDim S131072x512 ![] bcast_S_S131072x512 (constant S_ .f32 0x3F800000#32)) (res_main_v96 V))))⟩, ⟨S131072x512x1, (broadcastInDim S131072x512x1 ![0, 1] bcast_S131072x512_S131072x512x1_0_1 (mulf (res_main_v95 V) (res_main_v96 V)))⟩] concatenates_S131072x512x1_S131072x512x1_S131072x512x2_d2) shapeCasts_S131072x512x2_S131072x1024) (Host.divf (res_main_v111 V) (broadcastInDim S1024x16 ![0, 1] bcast_S1024x1_S1024x16_0_1 (broadcastInDim S1024x1 ![0] bcast_S1024_S1024x1_0 (Host.reduceAdd (res_main_v111 V) (constant S_ .f32 0x00000000#32) reducesTo_S1024x16_S1024_d1 h_S_)))) := by
  obtain ⟨hg, hl⟩ := h
  unfold wS; after_results; rw [hp, hl]; rfl

/-- The result buffer after all of @main, as one term of the launch contents. -/
theorem result (V : Valuation τ sig (Elt F)) :
    after ops V (Proc.devRef .tc main_v116) = Host.dotGeneral dot_S131072x1024_S1024x16_S131072x16_1_0_0_1_n_n none (shapeCast _ (concatenate S131072x512x2 2 [⟨S131072x512x1, (broadcastInDim S131072x512x1 ![0, 1] bcast_S131072x512_S131072x512x1_0_1 (mulf (res_main_v95 V) (subf (broadcastInDim S131072x512 ![] bcast_S_S131072x512 (constant S_ .f32 0x3F800000#32)) (res_main_v96 V))))⟩, ⟨S131072x512x1, (broadcastInDim S131072x512x1 ![0, 1] bcast_S131072x512_S131072x512x1_0_1 (mulf (res_main_v95 V) (res_main_v96 V)))⟩] concatenates_S131072x512x1_S131072x512x1_S131072x512x2_d2) shapeCasts_S131072x512x2_S131072x1024) (Host.divf (res_main_v111 V) (broadcastInDim S1024x16 ![0, 1] bcast_S1024x1_S1024x16_0_1 (broadcastInDim S1024x1 ![0] bcast_S1024_S1024x1_0 (Host.reduceAdd (res_main_v111 V) (constant S_ .f32 0x00000000#32) reducesTo_S1024x16_S1024_d1 h_S_)))) := by
  rw [ops_eq]
  simp only [after_append]
  obtain ⟨k0, p0⟩ := level0_window V _ (gates_window V)
  obtain ⟨k1, p1⟩ := level1_window V _ k0 p0
  obtain ⟨k2, p2⟩ := level2_window V _ k1 p1
  obtain ⟨k3, p3⟩ := level3_window V _ k2 p2
  obtain ⟨k4, p4⟩ := level4_window V _ k3 p3
  obtain ⟨k5, p5⟩ := level5_window V _ k4 p4
  obtain ⟨k6, p6⟩ := level6_window V _ k5 p5
  obtain ⟨k7, p7⟩ := level7_window V _ k6 p6
  obtain ⟨k8, p8⟩ := level8_window V _ k7 p7
  obtain ⟨k9, p9⟩ := level9_window V _ k8 p8
  exact tail_window V _ k9 p9

/-- No operation of @main writes argument 0. -/
theorem kept_arg0 (V : Valuation τ sig (Elt F)) : after ops V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, reshape_writes, Finset.mem_singleton]
    repeat' apply And.intro
    all_goals exact devRef_ne_of_ne (by decide)))

/-- No operation of @main writes argument 1. -/
theorem kept_arg1 (V : Valuation τ sig (Elt F)) : after ops V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, reshape_writes, Finset.mem_singleton]
    repeat' apply And.intro
    all_goals exact devRef_ne_of_ne (by decide)))

/-- No operation of @main writes argument 2. -/
theorem kept_arg2 (V : Valuation τ sig (Elt F)) : after ops V (Proc.devRef .tc main_arg2) = V (Proc.devRef .tc main_arg2) :=
  after_of_forall_not_mem (b := Proc.devRef .tc main_arg2) _ _ (List.forall_iff_forall_mem.mp (by
    simp only [ops, List.Forall, nullary_writes, unary_writes, binary_writes, reshape_writes, Finset.mem_singleton]
    repeat' apply And.intro
    all_goals exact devRef_ne_of_ne (by decide)))

/-- No operation of @main writes argument 3. -/
theorem kept_arg3 (V : Valuation τ sig (Elt F)) : after ops V (Proc.devRef .tc main_arg3) = V (Proc.devRef .tc main_arg3) :=
  after_of_forall_not_mem (b := Proc.devRef .tc main_arg3) _ _ (List.forall_iff_forall_mem.mp (by
    simp only [ops, List.Forall, nullary_writes, unary_writes, binary_writes, reshape_writes, Finset.mem_singleton]
    repeat' apply And.intro
    all_goals exact devRef_ne_of_ne (by decide)))

/-- No operation of @main writes argument 4. -/
theorem kept_arg4 (V : Valuation τ sig (Elt F)) : after ops V (Proc.devRef .tc main_arg4) = V (Proc.devRef .tc main_arg4) :=
  after_of_forall_not_mem (b := Proc.devRef .tc main_arg4) _ _ (List.forall_iff_forall_mem.mp (by
    simp only [ops, List.Forall, nullary_writes, unary_writes, binary_writes, reshape_writes, Finset.mem_singleton]
    repeat' apply And.intro
    all_goals exact devRef_ne_of_ne (by decide)))

set_option maxRecDepth 8192 in
/-- On every device, for any float values, from any memory with zero counters: every weakly fair execution of @main
    terminates with the result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116) = Host.dotGeneral dot_S131072x1024_S1024x16_S131072x16_1_0_0_1_n_n none (shapeCast _ (concatenate S131072x512x2 2 [⟨S131072x512x1, (broadcastInDim S131072x512x1 ![0, 1] bcast_S131072x512_S131072x512x1_0_1 (mulf (res_main_v95 (launchContents m c)) (subf (broadcastInDim S131072x512 ![] bcast_S_S131072x512 (constant S_ .f32 0x3F800000#32)) (res_main_v96 (launchContents m c)))))⟩, ⟨S131072x512x1, (broadcastInDim S131072x512x1 ![0, 1] bcast_S131072x512_S131072x512x1_0_1 (mulf (res_main_v95 (launchContents m c)) (res_main_v96 (launchContents m c))))⟩] concatenates_S131072x512x1_S131072x512x1_S131072x512x2_d2) shapeCasts_S131072x512x2_S131072x1024) (Host.divf (res_main_v111 (launchContents m c)) (broadcastInDim S1024x16 ![0, 1] bcast_S1024x1_S1024x16_0_1 (broadcastInDim S1024x1 ![0] bcast_S1024_S1024x1_0 (Host.reduceAdd (res_main_v111 (launchContents m c)) (constant S_ .f32 0x00000000#32) reducesTo_S1024x16_S1024_d1 h_S_))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v116).trans (result _),
      (h c main_arg0).trans (kept_arg0 _),
      (h c main_arg1).trans (kept_arg1 _),
      (h c main_arg2).trans (kept_arg2 _),
      (h c main_arg3).trans (kept_arg3 _),
      (h c main_arg4).trans (kept_arg4 _)⟩)
    (run_seq scopedRefs_eq scopedSems_eq defs main (fun _ => ops) main_eq (fun _ => ops_sub) m ρ)

end Cert.ReferenceIdeal.HandRun

end
-- ==== Proof.Interleave.lean ====
/-
  Program-independent readings at an index, at the ideal values, of the array expressions a soft decision tree's
  reference is made of.

  * Interleave: two arrays a, b of shape [B, n] are each given a unit last axis, laid side by side along that axis into
    [B, n, 2], and the result is read as [B, 2n] in row-major order. Entry (r, j) of the result is a (r, j / 2) for
    even j and b (r, j / 2) for odd j: the pair (left, right) of each parent sits at the two consecutive positions
    2 j', 2 j' + 1. One level of the tree is that interleave of P * (1 - g) and P * g, g a slice of the gate array.
  * RowSoftmax: exp (x - max) over the sum of those along the last axis, where the row's maximum is folded from a
    starting value and then once more compared with that starting value (which changes nothing).
  * Gates: one over one plus the exponential of minus beta (X Wᵀ + b), read at an index, is the logistic function of
    beta n times (the inner product of a row of X and a row of W, plus b n).
-/
import Idealize.ShloMosaic.Lib.Pipeline.Value
import Idealize.ShloMosaic.Lib.ValueIdx
import Idealize.ShloMosaic.Lib.IdealHost
import Idealize.ShloMosaic.Lib.StackMember
import Idealize.ShloMosaic.PureOps.Ideal.Laws

namespace Cert.Interleave

open Idealize.ShloMosaic Idealize.ShloMosaic.ValueIdx

variable {α : Type} {B n n2 : Nat}

/-- An even position of the interleave reads the first array at half the position. -/
theorem interleave_even
    (a b : (⟨2, ![B, n]⟩ : Shape).Idx → α)
    (hb : (⟨2, ![B, n]⟩ : Shape).BroadcastsInDim ⟨3, ![B, n, 1]⟩ ![0, 1])
    (hc : Shape.Concatenates [⟨3, ![B, n, 1]⟩, ⟨3, ![B, n, 1]⟩] ⟨3, ![B, n, 2]⟩ 2)
    (hs : (⟨3, ![B, n, 2]⟩ : Shape).ShapeCasts ⟨2, ![B, n2]⟩)
    (h2 : n2 = 2 * n) (r : Fin B) (j : Fin n2) (j' : Fin n) (hj : j.val = 2 * j'.val) :
    shapeCast (⟨2, ![B, n2]⟩ : Shape)
      (concatenate (⟨3, ![B, n, 2]⟩ : Shape) 2
        [⟨(⟨3, ![B, n, 1]⟩ : Shape), broadcastInDim (⟨3, ![B, n, 1]⟩ : Shape) ![0, 1] hb a⟩,
         ⟨(⟨3, ![B, n, 1]⟩ : Shape), broadcastInDim (⟨3, ![B, n, 1]⟩ : Shape) ![0, 1] hb b⟩] hc) hs (ix2 r j)
      = a (ix2 r j') := by
  refine (shapeCast_apply _ hs (ix2 r j) (ix3 r j' (⟨0, by omega⟩ : Fin 2)) ?_).trans ?_
  · rw [Shape.rowMajor_val_three, Shape.rowMajor_val_two]
    show (r.val * n + j'.val) * 2 + 0 = r.val * n2 + j.val
    subst h2; rw [hj]; ring
  refine (concatenate_pair_apply_left (t := ⟨3, ![B, n, 2]⟩) (2 : Fin 3) _ _ hc _ rfl (ix3 r j' (⟨0, by omega⟩ : Fin 1)) ?_).trans ?_
  · intro c
    match c with
    | ⟨0, _⟩ => rfl
    | ⟨1, _⟩ => rfl
    | ⟨2, _⟩ => rfl
  refine broadcastInDim_apply _ hb a _ (ix2 r j') ?_
  intro c
  match c with
  | ⟨0, _⟩ =>
    show r.val = if B = 1 then 0 else r.val
    split_ifs with h
    · have := r.isLt; omega
    · rfl
  | ⟨1, _⟩ =>
    show j'.val = if n = 1 then 0 else j'.val
    split_ifs with h
    · have := j'.isLt; omega
    · rfl

/-- An odd position of the interleave reads the second array at half the position. -/
theorem interleave_odd
    (a b : (⟨2, ![B, n]⟩ : Shape).Idx → α)
    (hb : (⟨2, ![B, n]⟩ : Shape).BroadcastsInDim ⟨3, ![B, n, 1]⟩ ![0, 1])
    (hc : Shape.Concatenates [⟨3, ![B, n, 1]⟩, ⟨3, ![B, n, 1]⟩] ⟨3, ![B, n, 2]⟩ 2)
    (hs : (⟨3, ![B, n, 2]⟩ : Shape).ShapeCasts ⟨2, ![B, n2]⟩)
    (h2 : n2 = 2 * n) (r : Fin B) (j : Fin n2) (j' : Fin n) (hj : j.val = 2 * j'.val + 1) :
    shapeCast (⟨2, ![B, n2]⟩ : Shape)
      (concatenate (⟨3, ![B, n, 2]⟩ : Shape) 2
        [⟨(⟨3, ![B, n, 1]⟩ : Shape), broadcastInDim (⟨3, ![B, n, 1]⟩ : Shape) ![0, 1] hb a⟩,
         ⟨(⟨3, ![B, n, 1]⟩ : Shape), broadcastInDim (⟨3, ![B, n, 1]⟩ : Shape) ![0, 1] hb b⟩] hc) hs (ix2 r j)
      = b (ix2 r j') := by
  refine (shapeCast_apply _ hs (ix2 r j) (ix3 r j' (⟨1, by omega⟩ : Fin 2)) ?_).trans ?_
  · rw [Shape.rowMajor_val_three, Shape.rowMajor_val_two]
    show (r.val * n + j'.val) * 2 + 1 = r.val * n2 + j.val
    subst h2; rw [hj]; ring
  refine (concatenate_pair_apply_right (t := ⟨3, ![B, n, 2]⟩) (2 : Fin 3) _ _ hc _ rfl rfl
    (ix3 r j' (⟨0, by omega⟩ : Fin 1)) ?_ ?_).trans ?_
  · intro c hcne
    match c, hcne with
    | ⟨0, _⟩, _ => rfl
    | ⟨1, _⟩, _ => rfl
    | ⟨2, _⟩, h => exact absurd rfl h
  · rfl
  refine broadcastInDim_apply _ hb b _ (ix2 r j') ?_
  intro c
  match c with
  | ⟨0, _⟩ =>
    show r.val = if B = 1 then 0 else r.val
    split_ifs with h
    · have := r.isLt; omega
    · rfl
  | ⟨1, _⟩ =>
    show j'.val = if n = 1 then 0 else j'.val
    split_ifs with h
    · have := j'.isLt; omega
    · rfl

/-! ## One level of the tree

The next level's products: the previous level's array P times (1 - g) on the left and times g on the right,
interleaved, where g is the level's slice of the array G of all gates, starting at column off. -/

/-- An even position 2 j' of the next level: the parent's product times one minus the parent's gate. -/
theorem level_even {N off : Nat}
    (P : FVec Ideal ⟨2, ![B, n]⟩ .f32) (G : FVec Ideal ⟨2, ![B, N]⟩ .f32)
    (hb : (⟨2, ![B, n]⟩ : Shape).BroadcastsInDim ⟨3, ![B, n, 1]⟩ ![0, 1])
    (hc : Shape.Concatenates [⟨3, ![B, n, 1]⟩, ⟨3, ![B, n, 1]⟩] ⟨3, ![B, n, 2]⟩ 2)
    (hs : (⟨3, ![B, n, 2]⟩ : Shape).ShapeCasts ⟨2, ![B, n2]⟩)
    (h0 : (⟨0, ![]⟩ : Shape).BroadcastsInDim ⟨2, ![B, n]⟩ ![])
    (hsl : (⟨2, ![B, N]⟩ : Shape).Slices ![0, off] ⟨2, ![B, n]⟩)
    (h2 : n2 = 2 * n) (r : Fin B) (j : Fin n2) (j' : Fin n) (m : Fin N) (hm : m.val = off + j'.val)
    (hj : j.val = 2 * j'.val) :
    shapeCast (⟨2, ![B, n2]⟩ : Shape)
      (concatenate (⟨3, ![B, n, 2]⟩ : Shape) 2
        [⟨(⟨3, ![B, n, 1]⟩ : Shape), broadcastInDim (⟨3, ![B, n, 1]⟩ : Shape) ![0, 1] hb
            (mulf P (subf (broadcastInDim (⟨2, ![B, n]⟩ : Shape) ![] h0 (constant (F := Ideal) ⟨0, ![]⟩ .f32 0x3F800000#32))
              (extractStridedSlice (⟨2, ![B, n]⟩ : Shape) ![0, off] G hsl)))⟩,
         ⟨(⟨3, ![B, n, 1]⟩ : Shape), broadcastInDim (⟨3, ![B, n, 1]⟩ : Shape) ![0, 1] hb
            (mulf P (extractStridedSlice (⟨2, ![B, n]⟩ : Shape) ![0, off] G hsl))⟩] hc) hs (ix2 r j)
      = P (ix2 r j') * (1 - G (ix2 r m)) := by
  refine (interleave_even _ _ hb hc hs h2 r j j' hj).trans ?_
  rw [mulf_apply, subf_apply, broadcastInDim_scalar_apply, constant_apply, Ideal.ofBits_one_f32]
  congr 2
  refine extractStridedSlice_apply _ G hsl (ix2 r j') (ix2 r m) ?_
  intro c
  match c with
  | ⟨0, _⟩ => show r.val = 0 + r.val; omega
  | ⟨1, _⟩ => show m.val = off + j'.val; exact hm

/-- An odd position 2 j' + 1 of the next level: the parent's product times the parent's gate. -/
theorem level_odd {N off : Nat}
    (P : FVec Ideal ⟨2, ![B, n]⟩ .f32) (G : FVec Ideal ⟨2, ![B, N]⟩ .f32)
    (hb : (⟨2, ![B, n]⟩ : Shape).BroadcastsInDim ⟨3, ![B, n, 1]⟩ ![0, 1])
    (hc : Shape.Concatenates [⟨3, ![B, n, 1]⟩, ⟨3, ![B, n, 1]⟩] ⟨3, ![B, n, 2]⟩ 2)
    (hs : (⟨3, ![B, n, 2]⟩ : Shape).ShapeCasts ⟨2, ![B, n2]⟩)
    (h0 : (⟨0, ![]⟩ : Shape).BroadcastsInDim ⟨2, ![B, n]⟩ ![])
    (hsl : (⟨2, ![B, N]⟩ : Shape).Slices ![0, off] ⟨2, ![B, n]⟩)
    (h2 : n2 = 2 * n) (r : Fin B) (j : Fin n2) (j' : Fin n) (m : Fin N) (hm : m.val = off + j'.val)
    (hj : j.val = 2 * j'.val + 1) :
    shapeCast (⟨2, ![B, n2]⟩ : Shape)
      (concatenate (⟨3, ![B, n, 2]⟩ : Shape) 2
        [⟨(⟨3, ![B, n, 1]⟩ : Shape), broadcastInDim (⟨3, ![B, n, 1]⟩ : Shape) ![0, 1] hb
            (mulf P (subf (broadcastInDim (⟨2, ![B, n]⟩ : Shape) ![] h0 (constant (F := Ideal) ⟨0, ![]⟩ .f32 0x3F800000#32))
              (extractStridedSlice (⟨2, ![B, n]⟩ : Shape) ![0, off] G hsl)))⟩,
         ⟨(⟨3, ![B, n, 1]⟩ : Shape), broadcastInDim (⟨3, ![B, n, 1]⟩ : Shape) ![0, 1] hb
            (mulf P (extractStridedSlice (⟨2, ![B, n]⟩ : Shape) ![0, off] G hsl))⟩] hc) hs (ix2 r j)
      = P (ix2 r j') * G (ix2 r m) := by
  refine (interleave_odd _ _ hb hc hs h2 r j j' hj).trans ?_
  rw [mulf_apply]
  congr 1
  refine extractStridedSlice_apply _ G hsl (ix2 r j') (ix2 r m) ?_
  intro c
  match c with
  | ⟨0, _⟩ => show r.val = 0 + r.val; omega
  | ⟨1, _⟩ => show m.val = off + j'.val; exact hm

end Cert.Interleave

namespace Cert.RowSoftmax

open Idealize.ShloMosaic Idealize.ShloMosaic.ValueIdx

variable {R C : Nat}

/-- The row index with a column inserted is the pair (row, column). -/
theorem lift_eq (h : Shape.Reduces ⟨2, ![R, C]⟩ [1] ⟨1, ![R]⟩) (l : Fin R) (c : Fin C) :
    h.lift (ix1 l) c = ix2 l c := by
  funext a
  apply Fin.ext
  match a with
  | ⟨0, _⟩ => rfl
  | ⟨1, _⟩ => rfl

/-- Comparing a fold of max once more with its starting value changes nothing. -/
theorem max_fold_max {ι : Type} (s : Finset ι) (b : EReal) (f : ι → EReal) :
    max b (s.fold max b f) = s.fold max b f :=
  max_eq_right ((Finset.le_fold_max b).2 (Or.inl le_rfl))

/-- A vector of one entry per row, broadcast along the rows, reads the row's entry. -/
theorem bcast_row_apply {α : Type} (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (l : Fin R) (c : Fin C) :
    broadcastInDim (⟨2, ![R, C]⟩ : Shape) ![0, 1] h2 (broadcastInDim (⟨2, ![R, 1]⟩ : Shape) ![0] h1 v) (ix2 l c)
      = v (ix1 l) := by
  refine (broadcastInDim_apply _ h2 _ (ix2 l c) (ix2 l (⟨0, by omega⟩ : Fin 1)) ?_).trans ?_
  · intro a
    match a with
    | ⟨0, _⟩ =>
      show l.val = if R = 1 then 0 else l.val
      split_ifs with h
      · have := l.isLt; omega
      · rfl
    | ⟨1, _⟩ => rfl
  refine broadcastInDim_apply _ h1 _ (ix2 l (⟨0, by omega⟩ : Fin 1)) (ix1 l) ?_
  intro a
  match a with
  | ⟨0, _⟩ =>
    show l.val = if R = 1 then 0 else l.val
    split_ifs with h
    · have := l.isLt; omega
    · rfl

/-- The row maximum, broadcast back over the row, read at (l, c): the fold of max over row l from the starting value. -/
theorem rowmax_apply (L : FVec Ideal ⟨2, ![R, C]⟩ .f32)
    (hred : (⟨2, ![R, C]⟩ : Shape).ReducesTo [1] ⟨1, ![R]⟩)
    (hr : Shape.Reduces ⟨2, ![R, C]⟩ [1] ⟨1, ![R]⟩)
    (hu : 0 < (⟨0, ![]⟩ : Shape).numel)
    (h0 : (⟨0, ![]⟩ : Shape).BroadcastsInDim ⟨1, ![R]⟩ ![])
    (h1 : (⟨1, ![R]⟩ : Shape).BroadcastsInDim ⟨2, ![R, 1]⟩ ![0])
    (h2 : (⟨2, ![R, 1]⟩ : Shape).BroadcastsInDim ⟨2, ![R, C]⟩ ![0, 1])
    (neg : BitVec 32) (l : Fin R) (c : Fin C) :
    broadcastInDim (⟨2, ![R, C]⟩ : Shape) ![0, 1] h2 (broadcastInDim (⟨2, ![R, 1]⟩ : Shape) ![0] h1
        (maximumf (broadcastInDim (⟨1, ![R]⟩ : Shape) ![] h0 (constant (F := Ideal) ⟨0, ![]⟩ .f32 neg))
          (Host.reduce FloatOps.maximumf L (constant (F := Ideal) ⟨0, ![]⟩ .f32 neg) hred hu))) (ix2 l c)
      = (Finset.univ : Finset (Fin C)).fold max (Ideal.ofBits .f32 neg) (fun c' => L (ix2 l c')) := by
  rw [bcast_row_apply, maximumf_apply, broadcastInDim_scalar_apply, constant_apply,
    Host.reduce_eq_fold_single FloatOps.maximumf L _ hred hr hu]
  have e : (L ∘ hr.lift (ix1 l)) = fun c' => L (ix2 l c') := funext fun c' => congrArg L (lift_eq hr l c')
  rw [e]
  exact max_fold_max _ _ _

/-- The row-wise softmax of L at (l, c): exp (L l c - M l) over the sum over the row of those, where M l is the fold of
    max over the row from the starting value. -/
theorem softmax_apply (L : FVec Ideal ⟨2, ![R, C]⟩ .f32)
    (hred : (⟨2, ![R, C]⟩ : Shape).ReducesTo [1] ⟨1, ![R]⟩)
    (hr : Shape.Reduces ⟨2, ![R, C]⟩ [1] ⟨1, ![R]⟩)
    (hu : 0 < (⟨0, ![]⟩ : Shape).numel)
    (h0 : (⟨0, ![]⟩ : Shape).BroadcastsInDim ⟨1, ![R]⟩ ![])
    (h1 : (⟨1, ![R]⟩ : Shape).BroadcastsInDim ⟨2, ![R, 1]⟩ ![0])
    (h2 : (⟨2, ![R, 1]⟩ : Shape).BroadcastsInDim ⟨2, ![R, C]⟩ ![0, 1])
    (neg : BitVec 32) (l : Fin R) (c : Fin C) :
    Host.divf
      (Host.exp (subf L (broadcastInDim (⟨2, ![R, C]⟩ : Shape) ![0, 1] h2 (broadcastInDim (⟨2, ![R, 1]⟩ : Shape) ![0] h1
        (maximumf (broadcastInDim (⟨1, ![R]⟩ : Shape) ![] h0 (constant (F := Ideal) ⟨0, ![]⟩ .f32 neg))
          (Host.reduce FloatOps.maximumf L (constant (F := Ideal) ⟨0, ![]⟩ .f32 neg) hred hu))))))
      (broadcastInDim (⟨2, ![R, C]⟩ : Shape) ![0, 1] h2 (broadcastInDim (⟨2, ![R, 1]⟩ : Shape) ![0] h1
        (Host.reduceAdd
          (Host.exp (subf L (broadcastInDim (⟨2, ![R, C]⟩ : Shape) ![0, 1] h2 (broadcastInDim (⟨2, ![R, 1]⟩ : Shape) ![0] h1
            (maximumf (broadcastInDim (⟨1, ![R]⟩ : Shape) ![] h0 (constant (F := Ideal) ⟨0, ![]⟩ .f32 neg))
              (Host.reduce FloatOps.maximumf L (constant (F := Ideal) ⟨0, ![]⟩ .f32 neg) hred hu))))))
          (constant (F := Ideal) ⟨0, ![]⟩ .f32 0x00000000#32) hred hu)))
      (ix2 l c)
    = Ideal.div
        (Ideal.exp (L (ix2 l c) - (Finset.univ : Finset (Fin C)).fold max (Ideal.ofBits .f32 neg) (fun c' => L (ix2 l c'))))
        (∑ c' : Fin C, Ideal.exp (L (ix2 l c') - (Finset.univ : Finset (Fin C)).fold max (Ideal.ofBits .f32 neg) (fun c'' => L (ix2 l c'')))) := by
  have hA : ∀ c' : Fin C,
      Host.exp (subf L (broadcastInDim (⟨2, ![R, C]⟩ : Shape) ![0, 1] h2 (broadcastInDim (⟨2, ![R, 1]⟩ : Shape) ![0] h1
        (maximumf (broadcastInDim (⟨1, ![R]⟩ : Shape) ![] h0 (constant (F := Ideal) ⟨0, ![]⟩ .f32 neg))
          (Host.reduce FloatOps.maximumf L (constant (F := Ideal) ⟨0, ![]⟩ .f32 neg) hred hu))))) (ix2 l c')
      = Ideal.exp (L (ix2 l c') - (Finset.univ : Finset (Fin C)).fold max (Ideal.ofBits .f32 neg) (fun c'' => L (ix2 l c''))) := by
    intro c'
    show Ideal.exp (L (ix2 l c') - _) = _
    rw [rowmax_apply L hred hr hu h0 h1 h2 neg l c']
  rw [hostDivf_apply, hA c, bcast_row_apply, hostReduceAdd_apply, Ideal.hostReduceAdd_single hred hr _ _ (ix1 l)]
  congr 1
  show Ideal.ofBits .f32 0x00000000#32 + ∑ k : Fin C, _ = _
  rw [Ideal.ofBits_zero_f32, zero_add]
  refine Finset.sum_congr rfl fun k _ => ?_
  rw [lift_eq]
  exact hA k

end Cert.RowSoftmax

namespace Cert.Gates

open Idealize.ShloMosaic Idealize.ShloMosaic.ValueIdx

variable {B D N : Nat}

/-- A vector of one entry per column, broadcast down the rows, reads the column's entry. -/
theorem bcast_col_apply {α : Type} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![B, N]⟩ ![0, 1]) (r : Fin B) (n : Fin N) :
    broadcastInDim (⟨2, ![B, N]⟩ : Shape) ![0, 1] h2 (broadcastInDim (⟨2, ![1, N]⟩ : Shape) ![1] h1 v) (ix2 r n)
      = v (ix1 n) := by
  refine (broadcastInDim_apply _ h2 _ (ix2 r n) (ix2 (⟨0, by omega⟩ : Fin 1) n) ?_).trans ?_
  · intro a
    match a with
    | ⟨0, _⟩ => rfl
    | ⟨1, _⟩ =>
      show n.val = if N = 1 then 0 else n.val
      split_ifs with h
      · have := n.isLt; omega
      · rfl
  refine broadcastInDim_apply _ h1 _ (ix2 (⟨0, by omega⟩ : Fin 1) n) (ix1 n) ?_
  intro a
  match a with
  | ⟨0, _⟩ =>
    show n.val = if N = 1 then 0 else n.val
    split_ifs with h
    · have := n.isLt; omega
    · rfl

/-- The host's exponential at an index is the exponential of the element. -/
theorem hostExp_apply {s : Shape} {φ : FTy} (a : FVec Ideal s φ) (i : s.Idx) : Host.exp a i = Ideal.exp (a i) := rfl
/-- The host's negation at an index is the negation of the element. -/
theorem hostNegf_apply {s : Shape} {φ : FTy} (a : FVec Ideal s φ) (i : s.Idx) : Host.negf a i = -(a i) := rfl

/-- The gate array at (r, n): the logistic function of beta n times (the inner product of row r of X with row n of W,
    plus b n), written as one over one plus the exponential of the negation. -/
theorem gates_apply (X : FVec Ideal ⟨2, ![B, D]⟩ .f32) (W : FVec Ideal ⟨2, ![N, D]⟩ .f32)
    (b beta : FVec Ideal ⟨1, ![N]⟩ .f32)
    (htr : (⟨2, ![N, D]⟩ : Shape).Transposes [1, 0] ⟨2, ![D, N]⟩)
    (h1 : (⟨1, ![N]⟩ : Shape).BroadcastsInDim ⟨2, ![1, N]⟩ ![1])
    (h2 : (⟨2, ![1, N]⟩ : Shape).BroadcastsInDim ⟨2, ![B, N]⟩ ![0, 1])
    (h0 : (⟨0, ![]⟩ : Shape).BroadcastsInDim ⟨2, ![B, N]⟩ ![])
    (r : Fin B) (n : Fin N) :
    Host.divf (broadcastInDim (⟨2, ![B, N]⟩ : Shape) ![] h0 (constant (F := Ideal) ⟨0, ![]⟩ .f32 0x3F800000#32))
      (addf (broadcastInDim (⟨2, ![B, N]⟩ : Shape) ![] h0 (constant (F := Ideal) ⟨0, ![]⟩ .f32 0x3F800000#32))
        (Host.exp (Host.negf (mulf
          (broadcastInDim (⟨2, ![B, N]⟩ : Shape) ![0, 1] h2 (broadcastInDim (⟨2, ![1, N]⟩ : Shape) ![1] h1 beta))
          (addf (Host.dotGeneral (DotDims.plain B D N) none X (transpose (⟨2, ![D, N]⟩ : Shape) [1, 0] W htr))
            (broadcastInDim (⟨2, ![B, N]⟩ : Shape) ![0, 1] h2 (broadcastInDim (⟨2, ![1, N]⟩ : Shape) ![1] h1 b)))))))
      (ix2 r n)
    = Ideal.logistic (beta (ix1 n) * ((∑ k : Fin D, X (ix2 r k) * W (ix2 n k)) + b (ix1 n))) := by
  rw [hostDivf_apply, addf_apply, broadcastInDim_scalar_apply, constant_apply, Ideal.ofBits_one_f32]
  rw [hostExp_apply, hostNegf_apply, mulf_apply, addf_apply, bcast_col_apply, bcast_col_apply, StackMember.dotGeneral_plain_apply]
  unfold Ideal.logistic
  congr 6
  refine Finset.sum_congr rfl fun k _ => ?_
  congr 1
  refine transpose_apply _ W htr (ix2 k n) (ix2 n k) ?_
  intro a
  match a with
  | ⟨0, _⟩ => rfl
  | ⟨1, _⟩ => rfl

end Cert.Gates
-- ==== Proof.RefValue.lean ====
/-
  The reference program's result is the specification's mixture.

  The reference computes every inner node's gate in one matrix product, then walks the tree level by level: level d + 1's
  2^(d+1) path products are level d's, each times one minus its node's gate (left child) and times the gate (right child),
  the two laid at the consecutive positions 2 j and 2 j + 1 — the heap order, which is the recursion pathR. The leaves'
  distributions are row-wise softmaxes, and the result is the product of the [rows, leaves] path array with the
  [leaves, classes] softmax array: at (r, c) the sum over the leaves of path product times softmax, the mixture.

  The array expressions are read at an index by the program-independent lemmas of the module Interleave, instantiated at
  each level's literal shapes.
-/
import proofs.«163341_j35716948033588_2_alg».proof.Proof.RefRun
import proofs.«163341_j35716948033588_2_alg».proof.Proof.TreeSpec
import proofs.«163341_j35716948033588_2_alg».proof.Proof.Interleave

noncomputable section

namespace Cert.ReferenceIdeal.RefValue

open Cert.ReferenceIdeal Cert.ReferenceIdeal.Gen Cert.ReferenceIdeal.HandRun Idealize.ShloMosaic Idealize.ShloMosaic.ValueIdx Cert.TreeSpec
open Idealize.ShloMosaic.StableHlo Idealize.SL.Sem

/-! ## One level against the heap-order recursion -/

/-- If P holds level d's path products of the gates p and G holds the gates, the interleave of P * (1 - g) and P * g,
    g the slice of G from column 2^d - 1, holds level d + 1's. -/
theorem level_pathR {B n n2 N off d d1 : Nat}
    (P : FVec Ideal ⟨2, ![B, n]⟩ .f32) (G : FVec Ideal ⟨2, ![B, N]⟩ .f32)
    (hb : (⟨2, ![B, n]⟩ : Shape).BroadcastsInDim ⟨3, ![B, n, 1]⟩ ![0, 1])
    (hc : Shape.Concatenates [⟨3, ![B, n, 1]⟩, ⟨3, ![B, n, 1]⟩] ⟨3, ![B, n, 2]⟩ 2)
    (hs : (⟨3, ![B, n, 2]⟩ : Shape).ShapeCasts ⟨2, ![B, n2]⟩)
    (h0 : (⟨0, ![]⟩ : Shape).BroadcastsInDim ⟨2, ![B, n]⟩ ![])
    (hsl : (⟨2, ![B, N]⟩ : Shape).Slices ![0, off] ⟨2, ![B, n]⟩)
    (h2 : n2 = 2 * n) (hn : n = 2 ^ d) (hoff : off = 2 ^ d - 1) (hd : d1 = d + 1) (hN : off + n ≤ N)
    (p : Fin B → ℕ → EReal)
    (hP : ∀ (r : Fin B) (j : Fin n), P (ix2 r j) = pathR (p r) d j.val)
    (hG : ∀ (r : Fin B) (m : Fin N), G (ix2 r m) = p r m.val)
    (r : Fin B) (j : Fin n2) :
    shapeCast (⟨2, ![B, n2]⟩ : Shape)
      (concatenate (⟨3, ![B, n, 2]⟩ : Shape) 2
        [⟨(⟨3, ![B, n, 1]⟩ : Shape), broadcastInDim (⟨3, ![B, n, 1]⟩ : Shape) ![0, 1] hb
            (mulf P (subf (broadcastInDim (⟨2, ![B, n]⟩ : Shape) ![] h0 (constant (F := Ideal) ⟨0, ![]⟩ .f32 0x3F800000#32))
              (extractStridedSlice (⟨2, ![B, n]⟩ : Shape) ![0, off] G hsl)))⟩,
         ⟨(⟨3, ![B, n, 1]⟩ : Shape), broadcastInDim (⟨3, ![B, n, 1]⟩ : Shape) ![0, 1] hb
            (mulf P (extractStridedSlice (⟨2, ![B, n]⟩ : Shape) ![0, off] G hsl))⟩] hc) hs (ix2 r j)
      = pathR (p r) d1 j.val := by
  subst hd hoff
  have hj2 : j.val / 2 < n := by have := j.isLt; omega
  have hm : 2 ^ d - 1 + j.val / 2 < N := by omega
  rw [pathR_succ]
  by_cases he : j.val % 2 = 0
  · rw [if_pos he, Cert.Interleave.level_even P G hb hc hs h0 hsl h2 r j ⟨j.val / 2, hj2⟩ ⟨2 ^ d - 1 + j.val / 2, hm⟩ rfl
      (by show j.val = 2 * (j.val / 2); omega), hP, hG]
  · rw [if_neg he, Cert.Interleave.level_odd P G hb hc hs h0 hsl h2 r j ⟨j.val / 2, hj2⟩ ⟨2 ^ d - 1 + j.val / 2, hm⟩ rfl
      (by show j.val = 2 * (j.val / 2) + 1; omega), hP, hG]

variable (V0 : Valuation τ sig (Elt Ideal))

/-- A row's gates by heap index, of the five argument arrays. -/
abbrev gN (r : Fin 131072) : ℕ → EReal :=
  gateN (V0 (Proc.devRef .tc main_arg0)) (V0 (Proc.devRef .tc main_arg1)) (V0 (Proc.devRef .tc main_arg2))
    (V0 (Proc.devRef .tc main_arg3)) r

/-- Every gate of the reference is the specification's gate. -/
theorem gates_eq (r : Fin 131072) (n : Fin 1023) :
    res_main_v13 V0 (ix2 r n)
      = gate (V0 (Proc.devRef .tc main_arg0)) (V0 (Proc.devRef .tc main_arg1)) (V0 (Proc.devRef .tc main_arg2))
          (V0 (Proc.devRef .tc main_arg3)) r n :=
  Cert.Gates.gates_apply (V0 (Proc.devRef .tc main_arg0)) (V0 (Proc.devRef .tc main_arg1)) (V0 (Proc.devRef .tc main_arg2))
    (V0 (Proc.devRef .tc main_arg3)) transposes_S1023x64_S64x1023_1_0 bcast_S1023_S1x1023_1 bcast_S1x1023_S131072x1023_0_1
    bcast_S_S131072x1023 r n

theorem gatesN_eq (r : Fin 131072) (m : Fin 1023) : res_main_v13 V0 (ix2 r m) = gN V0 r m.val := by
  rw [gN, gateN_of_lt _ _ _ _ _ _ m.isLt]
  exact gates_eq V0 r m

/-- Level 0: the one path product is 1. -/
theorem path0 (r : Fin 131072) (j : Fin 1) : res_main_v14 V0 (ix2 r j) = pathR (gN V0 r) 0 j.val := by
  rw [pathR_zero]
  show broadcastInDim S131072x1 ![] bcast_S_S131072x1 (constant (F := Ideal) S_ .f32 0x3F800000#32) (ix2 r j) = 1
  rw [broadcastInDim_scalar_apply, constant_apply, Ideal.ofBits_one_f32]

theorem path1 (r : Fin 131072) (j : Fin 2) : res_main_v23 V0 (ix2 r j) = pathR (gN V0 r) 1 j.val :=
  level_pathR (res_main_v14 V0) (res_main_v13 V0) bcast_S131072x1_S131072x1x1_0_1
    concatenates_S131072x1x1_S131072x1x1_S131072x1x2_d2 shapeCasts_S131072x1x2_S131072x2 bcast_S_S131072x1
    slices_S131072x1023_S131072x1_0_0 (d := 0) rfl rfl rfl rfl (by norm_num) (gN V0) (path0 V0) (gatesN_eq V0) r j

theorem path2 (r : Fin 131072) (j : Fin 4) : res_main_v32 V0 (ix2 r j) = pathR (gN V0 r) 2 j.val :=
  level_pathR (res_main_v23 V0) (res_main_v13 V0) bcast_S131072x2_S131072x2x1_0_1
    concatenates_S131072x2x1_S131072x2x1_S131072x2x2_d2 shapeCasts_S131072x2x2_S131072x4 bcast_S_S131072x2
    slices_S131072x1023_S131072x2_0_1 (d := 1) rfl rfl rfl rfl (by norm_num) (gN V0) (path1 V0) (gatesN_eq V0) r j

theorem path3 (r : Fin 131072) (j : Fin 8) : res_main_v41 V0 (ix2 r j) = pathR (gN V0 r) 3 j.val :=
  level_pathR (res_main_v32 V0) (res_main_v13 V0) bcast_S131072x4_S131072x4x1_0_1
    concatenates_S131072x4x1_S131072x4x1_S131072x4x2_d2 shapeCasts_S131072x4x2_S131072x8 bcast_S_S131072x4
    slices_S131072x1023_S131072x4_0_3 (d := 2) rfl rfl rfl rfl (by norm_num) (gN V0) (path2 V0) (gatesN_eq V0) r j

theorem path4 (r : Fin 131072) (j : Fin 16) : res_main_v50 V0 (ix2 r j) = pathR (gN V0 r) 4 j.val :=
  level_pathR (res_main_v41 V0) (res_main_v13 V0) bcast_S131072x8_S131072x8x1_0_1
    concatenates_S131072x8x1_S131072x8x1_S131072x8x2_d2 shapeCasts_S131072x8x2_S131072x16 bcast_S_S131072x8
    slices_S131072x1023_S131072x8_0_7 (d := 3) rfl rfl rfl rfl (by norm_num) (gN V0) (path3 V0) (gatesN_eq V0) r j

theorem path5 (r : Fin 131072) (j : Fin 32) : res_main_v59 V0 (ix2 r j) = pathR (gN V0 r) 5 j.val :=
  level_pathR (res_main_v50 V0) (res_main_v13 V0) bcast_S131072x16_S131072x16x1_0_1
    concatenates_S131072x16x1_S131072x16x1_S131072x16x2_d2 shapeCasts_S131072x16x2_S131072x32 bcast_S_S131072x16
    slices_S131072x1023_S131072x16_0_15 (d := 4) rfl rfl rfl rfl (by norm_num) (gN V0) (path4 V0) (gatesN_eq V0) r j

theorem path6 (r : Fin 131072) (j : Fin 64) : res_main_v68 V0 (ix2 r j) = pathR (gN V0 r) 6 j.val :=
  level_pathR (res_main_v59 V0) (res_main_v13 V0) bcast_S131072x32_S131072x32x1_0_1
    concatenates_S131072x32x1_S131072x32x1_S131072x32x2_d2 shapeCasts_S131072x32x2_S131072x64 bcast_S_S131072x32
    slices_S131072x1023_S131072x32_0_31 (d := 5) rfl rfl rfl rfl (by norm_num) (gN V0) (path5 V0) (gatesN_eq V0) r j

theorem path7 (r : Fin 131072) (j : Fin 128) : res_main_v77 V0 (ix2 r j) = pathR (gN V0 r) 7 j.val :=
  level_pathR (res_main_v68 V0) (res_main_v13 V0) bcast_S131072x64_S131072x64x1_0_1
    concatenates_S131072x64x1_S131072x64x1_S131072x64x2_d2 shapeCasts_S131072x64x2_S131072x128 bcast_S_S131072x64
    slices_S131072x1023_S131072x64_0_63 (d := 6) rfl rfl rfl rfl (by norm_num) (gN V0) (path6 V0) (gatesN_eq V0) r j

theorem path8 (r : Fin 131072) (j : Fin 256) : res_main_v86 V0 (ix2 r j) = pathR (gN V0 r) 8 j.val :=
  level_pathR (res_main_v77 V0) (res_main_v13 V0) bcast_S131072x128_S131072x128x1_0_1
    concatenates_S131072x128x1_S131072x128x1_S131072x128x2_d2 shapeCasts_S131072x128x2_S131072x256 bcast_S_S131072x128
    slices_S131072x1023_S131072x128_0_127 (d := 7) rfl rfl rfl rfl (by norm_num) (gN V0) (path7 V0) (gatesN_eq V0) r j

theorem path9 (r : Fin 131072) (j : Fin 512) : res_main_v95 V0 (ix2 r j) = pathR (gN V0 r) 9 j.val :=
  level_pathR (res_main_v86 V0) (res_main_v13 V0) bcast_S131072x256_S131072x256x1_0_1
    concatenates_S131072x256x1_S131072x256x1_S131072x256x2_d2 shapeCasts_S131072x256x2_S131072x512 bcast_S_S131072x256
    slices_S131072x1023_S131072x256_0_255 (d := 8) rfl rfl rfl rfl (by norm_num) (gN V0) (path8 V0) (gatesN_eq V0) r j

/-- The softmax quotient of the reference at (l, c) is the specification's softmax of row l at c. -/
theorem softmax_eq (l : Fin 1024) (c : Fin 16) :
    Host.divf (res_main_v111 V0) (broadcastInDim S1024x16 ![0, 1] bcast_S1024x1_S1024x16_0_1 (broadcastInDim S1024x1 ![0] bcast_S1024_S1024x1_0 (Host.reduceAdd (res_main_v111 V0) (constant S_ .f32 0x00000000#32) reducesTo_S1024x16_S1024_d1 h_S_))) (ix2 l c)
      = softmaxRow (fun c' => V0 (Proc.devRef .tc main_arg4) (ix2 l c')) c :=
  Cert.RowSoftmax.softmax_apply (V0 (Proc.devRef .tc main_arg4)) reducesTo_S1024x16_S1024_d1 (by decide) h_S_ bcast_S_S1024
    bcast_S1024_S1024x1_0 bcast_S1024x1_S1024x16_0_1 0xFF800000#32 l c

/-- The reference's result, as its run states it, is the mixture of the five argument arrays. -/
theorem result_eq :
    Host.dotGeneral dot_S131072x1024_S1024x16_S131072x16_1_0_0_1_n_n none (shapeCast _ (concatenate S131072x512x2 2 [⟨S131072x512x1, (broadcastInDim S131072x512x1 ![0, 1] bcast_S131072x512_S131072x512x1_0_1 (mulf (res_main_v95 V0) (subf (broadcastInDim S131072x512 ![] bcast_S_S131072x512 (constant S_ .f32 0x3F800000#32)) (res_main_v96 V0))))⟩, ⟨S131072x512x1, (broadcastInDim S131072x512x1 ![0, 1] bcast_S131072x512_S131072x512x1_0_1 (mulf (res_main_v95 V0) (res_main_v96 V0)))⟩] concatenates_S131072x512x1_S131072x512x1_S131072x512x2_d2) shapeCasts_S131072x512x2_S131072x1024) (Host.divf (res_main_v111 V0) (broadcastInDim S1024x16 ![0, 1] bcast_S1024x1_S1024x16_0_1 (broadcastInDim S1024x1 ![0] bcast_S1024_S1024x1_0 (Host.reduceAdd (res_main_v111 V0) (constant S_ .f32 0x00000000#32) reducesTo_S1024x16_S1024_d1 h_S_))))
      = mixture (V0 (Proc.devRef .tc main_arg0)) (V0 (Proc.devRef .tc main_arg1)) (V0 (Proc.devRef .tc main_arg2))
          (V0 (Proc.devRef .tc main_arg3)) (V0 (Proc.devRef .tc main_arg4)) := by
  funext i
  obtain ⟨r, c, rfl⟩ : ∃ (r : Fin 131072) (c : Fin 16), i = ix2 r c := ⟨i 0, i 1, eq_ix2 i⟩
  refine (StackMember.dotGeneral_plain_apply none _ _ r c).trans ?_
  show _ = ∑ l : Fin 1024, pathR (gN V0 r) 10 l.val * softmaxRow (fun c' => V0 (Proc.devRef .tc main_arg4) (ix2 l c')) c
  refine Finset.sum_congr rfl fun l _ => ?_
  refine congrArg₂ (· * ·) ?_ ?_
  · exact level_pathR (res_main_v95 V0) (res_main_v13 V0) bcast_S131072x512_S131072x512x1_0_1
      concatenates_S131072x512x1_S131072x512x1_S131072x512x2_d2 shapeCasts_S131072x512x2_S131072x1024 bcast_S_S131072x512
      slices_S131072x1023_S131072x512_0_511 (d := 9) rfl rfl rfl rfl (by norm_num) (gN V0) (path9 V0) (gatesN_eq V0) r l
  · exact softmax_eq V0 l c

end Cert.ReferenceIdeal.RefValue
end
-- ==== Proof.lean ====
/- The certificate of a soft decision tree of depth ten: a kernel that lays each level's path products out by
   appending the right children after the left ones (so that its leaves come out in bit-reversed order, which it makes
   good by permuting the node parameters level by level and the leaf rows by the ten-bit reversal), against a
   reference that interleaves left and right children (heap order).

   At the extended reals both programs compute, for batch row r and class c, the sum over the 1024 leaves of the
   product of the gate factors along the root-to-leaf path times the softmax of the leaf's row
   (TreeSpec.mixture). The reference's run is read back window by window in Proof/RefRun.lean and its result is that
   function by Proof/RefValue.lean; the kernel's result array is
   that function by Proof/KernelValue.lean, through the body's value (Proof/KernelBlock.lean, Proof/Levels.lean,
   Proof/AppendStep.lean), the host-side permutations (Proof/HostSide.lean, Proof/Tables.lean) and the law that a sum
   over the leaves may be taken in bit-reversed order (Proof/Bridge.lean). No step needs an entry to be finite.
   The three frames are the generated ones; the idealization rewrote nothing, so preserves is trivial. -/
import proofs.«163341_j35716948033588_2_alg».proof.Defs
import proofs.«163341_j35716948033588_2_alg».proof.Proof.Gen.Kernel
import proofs.«163341_j35716948033588_2_alg».proof.Proof.Gen.Kernel.Skeleton
import proofs.«163341_j35716948033588_2_alg».proof.Proof.Gen.Kernel.Launch
import proofs.«163341_j35716948033588_2_alg».proof.Proof.Gen.Kernel.Points
import proofs.«163341_j35716948033588_2_alg».proof.Proof.Gen.Kernel.Frame
import proofs.«163341_j35716948033588_2_alg».proof.Proof.Gen.KernelIdeal
import proofs.«163341_j35716948033588_2_alg».proof.Proof.Gen.KernelIdeal.Skeleton
import proofs.«163341_j35716948033588_2_alg».proof.Proof.Gen.KernelIdeal.Launch
import proofs.«163341_j35716948033588_2_alg».proof.Proof.Gen.KernelIdeal.Points
import proofs.«163341_j35716948033588_2_alg».proof.Proof.Gen.KernelIdeal.Frame
import proofs.«163341_j35716948033588_2_alg».proof.Proof.Gen.ReferenceIdeal
import proofs.«163341_j35716948033588_2_alg».proof.Proof.Gen.Pre_finite_inputs
import proofs.«163341_j35716948033588_2_alg».proof.Proof.Gen.KernelIdeal.Value
import proofs.«163341_j35716948033588_2_alg».proof.Proof.KernelValue
import proofs.«163341_j35716948033588_2_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- Both runs end with the result at the mixture of the (agreeing) argument arrays. -/
theorem algebraic : Cert.algebraic_KernelIdeal_ReferenceIdeal := by
  intro m ρ m' ρ' _ hagree
  refine ⟨fun c => Cert.KernelIdeal.Mixture.G m c, Cert.KernelIdeal.Mixture.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefValue.result_eq]
  show Cert.TreeSpec.mixture (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4)) = _
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
